-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000x256 : Shape := ⟨2, ![50000, 256]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S512x128 .f32) (main_arg15 : FVec F S128 .f32) (main_arg16 : FVec F S128x1 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S512x128 .f32 := Host.absf main_arg14
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S256x128 .f32) (main_arg11 : FVec F S128 .f32) (main_arg12 : FVec F S128x128 .f32) (main_arg13 : FVec F S128 .f32) (main_arg14 : FVec F S512x128 .f32) (main_arg15 : FVec F S128 .f32) (main_arg16 : FVec F S128x1 .f32) (main_arg17 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S512x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S512x128 .f32) (main_arg15 : FVec F S128 .f32) (main_arg16 : FVec F S128x1 .f32) (main_arg17 : FVec F S1 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x512 .f32) (main_arg1 : FVec F S50000x512 .f32) (main_arg2 : FVec F S50000x256 .f32) (main_arg3 : FVec F S50000x256 .f32) (main_arg4 : IVec S2x1600000 32) (main_arg5 : IVec S2x1600000 32) (main_arg6 : FVec F S512x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S512x128 .f32) (main_arg15 : FVec F S128 .f32) (main_arg16 : FVec F S128x1 .f32) (main_arg17 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x256 .f32 := Host.absf main_arg3
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x512 : Shape := ⟨2, ![50000, 512]⟩
abbrev S50000x256 : Shape := ⟨2, ![50000, 256]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S50000x128 : Shape := ⟨2, ![50000, 128]⟩
abbrev S2000x512 : Shape := ⟨2, ![2000, 512]⟩
abbrev S2000x128 : Shape := ⟨2, ![2000, 128]⟩
abbrev S2000x256 : Shape := ⟨2, ![2000, 256]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 246
  | .vmem => 56
  | .smem => 0
  | _ => 0

abbrev hbmTy0_0 (i : Nat) : BufTy := match i % 128 with
  | 0 => ⟨S50000x512, .f32⟩
  | 1 => ⟨S50000x512, .f32⟩
  | 2 => ⟨S50000x256, .f32⟩
  | 3 => ⟨S50000x256, .f32⟩
  | 4 => ⟨S2x1600000, .i32⟩
  | 5 => ⟨S2x1600000, .i32⟩
  | 6 => ⟨S512x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S512x128, .f32⟩
  | 15 => ⟨S128, .f32⟩
  | 16 => ⟨S128x1, .f32⟩
  | 17 => ⟨S1, .f32⟩
  | 18 => ⟨S1x128, .f32⟩
  | 19 => ⟨S1x128, .f32⟩
  | 20 => ⟨S50000x128, .f32⟩
  | 21 => ⟨S1x128, .f32⟩
  | 22 => ⟨S1x128, .f32⟩
  | 23 => ⟨S50000x128, .f32⟩
  | 24 => ⟨S50000x128, .f32⟩
  | 25 => ⟨S50000x128, .f32⟩
  | 26 => ⟨S1x1600000, .i32⟩
  | 27 => ⟨S1600000, .i32⟩
  | 28 => ⟨S1x1600000, .i32⟩
  | 29 => ⟨S1600000, .i32⟩
  | 30 => ⟨S50000, .i32⟩
  | 31 => ⟨S1650000, .i32⟩
  | 32 => ⟨S1650000, .i32⟩
  | 33 => ⟨S_, .f32⟩
  | 34 => ⟨S1650000, .f32⟩
  | 35 => ⟨S_, .f32⟩
  | 36 => ⟨S50000, .f32⟩
  | 37 => ⟨S1650000x1, .i32⟩
  | 38 => ⟨S50000, .f32⟩
  | 39 => ⟨S_, .f32⟩
  | 40 => ⟨S50000, .f32⟩
  | 41 => ⟨S50000, .f32⟩
  | 42 => ⟨S50000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000, .f32⟩
  | 61 => ⟨S1650000, .f32⟩
  | 62 => ⟨S_, .i32⟩
  | 63 => ⟨S1650000, .i32⟩
  | 64 => ⟨S1650000, .i1⟩
  | 65 => ⟨S_, .i32⟩
  | 66 => ⟨S1650000, .i32⟩
  | 67 => ⟨S1650000, .i32⟩
  | 68 => ⟨S1650000, .i32⟩
  | 69 => ⟨S1650000x1, .i32⟩
  | 70 => ⟨S1650000x128, .f32⟩
  | 71 => ⟨S1650000x1, .f32⟩
  | 72 => ⟨S1650000x128, .f32⟩
  | 73 => ⟨S1650000x128, .f32⟩
  | 74 => ⟨S_, .f32⟩
  | 75 => ⟨S50000x128, .f32⟩
  | 76 => ⟨S1650000x1, .i32⟩
  | 77 => ⟨S50000x128, .f32⟩
  | 78 => ⟨S1x1600000, .i32⟩
  | 79 => ⟨S1600000, .i32⟩
  | 80 => ⟨S1x1600000, .i32⟩
  | 81 => ⟨S1600000, .i32⟩
  | 82 => ⟨S50000, .i32⟩
  | 83 => ⟨S1650000, .i32⟩
  | 84 => ⟨S1650000, .i32⟩
  | 85 => ⟨S_, .f32⟩
  | 86 => ⟨S1650000, .f32⟩
  | 87 => ⟨S_, .f32⟩
  | 88 => ⟨S50000, .f32⟩
  | 89 => ⟨S1650000x1, .i32⟩
  | 90 => ⟨S50000, .f32⟩
  | 91 => ⟨S_, .f32⟩
  | 92 => ⟨S50000, .f32⟩
  | 93 => ⟨S50000, .f32⟩
  | 94 => ⟨S50000, .f32⟩
  | 95 => ⟨S_, .i32⟩
  | 96 => ⟨S1650000, .i32⟩
  | 97 => ⟨S1650000, .i1⟩
  | 98 => ⟨S_, .i32⟩
  | 99 => ⟨S1650000, .i32⟩
  | 100 => ⟨S1650000, .i32⟩
  | 101 => ⟨S1650000, .i32⟩
  | 102 => ⟨S1650000x1, .i32⟩
  | 103 => ⟨S1650000, .f32⟩
  | 104 => ⟨S_, .i32⟩
  | 105 => ⟨S1650000, .i32⟩
  | 106 => ⟨S1650000, .i1⟩
  | 107 => ⟨S_, .i32⟩
  | 108 => ⟨S1650000, .i32⟩
  | 109 => ⟨S1650000, .i32⟩
  | 110 => ⟨S1650000, .i32⟩
  | 111 => ⟨S1650000x1, .i32⟩
  | 112 => ⟨S1650000, .f32⟩
  | 113 => ⟨S1650000, .f32⟩
  | 114 => ⟨S_, .i32⟩
  | 115 => ⟨S1650000, .i32⟩
  | 116 => ⟨S1650000, .i1⟩
  | 117 => ⟨S_, .i32⟩
  | 118 => ⟨S1650000, .i32⟩
  | 119 => ⟨S1650000, .i32⟩
  | 120 => ⟨S1650000, .i32⟩
  | 121 => ⟨S1650000x1, .i32⟩
  | 122 => ⟨S1650000x128, .f32⟩
  | 123 => ⟨S1650000x1, .f32⟩
  | 124 => ⟨S1650000x128, .f32⟩
  | 125 => ⟨S1650000x128, .f32⟩
  | 126 => ⟨S_, .f32⟩
  | 127 => ⟨S50000x128, .f32⟩
  | _ => ⟨S50000x512, .f32⟩

abbrev hbmTy0_1 (i : Nat) : BufTy := match i % 128 with
  | 0 => ⟨S1650000x1, .i32⟩
  | 1 => ⟨S50000x128, .f32⟩
  | 2 => ⟨S1x128, .f32⟩
  | 3 => ⟨S50000x128, .f32⟩
  | 4 => ⟨S1x128, .f32⟩
  | 5 => ⟨S50000x128, .f32⟩
  | 6 => ⟨S1x1600000, .i32⟩
  | 7 => ⟨S1600000, .i32⟩
  | 8 => ⟨S1x1600000, .i32⟩
  | 9 => ⟨S1600000, .i32⟩
  | 10 => ⟨S50000, .i32⟩
  | 11 => ⟨S1650000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S1650000, .i32⟩
  | 25 => ⟨S1650000, .i1⟩
  | 26 => ⟨S_, .i32⟩
  | 27 => ⟨S1650000, .i32⟩
  | 28 => ⟨S1650000, .i32⟩
  | 29 => ⟨S1650000, .i32⟩
  | 30 => ⟨S1650000x1, .i32⟩
  | 31 => ⟨S1650000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000x128, .f32⟩
  | 51 => ⟨S1650000x1, .f32⟩
  | 52 => ⟨S1650000x128, .f32⟩
  | 53 => ⟨S1650000x128, .f32⟩
  | 54 => ⟨S_, .f32⟩
  | 55 => ⟨S50000x128, .f32⟩
  | 56 => ⟨S1650000x1, .i32⟩
  | 57 => ⟨S50000x128, .f32⟩
  | 58 => ⟨S1x1600000, .i32⟩
  | 59 => ⟨S1600000, .i32⟩
  | 60 => ⟨S1x1600000, .i32⟩
  | 61 => ⟨S1600000, .i32⟩
  | 62 => ⟨S50000, .i32⟩
  | 63 => ⟨S1650000, .i32⟩
  | 64 => ⟨S1650000, .i32⟩
  | 65 => ⟨S_, .f32⟩
  | 66 => ⟨S1650000, .f32⟩
  | 67 => ⟨S_, .f32⟩
  | 68 => ⟨S50000, .f32⟩
  | 69 => ⟨S1650000x1, .i32⟩
  | 70 => ⟨S50000, .f32⟩
  | 71 => ⟨S_, .f32⟩
  | 72 => ⟨S50000, .f32⟩
  | 73 => ⟨S50000, .f32⟩
  | 74 => ⟨S50000, .f32⟩
  | 75 => ⟨S_, .i32⟩
  | 76 => ⟨S1650000, .i32⟩
  | 77 => ⟨S1650000, .i1⟩
  | 78 => ⟨S_, .i32⟩
  | 79 => ⟨S1650000, .i32⟩
  | 80 => ⟨S1650000, .i32⟩
  | 81 => ⟨S1650000, .i32⟩
  | 82 => ⟨S1650000x1, .i32⟩
  | 83 => ⟨S1650000, .f32⟩
  | 84 => ⟨S_, .i32⟩
  | 85 => ⟨S1650000, .i32⟩
  | 86 => ⟨S1650000, .i1⟩
  | 87 => ⟨S_, .i32⟩
  | 88 => ⟨S1650000, .i32⟩
  | 89 => ⟨S1650000, .i32⟩
  | 90 => ⟨S1650000, .i32⟩
  | 91 => ⟨S1650000x1, .i32⟩
  | 92 => ⟨S1650000, .f32⟩
  | 93 => ⟨S1650000, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000x128, .f32⟩
  | 103 => ⟨S1650000x1, .f32⟩
  | 104 => ⟨S1650000x128, .f32⟩
  | 105 => ⟨S1650000x128, .f32⟩
  | 106 => ⟨S_, .f32⟩
  | 107 => ⟨S50000x128, .f32⟩
  | 108 => ⟨S1650000x1, .i32⟩
  | 109 => ⟨S50000x128, .f32⟩
  | 110 => ⟨S128x128, .f32⟩
  | 111 => ⟨S128x128, .f32⟩
  | 112 => ⟨S128x128, .f32⟩
  | 113 => ⟨S128x128, .f32⟩
  | 114 => ⟨S1x128, .f32⟩
  | 115 => ⟨S1x128, .f32⟩
  | 116 => ⟨S1x1, .f32⟩
  | 117 => ⟨S50000x1, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x512, .f32⟩
  | .local _ .vmem, ⟨9, _⟩ => ⟨S2000x512, .f32⟩
  | .local _ .vmem, ⟨10, _⟩ => ⟨S512x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x256, .f32⟩
  | .local _ .vmem, ⟨17, _⟩ => ⟨S2000x256, .f32⟩
  | .local _ .vmem, ⟨18, _⟩ => ⟨S256x128, .f32⟩
  | .local _ .vmem, ⟨19, _⟩ => ⟨S2000x128, .f32⟩
  | .local _ .vmem, ⟨20, _⟩ => ⟨S2000x128, .f32⟩
  | .local _ .vmem, ⟨21, _⟩ => ⟨S2000x256, .f32⟩
  | .local _ .vmem, ⟨22, _⟩ => ⟨S2000x256, .f32⟩
  | .local _ .vmem, ⟨23, _⟩ => ⟨S256x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S128x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S128x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S1x128, .f32⟩
  | .local _ .vmem, ⟨47, _⟩ => ⟨S128x128, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S128x1, .f32⟩
  | .local _ .vmem, ⟨53, _⟩ => ⟨S1x1, .f32⟩
  | .local _ .vmem, ⟨54, _⟩ => ⟨S2000x1, .f32⟩
  | .local _ .vmem, ⟨55, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_3 : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_11 : Ref sig .tc := ⟨.hbm, 95, rfl⟩
abbrev main_v64 : Ref sig .tc := ⟨.hbm, 96, rfl⟩
abbrev main_v65 : Ref sig .tc := ⟨.hbm, 97, rfl⟩
abbrev main_c_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_15 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_18 : Ref sig .tc := ⟨.hbm, 141, rfl⟩
abbrev main_v103 : Ref sig .tc := ⟨.hbm, 142, rfl⟩
abbrev main_cst_19 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_20 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_21 : Ref sig .tc := ⟨.hbm, 151, rfl⟩
abbrev main_v110 : Ref sig .tc := ⟨.hbm, 152, rfl⟩
abbrev main_v111 : Ref sig .tc := ⟨.hbm, 153, rfl⟩
abbrev main_c_22 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_23 : Ref sig .tc := ⟨.hbm, 160, rfl⟩
abbrev main_v117 : Ref sig .tc := ⟨.hbm, 161, rfl⟩
abbrev main_v118 : Ref sig .tc := ⟨.hbm, 162, rfl⟩
abbrev main_c_24 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_c_25 : Ref sig .tc := ⟨.hbm, 170, rfl⟩
abbrev main_v125 : Ref sig .tc := ⟨.hbm, 171, rfl⟩
abbrev main_v126 : Ref sig .tc := ⟨.hbm, 172, rfl⟩
abbrev main_c_26 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_27 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_28 : Ref sig .tc := ⟨.hbm, 193, rfl⟩
abbrev main_v145 : Ref sig .tc := ⟨.hbm, 194, rfl⟩
abbrev main_cst_29 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_30 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_31 : Ref sig .tc := ⟨.hbm, 203, rfl⟩
abbrev main_v152 : Ref sig .tc := ⟨.hbm, 204, rfl⟩
abbrev main_v153 : Ref sig .tc := ⟨.hbm, 205, rfl⟩
abbrev main_c_32 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_33 : Ref sig .tc := ⟨.hbm, 212, rfl⟩
abbrev main_v159 : Ref sig .tc := ⟨.hbm, 213, rfl⟩
abbrev main_v160 : Ref sig .tc := ⟨.hbm, 214, rfl⟩
abbrev main_c_34 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c_35 : Ref sig .tc := ⟨.hbm, 222, rfl⟩
abbrev main_v167 : Ref sig .tc := ⟨.hbm, 223, rfl⟩
abbrev main_v168 : Ref sig .tc := ⟨.hbm, 224, rfl⟩
abbrev main_c_36 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_37 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg7_0 : Ref sig .tc := ⟨.vmem, 49, rfl⟩
abbrev cc6_stg8_0 : Ref sig .tc := ⟨.vmem, 50, rfl⟩
abbrev cc6_stg9_0 : Ref sig .tc := ⟨.vmem, 51, rfl⟩
abbrev cc6_stg10_0 : Ref sig .tc := ⟨.vmem, 52, rfl⟩
abbrev cc6_stg11_0 : Ref sig .tc := ⟨.vmem, 53, rfl⟩
abbrev cc6_stg12_0 : Ref sig .tc := ⟨.vmem, 54, rfl⟩
abbrev cc6_stg12_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc6_sem4_0 : DmaSem sig := 46
abbrev cc6_sem5_0 : DmaSem sig := 47
abbrev cc6_sem6_0 : DmaSem sig := 48
abbrev cc6_sem7_0 : DmaSem sig := 49
abbrev cc6_sem8_0 : DmaSem sig := 50
abbrev cc6_sem9_0 : DmaSem sig := 51
abbrev cc6_sem10_0 : DmaSem sig := 52
abbrev cc6_sem11_0 : DmaSem sig := 53
abbrev cc6_sem12_0 : DmaSem sig := 54
abbrev cc6_sem12_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S128x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x1 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 2 → Memref sig .tc .vmem S2000x1 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

class Facts₀ : Prop where
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S2000x128_S2000x128 : S2000x128.ShapeCasts S2000x128
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  shapeCasts_S1_S1x1 : S1.ShapeCasts S1x1
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  dot_S2000x256_S256x128_S2000x128_1_0_0_1_n_n_wf : DotDims.WF S2000x256 S256x128 S2000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128x128.size a ≤ S128x128.size a
  hwx6_8 : ∀ i : grid6.Coords, EltTy.bits .f32 = 32 ∨ (Rect.block (s := S128x128) S128x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S128x1.size a ≤ S128x1.size a
  hwx6_10 : ∀ i : grid6.Coords, EltTy.bits .f32 = 32 ∨ (Rect.block (s := S128x1) S128x1.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x1.size a ≤ S1x1.size a
  hwx6_11 : ∀ i : grid6.Coords, EltTy.bits .f32 = 32 ∨ (Rect.block (s := S1x1) S1x1.size (cc6_transform_11 i) (hinb6_11 i)).WholeWords (EltTy.packing .f32)
  hstage6_12 : ∀ j, (stage6_12 j).IsWhole
  nbuf6_12 : grid6.bufCount reads6_12 false = 2
  hreads6_12 : ∀ i i' : grid6.Coords, (∀ a, reads6_12 a = true → i a = i' a) → cc6_transform_12 i = cc6_transform_12 i'
  hinb6_12 : ∀ (i : grid6.Coords) a, (cc6_transform_12 i a + 1) * S2000x1.size a ≤ S50000x1.size a
  hwx6_12 : ∀ i : grid6.Coords, EltTy.bits .f32 = 32 ∨ (Rect.block (s := S50000x1) S2000x1.size (cc6_transform_12 i) (hinb6_12 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v49) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v91) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v2) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v137) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v179) S2000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v184) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v180) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v181) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v182) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v183) S128x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v185) S1x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_arg16) S128x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v186) S1x1.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v187) S2000x1.size cc6_transform_12 reads6_12 true false 2 stage6_12 sem6_12
    hrank6 hreads6_12 hinb6_12 nbuf6_12 (Memref.isWhole_whole _) hwx6_12 hstage6_12

abbrev win6 : Fin 13 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | ⟨_ + 13, h⟩ => absurd h (Nat.not_lt.2 (Nat.le_add_left _ _))
abbrev spec6 : Fin 13 → Pipeline.WinSpec sig grid6.rank := fun w => (win6 w).toWinSpec

class Facts : Prop extends Facts₀ where

variable [Facts]
-- ==== ReferenceIdeal.lean ====
abbrev S50000x512 : Shape := ⟨2, ![50000, 512]⟩
abbrev S50000x256 : Shape := ⟨2, ![50000, 256]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x128 : Shape := ⟨2, ![1650000, 128]⟩
abbrev S50000x1 : Shape := ⟨2, ![50000, 1]⟩
abbrev S1x1 : Shape := ⟨2, ![1, 1]⟩

abbrev nBuf : Space → Nat
  | .hbm => 302
  | .vmem => 0
  | .smem => 0
  | _ => 0

abbrev hbmTy0_0 (i : Nat) : BufTy := match i % 128 with
  | 0 => ⟨S50000x512, .f32⟩
  | 1 => ⟨S50000x512, .f32⟩
  | 2 => ⟨S50000x256, .f32⟩
  | 3 => ⟨S50000x256, .f32⟩
  | 4 => ⟨S2x1600000, .i32⟩
  | 5 => ⟨S2x1600000, .i32⟩
  | 6 => ⟨S512x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S512x128, .f32⟩
  | 15 => ⟨S128, .f32⟩
  | 16 => ⟨S128x1, .f32⟩
  | 17 => ⟨S1, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S50000, .i32⟩
  | 48 => ⟨S1x1600000, .i32⟩
  | 49 => ⟨S1600000, .i32⟩
  | 50 => ⟨S1650000, .i32⟩
  | 51 => ⟨S1x1600000, .i32⟩
  | 52 => ⟨S1600000, .i32⟩
  | 53 => ⟨S1650000, .i32⟩
  | 54 => ⟨S_, .f32⟩
  | 55 => ⟨S1650000, .f32⟩
  | 56 => ⟨S_, .f32⟩
  | 57 => ⟨S50000, .f32⟩
  | 58 => ⟨S1650000x1, .i32⟩
  | 59 => ⟨S50000, .f32⟩
  | 60 => ⟨S_, .f32⟩
  | 61 => ⟨S50000, .f32⟩
  | 62 => ⟨S50000, .f32⟩
  | 63 => ⟨S50000, .f32⟩
  | 64 => ⟨S_, .i32⟩
  | 65 => ⟨S1650000, .i32⟩
  | 66 => ⟨S1650000, .i1⟩
  | 67 => ⟨S_, .i32⟩
  | 68 => ⟨S1650000, .i32⟩
  | 69 => ⟨S1650000, .i32⟩
  | 70 => ⟨S1650000, .i32⟩
  | 71 => ⟨S1650000x1, .i32⟩
  | 72 => ⟨S1650000, .f32⟩
  | 73 => ⟨S_, .i32⟩
  | 74 => ⟨S1650000, .i32⟩
  | 75 => ⟨S1650000, .i1⟩
  | 76 => ⟨S_, .i32⟩
  | 77 => ⟨S1650000, .i32⟩
  | 78 => ⟨S1650000, .i32⟩
  | 79 => ⟨S1650000, .i32⟩
  | 80 => ⟨S1650000x1, .i32⟩
  | 81 => ⟨S1650000, .f32⟩
  | 82 => ⟨S1650000, .f32⟩
  | 83 => ⟨S_, .i32⟩
  | 84 => ⟨S1650000, .i32⟩
  | 85 => ⟨S1650000, .i1⟩
  | 86 => ⟨S_, .i32⟩
  | 87 => ⟨S1650000, .i32⟩
  | 88 => ⟨S1650000, .i32⟩
  | 89 => ⟨S1650000, .i32⟩
  | 90 => ⟨S1650000x1, .i32⟩
  | 91 => ⟨S1650000x128, .f32⟩
  | 92 => ⟨S1650000x1, .f32⟩
  | 93 => ⟨S1650000x128, .f32⟩
  | 94 => ⟨S1650000x128, .f32⟩
  | 95 => ⟨S_, .f32⟩
  | 96 => ⟨S50000x128, .f32⟩
  | 97 => ⟨S1650000x1, .i32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S50000, .i32⟩
  | 107 => ⟨S1x1600000, .i32⟩
  | 108 => ⟨S1600000, .i32⟩
  | 109 => ⟨S1650000, .i32⟩
  | 110 => ⟨S1x1600000, .i32⟩
  | 111 => ⟨S1600000, .i32⟩
  | 112 => ⟨S1650000, .i32⟩
  | 113 => ⟨S_, .f32⟩
  | 114 => ⟨S1650000, .f32⟩
  | 115 => ⟨S_, .f32⟩
  | 116 => ⟨S50000, .f32⟩
  | 117 => ⟨S1650000x1, .i32⟩
  | 118 => ⟨S50000, .f32⟩
  | 119 => ⟨S_, .f32⟩
  | 120 => ⟨S50000, .f32⟩
  | 121 => ⟨S50000, .f32⟩
  | 122 => ⟨S50000, .f32⟩
  | 123 => ⟨S_, .i32⟩
  | 124 => ⟨S1650000, .i32⟩
  | 125 => ⟨S1650000, .i1⟩
  | 126 => ⟨S_, .i32⟩
  | 127 => ⟨S1650000, .i32⟩
  | _ => ⟨S50000x512, .f32⟩

abbrev hbmTy0_1 (i : Nat) : BufTy := match i % 128 with
  | 0 => ⟨S1650000, .i32⟩
  | 1 => ⟨S1650000, .i32⟩
  | 2 => ⟨S1650000x1, .i32⟩
  | 3 => ⟨S1650000, .f32⟩
  | 4 => ⟨S_, .i32⟩
  | 5 => ⟨S1650000, .i32⟩
  | 6 => ⟨S1650000, .i1⟩
  | 7 => ⟨S_, .i32⟩
  | 8 => ⟨S1650000, .i32⟩
  | 9 => ⟨S1650000, .i32⟩
  | 10 => ⟨S1650000, .i32⟩
  | 11 => ⟨S1650000x1, .i32⟩
  | 12 => ⟨S1650000, .f32⟩
  | 13 => ⟨S1650000, .f32⟩
  | 14 => ⟨S_, .i32⟩
  | 15 => ⟨S1650000, .i32⟩
  | 16 => ⟨S1650000, .i1⟩
  | 17 => ⟨S_, .i32⟩
  | 18 => ⟨S1650000, .i32⟩
  | 19 => ⟨S1650000, .i32⟩
  | 20 => ⟨S1650000, .i32⟩
  | 21 => ⟨S1650000x1, .i32⟩
  | 22 => ⟨S1650000x128, .f32⟩
  | 23 => ⟨S1650000x1, .f32⟩
  | 24 => ⟨S1650000x128, .f32⟩
  | 25 => ⟨S1650000x128, .f32⟩
  | 26 => ⟨S_, .f32⟩
  | 27 => ⟨S50000x128, .f32⟩
  | 28 => ⟨S1650000x1, .i32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S50000, .i32⟩
  | 38 => ⟨S1x1600000, .i32⟩
  | 39 => ⟨S1600000, .i32⟩
  | 40 => ⟨S1650000, .i32⟩
  | 41 => ⟨S1x1600000, .i32⟩
  | 42 => ⟨S1600000, .i32⟩
  | 43 => ⟨S1650000, .i32⟩
  | 44 => ⟨S_, .f32⟩
  | 45 => ⟨S1650000, .f32⟩
  | 46 => ⟨S_, .f32⟩
  | 47 => ⟨S50000, .f32⟩
  | 48 => ⟨S1650000x1, .i32⟩
  | 49 => ⟨S50000, .f32⟩
  | 50 => ⟨S_, .f32⟩
  | 51 => ⟨S50000, .f32⟩
  | 52 => ⟨S50000, .f32⟩
  | 53 => ⟨S50000, .f32⟩
  | 54 => ⟨S_, .i32⟩
  | 55 => ⟨S1650000, .i32⟩
  | 56 => ⟨S1650000, .i1⟩
  | 57 => ⟨S_, .i32⟩
  | 58 => ⟨S1650000, .i32⟩
  | 59 => ⟨S1650000, .i32⟩
  | 60 => ⟨S1650000, .i32⟩
  | 61 => ⟨S1650000x1, .i32⟩
  | 62 => ⟨S1650000, .f32⟩
  | 63 => ⟨S_, .i32⟩
  | 64 => ⟨S1650000, .i32⟩
  | 65 => ⟨S1650000, .i1⟩
  | 66 => ⟨S_, .i32⟩
  | 67 => ⟨S1650000, .i32⟩
  | 68 => ⟨S1650000, .i32⟩
  | 69 => ⟨S1650000, .i32⟩
  | 70 => ⟨S1650000x1, .i32⟩
  | 71 => ⟨S1650000, .f32⟩
  | 72 => ⟨S1650000, .f32⟩
  | 73 => ⟨S_, .i32⟩
  | 74 => ⟨S1650000, .i32⟩
  | 75 => ⟨S1650000, .i1⟩
  | 76 => ⟨S_, .i32⟩
  | 77 => ⟨S1650000, .i32⟩
  | 78 => ⟨S1650000, .i32⟩
  | 79 => ⟨S1650000, .i32⟩
  | 80 => ⟨S1650000x1, .i32⟩
  | 81 => ⟨S1650000x128, .f32⟩
  | 82 => ⟨S1650000x1, .f32⟩
  | 83 => ⟨S1650000x128, .f32⟩
  | 84 => ⟨S1650000x128, .f32⟩
  | 85 => ⟨S_, .f32⟩
  | 86 => ⟨S50000x128, .f32⟩
  | 87 => ⟨S1650000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S50000, .i32⟩
  | 97 => ⟨S1x1600000, .i32⟩
  | 98 => ⟨S1600000, .i32⟩
  | 99 => ⟨S1650000, .i32⟩
  | 100 => ⟨S1x1600000, .i32⟩
  | 101 => ⟨S1600000, .i32⟩
  | 102 => ⟨S1650000, .i32⟩
  | 103 => ⟨S_, .f32⟩
  | 104 => ⟨S1650000, .f32⟩
  | 105 => ⟨S_, .f32⟩
  | 106 => ⟨S50000, .f32⟩
  | 107 => ⟨S1650000x1, .i32⟩
  | 108 => ⟨S50000, .f32⟩
  | 109 => ⟨S_, .f32⟩
  | 110 => ⟨S50000, .f32⟩
  | 111 => ⟨S50000, .f32⟩
  | 112 => ⟨S50000, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S50000x512, .f32⟩

abbrev hbmTy0_2 (i : Nat) : BufTy := match i % 128 with
  | 0 => ⟨S1650000, .i32⟩
  | 1 => ⟨S1650000x1, .i32⟩
  | 2 => ⟨S1650000, .f32⟩
  | 3 => ⟨S1650000, .f32⟩
  | 4 => ⟨S_, .i32⟩
  | 5 => ⟨S1650000, .i32⟩
  | 6 => ⟨S1650000, .i1⟩
  | 7 => ⟨S_, .i32⟩
  | 8 => ⟨S1650000, .i32⟩
  | 9 => ⟨S1650000, .i32⟩
  | 10 => ⟨S1650000, .i32⟩
  | 11 => ⟨S1650000x1, .i32⟩
  | 12 => ⟨S1650000x128, .f32⟩
  | 13 => ⟨S1650000x1, .f32⟩
  | 14 => ⟨S1650000x128, .f32⟩
  | 15 => ⟨S1650000x128, .f32⟩
  | 16 => ⟨S_, .f32⟩
  | 17 => ⟨S50000x128, .f32⟩
  | 18 => ⟨S1650000x1, .i32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x512, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x1, .f32⟩
  | 35 => ⟨S1x1, .f32⟩
  | 36 => ⟨S50000x1, .f32⟩
  | 37 => ⟨S50000x1, .f32⟩
  | 38 => ⟨S50000x1, .f32⟩
  | 39 => ⟨S50000x1, .f32⟩
  | 40 => ⟨S_, .f32⟩
  | 41 => ⟨S50000x1, .f32⟩
  | 42 => ⟨S50000x1, .f32⟩
  | 43 => ⟨S_, .f32⟩
  | 44 => ⟨S50000x1, .f32⟩
  | 45 => ⟨S50000x1, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call3_cst : Ref sig .tc := ⟨.hbm, 43, rfl⟩
abbrev main_call3_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_cst_0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_1 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c : Ref sig .tc := ⟨.hbm, 64, rfl⟩
abbrev main_v35 : Ref sig .tc := ⟨.hbm, 65, rfl⟩
abbrev main_v36 : Ref sig .tc := ⟨.hbm, 66, rfl⟩
abbrev main_c_2 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_3 : Ref sig .tc := ⟨.hbm, 73, rfl⟩
abbrev main_v42 : Ref sig .tc := ⟨.hbm, 74, rfl⟩
abbrev main_v43 : Ref sig .tc := ⟨.hbm, 75, rfl⟩
abbrev main_c_4 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_5 : Ref sig .tc := ⟨.hbm, 83, rfl⟩
abbrev main_v50 : Ref sig .tc := ⟨.hbm, 84, rfl⟩
abbrev main_v51 : Ref sig .tc := ⟨.hbm, 85, rfl⟩
abbrev main_c_6 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_7 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call4_cst : Ref sig .tc := ⟨.hbm, 102, rfl⟩
abbrev main_call4_v0 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_8 : Ref sig .tc := ⟨.hbm, 113, rfl⟩
abbrev main_v75 : Ref sig .tc := ⟨.hbm, 114, rfl⟩
abbrev main_cst_9 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_10 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_11 : Ref sig .tc := ⟨.hbm, 123, rfl⟩
abbrev main_v82 : Ref sig .tc := ⟨.hbm, 124, rfl⟩
abbrev main_v83 : Ref sig .tc := ⟨.hbm, 125, rfl⟩
abbrev main_c_12 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_13 : Ref sig .tc := ⟨.hbm, 132, rfl⟩
abbrev main_v89 : Ref sig .tc := ⟨.hbm, 133, rfl⟩
abbrev main_v90 : Ref sig .tc := ⟨.hbm, 134, rfl⟩
abbrev main_c_14 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_15 : Ref sig .tc := ⟨.hbm, 142, rfl⟩
abbrev main_v97 : Ref sig .tc := ⟨.hbm, 143, rfl⟩
abbrev main_v98 : Ref sig .tc := ⟨.hbm, 144, rfl⟩
abbrev main_c_16 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_17 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call5_cst : Ref sig .tc := ⟨.hbm, 161, rfl⟩
abbrev main_call5_v0 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_18 : Ref sig .tc := ⟨.hbm, 172, rfl⟩
abbrev main_v122 : Ref sig .tc := ⟨.hbm, 173, rfl⟩
abbrev main_cst_19 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_20 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_c_21 : Ref sig .tc := ⟨.hbm, 182, rfl⟩
abbrev main_v129 : Ref sig .tc := ⟨.hbm, 183, rfl⟩
abbrev main_v130 : Ref sig .tc := ⟨.hbm, 184, rfl⟩
abbrev main_c_22 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_c_23 : Ref sig .tc := ⟨.hbm, 191, rfl⟩
abbrev main_v136 : Ref sig .tc := ⟨.hbm, 192, rfl⟩
abbrev main_v137 : Ref sig .tc := ⟨.hbm, 193, rfl⟩
abbrev main_c_24 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_c_25 : Ref sig .tc := ⟨.hbm, 201, rfl⟩
abbrev main_v144 : Ref sig .tc := ⟨.hbm, 202, rfl⟩
abbrev main_v145 : Ref sig .tc := ⟨.hbm, 203, rfl⟩
abbrev main_c_26 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_27 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_call6_cst : Ref sig .tc := ⟨.hbm, 220, rfl⟩
abbrev main_call6_v0 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_cst_28 : Ref sig .tc := ⟨.hbm, 231, rfl⟩
abbrev main_v169 : Ref sig .tc := ⟨.hbm, 232, rfl⟩
abbrev main_cst_29 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_cst_30 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_c_31 : Ref sig .tc := ⟨.hbm, 241, rfl⟩
abbrev main_v176 : Ref sig .tc := ⟨.hbm, 242, rfl⟩
abbrev main_v177 : Ref sig .tc := ⟨.hbm, 243, rfl⟩
abbrev main_c_32 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_c_33 : Ref sig .tc := ⟨.hbm, 250, rfl⟩
abbrev main_v183 : Ref sig .tc := ⟨.hbm, 251, rfl⟩
abbrev main_v184 : Ref sig .tc := ⟨.hbm, 252, rfl⟩
abbrev main_c_34 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_c_35 : Ref sig .tc := ⟨.hbm, 260, rfl⟩
abbrev main_v191 : Ref sig .tc := ⟨.hbm, 261, rfl⟩
abbrev main_v192 : Ref sig .tc := ⟨.hbm, 262, rfl⟩
abbrev main_c_36 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_cst_37 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_call7_cst : Ref sig .tc := ⟨.hbm, 279, rfl⟩
abbrev main_call7_v0 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_call8_cst : Ref sig .tc := ⟨.hbm, 287, rfl⟩
abbrev main_call8_v0 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_cst_38 : Ref sig .tc := ⟨.hbm, 296, rfl⟩
abbrev main_v220 : Ref sig .tc := ⟨.hbm, 297, rfl⟩
abbrev main_v221 : Ref sig .tc := ⟨.hbm, 298, rfl⟩
abbrev main_cst_39 : Ref sig .tc := ⟨.hbm, 299, rfl⟩
abbrev main_v222 : Ref sig .tc := ⟨.hbm, 300, rfl⟩
abbrev main_v223 : Ref sig .tc := ⟨.hbm, 301, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  concatenates_S50000x128_S50000x128_S50000x128_S50000x128_S50000x512_d1 : Shape.Concatenates [S50000x128, S50000x128, S50000x128, S50000x128] S50000x512 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x512_S512x128_S50000x128_1_0_0_1_n_n_wf : DotDims.WF S50000x512 S512x128 S50000x128 [1] [0] [0] [1] [] []
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x1_S50000x1_1_0_0_1_n_n_wf : DotDims.WF S50000x128 S128x1 S50000x1 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The network both programs compute, written once as functions of whole arrays.

  Two multilayer perceptrons on the metadata, two two-layer graph convolutions on the node features, the four
  results laid side by side, one dense layer, one output unit, a logistic:

    mlp x      = relu (relu (x · W₁ + b₁) · W₂ + b₂)
    conv h e   = the symmetric-normalised aggregation of the rows of h along the edges e with self-loops:
                 row i of the result is the sum over edges (s → i) of h[s] · d[s]^(-1/2) · d[i]^(-1/2), d the in-degree
                 (at least 1) counted with the self-loops
    branch x e = relu (conv (relu (conv (x · G₁) e + c₁) · G₂) e + c₂)
    result     = 1 / (1 + exp (−(relu ([mlp a | mlp b | branch xa ea | branch xb eb] · Wc + bc) · Wo + bo)))

  Every piece is spelt with the array operations of the host program, so that the reference's stages are these
  functions by unfolding; the kernel's regions are shown equal to them index by index elsewhere. The aggregation
  `conv` is never opened by any proof: both programs apply it, as the same function, to values shown equal.
-/
import proofs.«106528_j111669149893_1_alg».proof.ReferenceIdeal

noncomputable section

namespace Cert.Spec

open Cert.ReferenceIdeal Cert.ReferenceIdeal.Facts₀ Cert.ReferenceIdeal.Facts Idealize.ShloMosaic

variable {F : FTy → Type} [FloatOps F] [Cert.ReferenceIdeal.Facts]

/-- The contents of an array of shape `S` and element type `e`. -/
abbrev Arr (F : FTy → Type) (S : Shape) (e : EltTy) : Type := (⟨S, e⟩ : BufTy).Contents (Elt F)

/-- The zero matrix of 50000 rows. -/
def zeros : Arr F S50000x128 .f32 := broadcastInDim S50000x128 ![] bcast_S_S50000x128 (constant S_ .f32 0x00000000#32)

/-- `relu x = max x 0`, entry by entry. -/
def relu (x : Arr F S50000x128 .f32) : Arr F S50000x128 .f32 := maximumf x (zeros (F := F))

/-- A bias vector laid along every row. -/
def bias (b : Arr F S128 .f32) : Arr F S50000x128 .f32 :=
  broadcastInDim S50000x128 ![0, 1] bcast_S1x128_S50000x128_0_1 (broadcastInDim S1x128 ![1] bcast_S128_S1x128_1 b)

/-- The two-layer perceptron `relu (relu (x · W₁ + b₁) · W₂ + b₂)`. -/
def mlp (x : Arr F S50000x512 .f32) (w1 : Arr F S512x128 .f32) (b1 : Arr F S128 .f32) (w2 : Arr F S128x128 .f32) (b2 : Arr F S128 .f32) :
    Arr F S50000x128 .f32 :=
  relu (addf (Host.dotGeneral dot_S50000x128_S128x128_S50000x128_1_0_0_1_n_n none
    (relu (addf (Host.dotGeneral dot_S50000x512_S512x128_S50000x128_1_0_0_1_n_n none x w1) (bias b1))) w2) (bias b2))

/-- The first graph layer's projection `x · G₁`. -/
def proj (x : Arr F S50000x256 .f32) (w : Arr F S256x128 .f32) : Arr F S50000x128 .f32 :=
  Host.dotGeneral dot_S50000x256_S256x128_S50000x128_1_0_0_1_n_n none x w

/-- Between the graph layers: `relu (a + c₁) · G₂`. -/
def mid (a : Arr F S50000x128 .f32) (b : Arr F S128 .f32) (w : Arr F S128x128 .f32) : Arr F S50000x128 .f32 :=
  Host.dotGeneral dot_S50000x128_S128x128_S50000x128_1_0_0_1_n_n none (relu (addf a (bias b))) w

/-! ## The aggregation along the edges -/

/-- Row `r` of the edge array followed by the self-loops `0, 1, …, 49999`. -/
def ends (r : Fin 2 → Nat) (hs : S2x1600000.Slices r S1x1600000) (ei : Arr F S2x1600000 .i32) : Arr F S1650000 .i32 :=
  concatenate S1650000 0 [⟨S1600000, shapeCast S1600000 (extractStridedSlice S1x1600000 r ei hs) shapeCasts_S1x1600000_S1600000⟩,
    ⟨S50000, iotaInDim S50000 32 0⟩] concatenates_S1600000_S50000_S1650000_d0

/-- The edges' sources followed by the self-loops. -/
def src (ei : Arr F S2x1600000 .i32) : Arr F S1650000 .i32 := ends ![0, 0] slices_S2x1600000_S1x1600000_0_0 ei

/-- The edges' destinations followed by the self-loops. -/
def dst (ei : Arr F S2x1600000 .i32) : Arr F S1650000 .i32 := ends ![1, 0] slices_S2x1600000_S1x1600000_1_0 ei

/-- A vector of node numbers as a one-column index table. -/
def col (v : Arr F S1650000 .i32) : Arr F S1650000x1 .i32 := broadcastInDim S1650000x1 ![0] bcast_S1650000_S1650000x1_0 v

/-- Node numbers as an index column for a row lookup: a negative number counts from the end (`v + 50000`). -/
def wrap (v : Arr F S1650000 .i32) : Arr F S1650000x1 .i32 :=
  col (select (cmpi .slt v (broadcastInDim S1650000 ![] bcast_S_S1650000 (constantI S_ 32 0#32)))
    (addi v (broadcastInDim S1650000 ![] bcast_S_S1650000 (constantI S_ 32 50000#32))) v)

/-- `d^(-1/2)`, `d` the number of edges (self-loops included) into each node, at least 1. -/
def dinv (ei : Arr F S2x1600000 .i32) : Arr F S50000 .f32 :=
  Host.rsqrt (maximumf
    (Host.scatterAdd scatter_S50000_S1650000x1_S1650000_n_0_0_1 (broadcastInDim S50000 ![] bcast_S_S50000 (constant S_ .f32 0x00000000#32))
      (col (dst ei)) (broadcastInDim S1650000 ![] bcast_S_S1650000 (constant S_ .f32 0x3F800000#32)))
    (broadcastInDim S50000 ![] bcast_S_S50000 (constant S_ .f32 0x3F800000#32)))

/-- The weight of each edge: `d[s]^(-1/2) · d[t]^(-1/2)`. -/
def norm (ei : Arr F S2x1600000 .i32) : Arr F S1650000 .f32 :=
  mulf (Host.gather gather_S50000_S1650000x1_S1650000_n_0_n_n_0_1_1 (dinv ei) (wrap (src ei)))
    (Host.gather gather_S50000_S1650000x1_S1650000_n_0_n_n_0_1_1 (dinv ei) (wrap (dst ei)))

/-- The aggregation: row `i` of the result is the sum over the edges `(s → i)`, self-loops included, of
    `h[s]` times the edge's weight. -/
def conv (h : Arr F S50000x128 .f32) (ei : Arr F S2x1600000 .i32) : Arr F S50000x128 .f32 :=
  Host.scatterAdd scatter_S50000x128_S1650000x1_S1650000x128_1_0_0_1
    (broadcastInDim S50000x128 ![] bcast_S_S50000x128 (constant S_ .f32 0x00000000#32))
    (col (dst ei))
    (mulf (Host.gather gather_S50000x128_S1650000x1_S1650000x128_1_0_n_n_0_1_1128 h (wrap (src ei)))
      (broadcastInDim S1650000x128 ![0, 1] bcast_S1650000x1_S1650000x128_0_1
        (broadcastInDim S1650000x1 ![0] bcast_S1650000_S1650000x1_0 (norm ei))))

/-- One graph branch: `relu (conv (relu (conv (x · G₁) e + c₁) · G₂) e + c₂)`. -/
def branch (x : Arr F S50000x256 .f32) (ei : Arr F S2x1600000 .i32) (g1 : Arr F S256x128 .f32) (c1 : Arr F S128 .f32)
    (g2 : Arr F S128x128 .f32) (c2 : Arr F S128 .f32) : Arr F S50000x128 .f32 :=
  relu (addf (conv (mid (conv (proj x g1) ei) c1 g2) ei) (bias c2))

/-! ## The head -/

/-- The four feature blocks side by side, a dense layer, the output unit, the logistic `1 / (1 + exp (−z))`. -/
def head (ma mb ga gb : Arr F S50000x128 .f32) (wc : Arr F S512x128 .f32) (bc : Arr F S128 .f32) (wo : Arr F S128x1 .f32)
    (bo : Arr F S1 .f32) : Arr F S50000x1 .f32 :=
  Host.divf (broadcastInDim S50000x1 ![] bcast_S_S50000x1 (constant S_ .f32 0x3F800000#32))
    (addf (broadcastInDim S50000x1 ![] bcast_S_S50000x1 (constant S_ .f32 0x3F800000#32))
      (Host.exp (Host.negf (addf
        (Host.dotGeneral dot_S50000x128_S128x1_S50000x1_1_0_0_1_n_n none
          (relu (addf (Host.dotGeneral dot_S50000x512_S512x128_S50000x128_1_0_0_1_n_n none
            (concatenate S50000x512 1 [⟨S50000x128, ma⟩, ⟨S50000x128, mb⟩, ⟨S50000x128, ga⟩, ⟨S50000x128, gb⟩]
              concatenates_S50000x128_S50000x128_S50000x128_S50000x128_S50000x512_d1) wc) (bias bc))) wo)
        (broadcastInDim S50000x1 ![0, 1] bcast_S1x1_S50000x1_0_1 (broadcastInDim S1x1 ![1] bcast_S1_S1x1_1 bo))))))

/-- The whole network, of the eighteen argument arrays in the programs' order. -/
def result (x0 x1 : Arr F S50000x512 .f32) (x2 x3 : Arr F S50000x256 .f32) (x4 x5 : Arr F S2x1600000 .i32)
    (x6 : Arr F S512x128 .f32) (x7 : Arr F S128 .f32) (x8 : Arr F S128x128 .f32) (x9 : Arr F S128 .f32)
    (x10 : Arr F S256x128 .f32) (x11 : Arr F S128 .f32) (x12 : Arr F S128x128 .f32) (x13 : Arr F S128 .f32)
    (x14 : Arr F S512x128 .f32) (x15 : Arr F S128 .f32) (x16 : Arr F S128x1 .f32) (x17 : Arr F S1 .f32) : Arr F S50000x1 .f32 :=
  head (mlp x0 x6 x7 x8 x9) (mlp x1 x6 x7 x8 x9) (branch x2 x4 x10 x11 x12 x13) (branch x3 x5 x10 x11 x12 x13) x14 x15 x16 x17

end Cert.Spec
-- ==== Proof.RefSide.lean ====
/-
  The reference program's result is the specification's `result` of its eighteen arguments: each of its 284 host
  operations is one array operation of the specification's text, in the same order of composition, so the equation is
  the unfolding of the stage definitions and of the specification's layers — nothing is computed.
-/
import proofs.«106528_j111669149893_1_alg».proof.Proof.Gen.ReferenceIdeal.Read
import proofs.«106528_j111669149893_1_alg».proof.Proof.Spec

noncomputable section

namespace Cert.RefSide

open Cert.ReferenceIdeal Cert.ReferenceIdeal.Read Idealize.ShloMosaic

variable {F : FTy → Type} [FloatOps F]

/-- The first graph branch of the reference is the specification's `branch`. -/
theorem branch_a (x2 : (⟨S50000x256, .f32⟩ : BufTy).Contents (Elt F)) (x4 : (⟨S2x1600000, .i32⟩ : BufTy).Contents (Elt F)) (x10 : (⟨S256x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) :
    val_main_v113 (F := F) x2 x4 x10 x11 x12 x13 = Cert.Spec.branch (F := F) x2 x4 x10 x11 x12 x13 := rfl

/-- The second graph branch of the reference is the specification's `branch`. -/
theorem branch_b (x3 : (⟨S50000x256, .f32⟩ : BufTy).Contents (Elt F)) (x5 : (⟨S2x1600000, .i32⟩ : BufTy).Contents (Elt F)) (x10 : (⟨S256x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) :
    val_main_v207 (F := F) x3 x5 x10 x11 x12 x13 = Cert.Spec.branch (F := F) x3 x5 x10 x11 x12 x13 := rfl

/-- The two perceptrons of the reference are the specification's `mlp`. -/
theorem mlp_a (x0 : (⟨S50000x512, .f32⟩ : BufTy).Contents (Elt F)) (x6 : (⟨S512x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) :
    val_main_v9 (F := F) x0 x6 x7 x8 x9 = Cert.Spec.mlp (F := F) x0 x6 x7 x8 x9 := rfl

theorem mlp_b (x1 : (⟨S50000x512, .f32⟩ : BufTy).Contents (Elt F)) (x6 : (⟨S512x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) :
    val_main_v19 (F := F) x1 x6 x7 x8 x9 = Cert.Spec.mlp (F := F) x1 x6 x7 x8 x9 := rfl

/-- The reference's result is the specification's. -/
theorem result_eq (x0 : (⟨S50000x512, .f32⟩ : BufTy).Contents (Elt F)) (x1 : (⟨S50000x512, .f32⟩ : BufTy).Contents (Elt F)) (x2 : (⟨S50000x256, .f32⟩ : BufTy).Contents (Elt F)) (x3 : (⟨S50000x256, .f32⟩ : BufTy).Contents (Elt F)) (x4 : (⟨S2x1600000, .i32⟩ : BufTy).Contents (Elt F)) (x5 : (⟨S2x1600000, .i32⟩ : BufTy).Contents (Elt F)) (x6 : (⟨S512x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S256x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S512x128, .f32⟩ : BufTy).Contents (Elt F)) (x15 : (⟨S128, .f32⟩ : BufTy).Contents (Elt F)) (x16 : (⟨S128x1, .f32⟩ : BufTy).Contents (Elt F)) (x17 : (⟨S1, .f32⟩ : BufTy).Contents (Elt F)) :
    val_main_v223 (F := F) x0 x1 x2 x3 x4 x5 x6 x7 x8 x9 x10 x11 x12 x13 x14 x15 x16 x17 = Cert.Spec.result (F := F) x0 x1 x2 x3 x4 x5 x6 x7 x8 x9 x10 x11 x12 x13 x14 x15 x16 x17 := by
  have h : val_main_v223 (F := F) x0 x1 x2 x3 x4 x5 x6 x7 x8 x9 x10 x11 x12 x13 x14 x15 x16 x17
      = Cert.Spec.head (F := F) (val_main_v9 (F := F) x0 x6 x7 x8 x9) (val_main_v19 (F := F) x1 x6 x7 x8 x9)
          (val_main_v113 (F := F) x2 x4 x10 x11 x12 x13) (val_main_v207 (F := F) x3 x5 x10 x11 x12 x13) x14 x15 x16 x17 := rfl
  rw [h, mlp_a, mlp_b, branch_a, branch_b]
  rfl

end Cert.RefSide
-- ==== Proof.KernelRun.lean ====
/-
  The kernel's run, with the result buffer kept.

  At the compiled mesh, from any memory with zero counters, every weakly fair execution of the program on the
  TensorCores terminates and none faults; in every final state the result buffer holds what the last stage of the
  fold of buffer contents through the program's segments assigns to it, and each of the eighteen argument buffers
  holds what it held at launch. The run is the launch over the program's segments: the thread state at the last
  boundary (every unscoped buffer at the fold's last contents) is read against the final state, the result buffer
  directly and each argument through the fold back to the launch memory.
-/
import proofs.«106528_j111669149893_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; the result buffer ends at the fold's last stage, the
    arguments as launched. -/
theorem run : θ_run defs (onTc (τ := τ) (main (F := F))) ⟨m, fun _ => 0, ρ⟩ (fun r => ∀ c : Dev nD,
      r.2.mem ((c.tc : Thread nD τ).loc main_v187) = W12 m ρ c (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v187 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c)⟩)

end Cert.KernelIdeal.Run

end
-- ==== Proof.Keep.lean ====
/-
  A buffer that a stage of the program does not write keeps its contents through that stage.

  The program is a sequence of stages: stretches of host operations and pipelined regions. The contents of every
  buffer at every boundary between stages are a fold from the launch memory. A host stretch changes only the
  buffers its operations write (each operation writes exactly one); a region changes only its output array — the
  arrays it reads through its input windows are left as it found them, and every buffer that is no window's array
  is untouched. One lemma per stage, for any buffer outside what the stage writes.
-/
import proofs.«106528_j111669149893_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host stretches -/

/-- The buffers the operations of host stretch 0 write, in order. -/
abbrev hostOps0_W : List (Ref sig .tc) :=
  [ main_v0, main_v1 ]

/-- Each operation of host stretch 0 writes one of those buffers and no other. -/
theorem hostOps0_writes : (hostOps0 : List (HloOp τ sig (Elt F))).Forall fun op =>
    op.writes ⊆ (hostOps0_W.map (Proc.devRef (τ := τ) .tc)).toFinset := by
  simp only [hostOps0, List.flatten_cons, List.flatten_nil, List.append_nil, List.cons_append, List.nil_append, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide)

/-- A buffer host stretch 0 does not write holds after it what it held before. -/
theorem host0 (c : Dev nD) (r : Ref sig .tc) (h : r ∉ hostOps0_W) :
    W1 m ρ c (Proc.devRef .tc r) = W0 m ρ c (Proc.devRef .tc r) :=
  StableHlo.after_of_writes_sub hostOps0 _ hostOps0_writes h

/-- The buffers the operations of host stretch 1 write, in order. -/
abbrev hostOps1_W : List (Ref sig .tc) :=
  [ main_v3, main_v4 ]

/-- Each operation of host stretch 1 writes one of those buffers and no other. -/
theorem hostOps1_writes : (hostOps1 : List (HloOp τ sig (Elt F))).Forall fun op =>
    op.writes ⊆ (hostOps1_W.map (Proc.devRef (τ := τ) .tc)).toFinset := by
  simp only [hostOps1, List.flatten_cons, List.flatten_nil, List.append_nil, List.cons_append, List.nil_append, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide)

/-- A buffer host stretch 1 does not write holds after it what it held before. -/
theorem host1 (c : Dev nD) (r : Ref sig .tc) (h : r ∉ hostOps1_W) :
    W3 m ρ c (Proc.devRef .tc r) = W2 m ρ c (Proc.devRef .tc r) :=
  StableHlo.after_of_writes_sub hostOps1 _ hostOps1_writes h

/-- The buffers the operations of host stretch 4 write, in order. -/
abbrev hostOps4_W : List (Ref sig .tc) :=
  [ main_v8, main_v9, main_v10, main_v11, main_v12, main_v13, main_v14, main_cst, main_v15, main_cst_0, main_v16, main_v17,
    main_v18, main_cst_1, main_v19, main_v20, main_v21, main_c, main_v22, main_v23, main_c_2, main_v24, main_v25, main_v26,
    main_v27, main_v28, main_c_3, main_v29, main_v30, main_c_4, main_v31, main_v32, main_v33, main_v34, main_v35, main_v36,
    main_c_5, main_v37, main_v38, main_c_6, main_v39, main_v40, main_v41, main_v42, main_v43, main_v44, main_v45, main_v46,
    main_cst_7, main_v47, main_v48, main_v49, main_v50, main_v51, main_v52, main_v53, main_v54, main_v55, main_v56, main_cst_8,
    main_v57, main_cst_9, main_v58, main_v59, main_v60, main_cst_10, main_v61, main_v62, main_v63, main_c_11, main_v64, main_v65,
    main_c_12, main_v66, main_v67, main_v68, main_v69, main_v70, main_c_13, main_v71, main_v72, main_c_14, main_v73, main_v74,
    main_v75, main_v76, main_v77, main_v78, main_c_15, main_v79, main_v80, main_c_16, main_v81, main_v82, main_v83, main_v84,
    main_v85, main_v86, main_v87, main_v88, main_cst_17, main_v89, main_v90, main_v91, main_v92 ]

set_option maxHeartbeats 40000000 in
/-- Each operation of host stretch 4 writes one of those buffers and no other. -/
theorem hostOps4_writes : (hostOps4 : List (HloOp τ sig (Elt F))).Forall fun op =>
    op.writes ⊆ (hostOps4_W.map (Proc.devRef (τ := τ) .tc)).toFinset := by
  simp only [hostOps4, List.flatten_cons, List.flatten_nil, List.append_nil, List.cons_append, List.nil_append, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide)

/-- A buffer host stretch 4 does not write holds after it what it held before. -/
theorem host4 (c : Dev nD) (r : Ref sig .tc) (h : r ∉ hostOps4_W) :
    W7 m ρ c (Proc.devRef .tc r) = W6 m ρ c (Proc.devRef .tc r) :=
  StableHlo.after_of_writes_sub hostOps4 _ hostOps4_writes h

/-- The buffers the operations of host stretch 5 write, in order. -/
abbrev hostOps5_W : List (Ref sig .tc) :=
  [ main_v94 ]

/-- Each operation of host stretch 5 writes one of those buffers and no other. -/
theorem hostOps5_writes : (hostOps5 : List (HloOp τ sig (Elt F))).Forall fun op =>
    op.writes ⊆ (hostOps5_W.map (Proc.devRef (τ := τ) .tc)).toFinset := by
  simp only [hostOps5, List.flatten_cons, List.flatten_nil, List.append_nil, List.cons_append, List.nil_append, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide)

/-- A buffer host stretch 5 does not write holds after it what it held before. -/
theorem host5 (c : Dev nD) (r : Ref sig .tc) (h : r ∉ hostOps5_W) :
    W9 m ρ c (Proc.devRef .tc r) = W8 m ρ c (Proc.devRef .tc r) :=
  StableHlo.after_of_writes_sub hostOps5 _ hostOps5_writes h

/-- The buffers the operations of host stretch 6 write, in order. -/
abbrev hostOps6_W : List (Ref sig .tc) :=
  [ main_v96, main_v97, main_v98, main_v99, main_v100, main_v101, main_v102, main_cst_18, main_v103, main_cst_19, main_v104,
    main_v105, main_v106, main_cst_20, main_v107, main_v108, main_v109, main_c_21, main_v110, main_v111, main_c_22, main_v112,
    main_v113, main_v114, main_v115, main_v116, main_c_23, main_v117, main_v118, main_c_24, main_v119, main_v120, main_v121,
    main_v122, main_v123, main_v124, main_c_25, main_v125, main_v126, main_c_26, main_v127, main_v128, main_v129, main_v130,
    main_v131, main_v132, main_v133, main_v134, main_cst_27, main_v135, main_v136, main_v137, main_v138, main_v139, main_v140,
    main_v141, main_v142, main_v143, main_v144, main_cst_28, main_v145, main_cst_29, main_v146, main_v147, main_v148,
    main_cst_30, main_v149, main_v150, main_v151, main_c_31, main_v152, main_v153, main_c_32, main_v154, main_v155, main_v156,
    main_v157, main_v158, main_c_33, main_v159, main_v160, main_c_34, main_v161, main_v162, main_v163, main_v164, main_v165,
    main_v166, main_c_35, main_v167, main_v168, main_c_36, main_v169, main_v170, main_v171, main_v172, main_v173, main_v174,
    main_v175, main_v176, main_cst_37, main_v177, main_v178, main_v179, main_v180, main_v181, main_v182, main_v183, main_v184,
    main_v185, main_v186 ]

set_option maxHeartbeats 40000000 in
/-- Each operation of host stretch 6 writes one of those buffers and no other. -/
theorem hostOps6_writes : (hostOps6 : List (HloOp τ sig (Elt F))).Forall fun op =>
    op.writes ⊆ (hostOps6_W.map (Proc.devRef (τ := τ) .tc)).toFinset := by
  simp only [hostOps6, List.flatten_cons, List.flatten_nil, List.append_nil, List.cons_append, List.nil_append, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide)

/-- A buffer host stretch 6 does not write holds after it what it held before. -/
theorem host6 (c : Dev nD) (r : Ref sig .tc) (h : r ∉ hostOps6_W) :
    W11 m ρ c (Proc.devRef .tc r) = W10 m ρ c (Proc.devRef .tc r) :=
  StableHlo.after_of_writes_sub hostOps6 _ hostOps6_writes h

/-! ## The regions -/

/-- Region 0 writes its one output array and nothing else: an array it only reads ends as entered (an input
    window's array is left as the region found it), and a buffer that is no window's array is not touched. -/
theorem reg0 (c : Dev nD) (r : Ref sig .tc) (h : r ≠ main_v2) :
    W2 m ρ c (Proc.devRef .tc r) = W1 m ρ c (Proc.devRef .tc r) := by
  by_cases hw : ∃ w, Pipeline.arrRef spec0 w = r
  · obtain ⟨w, rfl⟩ := hw
    have hin : (cfg0.win w).isOut = false :=
      (by decide : ∀ w : Fin cfg0.W, Pipeline.arrRef spec0 w ≠ main_v2 → (cfg0.win w).isOut = false) w h
    exact (W2_arr m ρ c w).trans (((dat0 (V1 m ρ) c).arrAt_in w hin _).trans (A_eq0 (V1 m ρ) c w))
  · exact W2_of_ne m ρ c r fun w e => hw ⟨w, e⟩

/-- Region 1 writes its one output array and nothing else: an array it only reads ends as entered (an input
    window's array is left as the region found it), and a buffer that is no window's array is not touched. -/
theorem reg1 (c : Dev nD) (r : Ref sig .tc) (h : r ≠ main_v5) :
    W4 m ρ c (Proc.devRef .tc r) = W3 m ρ c (Proc.devRef .tc r) := by
  by_cases hw : ∃ w, Pipeline.arrRef spec1 w = r
  · obtain ⟨w, rfl⟩ := hw
    have hin : (cfg1.win w).isOut = false :=
      (by decide : ∀ w : Fin cfg1.W, Pipeline.arrRef spec1 w ≠ main_v5 → (cfg1.win w).isOut = false) w h
    exact (W4_arr m ρ c w).trans (((dat1 (V3 m ρ) c).arrAt_in w hin _).trans (A_eq1 (V3 m ρ) c w))
  · exact W4_of_ne m ρ c r fun w e => hw ⟨w, e⟩

/-- Region 2 writes its one output array and nothing else: an array it only reads ends as entered (an input
    window's array is left as the region found it), and a buffer that is no window's array is not touched. -/
theorem reg2 (c : Dev nD) (r : Ref sig .tc) (h : r ≠ main_v6) :
    W5 m ρ c (Proc.devRef .tc r) = W4 m ρ c (Proc.devRef .tc r) := by
  by_cases hw : ∃ w, Pipeline.arrRef spec2 w = r
  · obtain ⟨w, rfl⟩ := hw
    have hin : (cfg2.win w).isOut = false :=
      (by decide : ∀ w : Fin cfg2.W, Pipeline.arrRef spec2 w ≠ main_v6 → (cfg2.win w).isOut = false) w h
    exact (W5_arr m ρ c w).trans (((dat2 (V4 m ρ) c).arrAt_in w hin _).trans (A_eq2 (V4 m ρ) c w))
  · exact W5_of_ne m ρ c r fun w e => hw ⟨w, e⟩

/-- Region 3 writes its one output array and nothing else: an array it only reads ends as entered (an input
    window's array is left as the region found it), and a buffer that is no window's array is not touched. -/
theorem reg3 (c : Dev nD) (r : Ref sig .tc) (h : r ≠ main_v7) :
    W6 m ρ c (Proc.devRef .tc r) = W5 m ρ c (Proc.devRef .tc r) := by
  by_cases hw : ∃ w, Pipeline.arrRef spec3 w = r
  · obtain ⟨w, rfl⟩ := hw
    have hin : (cfg3.win w).isOut = false :=
      (by decide : ∀ w : Fin cfg3.W, Pipeline.arrRef spec3 w ≠ main_v7 → (cfg3.win w).isOut = false) w h
    exact (W6_arr m ρ c w).trans (((dat3 (V5 m ρ) c).arrAt_in w hin _).trans (A_eq3 (V5 m ρ) c w))
  · exact W6_of_ne m ρ c r fun w e => hw ⟨w, e⟩

/-- Region 4 writes its one output array and nothing else: an array it only reads ends as entered (an input
    window's array is left as the region found it), and a buffer that is no window's array is not touched. -/
theorem reg4 (c : Dev nD) (r : Ref sig .tc) (h : r ≠ main_v93) :
    W8 m ρ c (Proc.devRef .tc r) = W7 m ρ c (Proc.devRef .tc r) := by
  by_cases hw : ∃ w, Pipeline.arrRef spec4 w = r
  · obtain ⟨w, rfl⟩ := hw
    have hin : (cfg4.win w).isOut = false :=
      (by decide : ∀ w : Fin cfg4.W, Pipeline.arrRef spec4 w ≠ main_v93 → (cfg4.win w).isOut = false) w h
    exact (W8_arr m ρ c w).trans (((dat4 (V7 m ρ) c).arrAt_in w hin _).trans (A_eq4 (V7 m ρ) c w))
  · exact W8_of_ne m ρ c r fun w e => hw ⟨w, e⟩

/-- Region 5 writes its one output array and nothing else: an array it only reads ends as entered (an input
    window's array is left as the region found it), and a buffer that is no window's array is not touched. -/
theorem reg5 (c : Dev nD) (r : Ref sig .tc) (h : r ≠ main_v95) :
    W10 m ρ c (Proc.devRef .tc r) = W9 m ρ c (Proc.devRef .tc r) := by
  by_cases hw : ∃ w, Pipeline.arrRef spec5 w = r
  · obtain ⟨w, rfl⟩ := hw
    have hin : (cfg5.win w).isOut = false :=
      (by decide : ∀ w : Fin cfg5.W, Pipeline.arrRef spec5 w ≠ main_v95 → (cfg5.win w).isOut = false) w h
    exact (W10_arr m ρ c w).trans (((dat5 (V9 m ρ) c).arrAt_in w hin _).trans (A_eq5 (V9 m ρ) c w))
  · exact W10_of_ne m ρ c r fun w e => hw ⟨w, e⟩

/-- Region 6 writes its one output array and nothing else: an array it only reads ends as entered (an input
    window's array is left as the region found it), and a buffer that is no window's array is not touched. -/
theorem reg6 (c : Dev nD) (r : Ref sig .tc) (h : r ≠ main_v187) :
    W12 m ρ c (Proc.devRef .tc r) = W11 m ρ c (Proc.devRef .tc r) := by
  by_cases hw : ∃ w, Pipeline.arrRef spec6 w = r
  · obtain ⟨w, rfl⟩ := hw
    have hin : (cfg6.win w).isOut = false :=
      (by decide : ∀ w : Fin cfg6.W, Pipeline.arrRef spec6 w ≠ main_v187 → (cfg6.win w).isOut = false) w h
    exact (W12_arr m ρ c w).trans (((dat6 (V11 m ρ) c).arrAt_in w hin _).trans (A_eq6 (V11 m ρ) c w))
  · exact W12_of_ne m ρ c r fun w e => hw ⟨w, e⟩

end Cert.KernelIdeal.Keep

end
-- ==== Proof.HostVals.lean ====
/-
  What the kernel program's host stretches leave in the four aggregation buffers.

  Between its regions the kernel program aggregates along the edges with the host's array operations: the rows of an
  array h are gathered at the edges' sources (self-loops appended), weighted by d[s]^(-1/2) · d[t]^(-1/2) with d the
  in-degree counted with the self-loops and at least 1, and summed into the edges' destinations. The stretch spells
  this out operation by operation; composed, the operations are exactly the specification's function
  `Cert.Spec.conv` of the array h and the edge array as the stretch finds them — the same array operations over
  the same dimension numbers, so the two terms agree by unfolding. The first-layer aggregations of the two branches
  are in the stretch before the fifth region, the second-layer ones in the stretch before the seventh.
-/
import proofs.«106528_j111669149893_1_alg».proof.Proof.Gen.KernelIdeal.Frame
import proofs.«106528_j111669149893_1_alg».proof.Proof.Gen.ReferenceIdeal
import proofs.«106528_j111669149893_1_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.HostVals

open Idealize.ShloMosaic Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The first branch's first-layer aggregation: the projected features aggregated along the first edge array. -/
theorem v49_eq : W7 m ρ c (Proc.devRef .tc main_v49)
    = Cert.Spec.conv (F := Ideal) (W6 m ρ c (Proc.devRef .tc main_v6)) (W6 m ρ c (Proc.devRef .tc main_arg4)) := by
  show StableHlo.after hostOps4 (W6 m ρ c) (Proc.devRef .tc main_v49) = _
  generalize W6 m ρ c = V
  simp only [hostOps4]
  after_results_simp
  rfl

/-- The second branch's first-layer aggregation: the projected features aggregated along the second edge array. -/
theorem v91_eq : W7 m ρ c (Proc.devRef .tc main_v91)
    = Cert.Spec.conv (F := Ideal) (W6 m ρ c (Proc.devRef .tc main_v7)) (W6 m ρ c (Proc.devRef .tc main_arg5)) := by
  show StableHlo.after hostOps4 (W6 m ρ c) (Proc.devRef .tc main_v91) = _
  generalize W6 m ρ c = V
  simp only [hostOps4]
  after_results_simp
  rfl

/-- The first branch's second-layer aggregation. -/
theorem v137_eq : W11 m ρ c (Proc.devRef .tc main_v137)
    = Cert.Spec.conv (F := Ideal) (W10 m ρ c (Proc.devRef .tc main_v93)) (W10 m ρ c (Proc.devRef .tc main_arg4)) := by
  show StableHlo.after hostOps6 (W10 m ρ c) (Proc.devRef .tc main_v137) = _
  generalize W10 m ρ c = V
  simp only [hostOps6]
  after_results_simp
  rfl

/-- The second branch's second-layer aggregation. -/
theorem v179_eq : W11 m ρ c (Proc.devRef .tc main_v179)
    = Cert.Spec.conv (F := Ideal) (W10 m ρ c (Proc.devRef .tc main_v95)) (W10 m ρ c (Proc.devRef .tc main_arg5)) := by
  show StableHlo.after hostOps6 (W10 m ρ c) (Proc.devRef .tc main_v179) = _
  generalize W10 m ρ c = V
  simp only [hostOps6]
  after_results_simp
  rfl

end Cert.KernelIdeal.HostVals
-- ==== Proof.HostSmall.lean ====
/-
  What the small result buffers of the host stretches hold, entry by entry, in terms of the buffers at the
  stretch's start.

  A bias vector of 128 entries reshaped to one row of 128 reads, at (0, k), the vector at k; the one-entry vector
  reshaped to a 1-by-1 array reads its entry; each of the four slices of 128 consecutive rows of the 512-row weight
  matrix reads, at (l, k), the matrix at (o + l, k), o the slice's first row. No operation of a stretch writes a
  buffer such an operation reads, and none after it writes its result, so each result buffer at the stretch's end
  is its own operation applied to the contents at the stretch's start.
-/
import proofs.«106528_j111669149893_1_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.HostSmall

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg) (c : Dev nD)

/-! ## Stretches 0 and 1: the perceptron biases as rows -/

theorem v0_apply (k : Fin 128) :
    W1 m ρ c (Proc.devRef .tc main_v0) (ix2 (0 : Fin 1) k) = W0 m ρ c (Proc.devRef .tc main_arg7) (ix1 k) := by
  show StableHlo.after hostOps0 (W0 m ρ c) (Proc.devRef .tc main_v0) (ix2 (0 : Fin 1) k) = _
  simp only [hostOps0]
  after_results
  exact shapeCast_a_1a_apply _ _ 0 k

theorem v1_apply (k : Fin 128) :
    W1 m ρ c (Proc.devRef .tc main_v1) (ix2 (0 : Fin 1) k) = W0 m ρ c (Proc.devRef .tc main_arg9) (ix1 k) := by
  show StableHlo.after hostOps0 (W0 m ρ c) (Proc.devRef .tc main_v1) (ix2 (0 : Fin 1) k) = _
  simp only [hostOps0]
  after_results
  exact shapeCast_a_1a_apply _ _ 0 k

theorem v3_apply (k : Fin 128) :
    W3 m ρ c (Proc.devRef .tc main_v3) (ix2 (0 : Fin 1) k) = W2 m ρ c (Proc.devRef .tc main_arg7) (ix1 k) := by
  show StableHlo.after hostOps1 (W2 m ρ c) (Proc.devRef .tc main_v3) (ix2 (0 : Fin 1) k) = _
  simp only [hostOps1]
  after_results
  exact shapeCast_a_1a_apply _ _ 0 k

theorem v4_apply (k : Fin 128) :
    W3 m ρ c (Proc.devRef .tc main_v4) (ix2 (0 : Fin 1) k) = W2 m ρ c (Proc.devRef .tc main_arg9) (ix1 k) := by
  show StableHlo.after hostOps1 (W2 m ρ c) (Proc.devRef .tc main_v4) (ix2 (0 : Fin 1) k) = _
  simp only [hostOps1]
  after_results
  exact shapeCast_a_1a_apply _ _ 0 k

/-! ## Stretch 4: the first graph layer's bias as a row -/

set_option maxHeartbeats 40000000 in
theorem v92_apply (k : Fin 128) :
    W7 m ρ c (Proc.devRef .tc main_v92) (ix2 (0 : Fin 1) k) = W6 m ρ c (Proc.devRef .tc main_arg11) (ix1 k) := by
  show StableHlo.after hostOps4 (W6 m ρ c) (Proc.devRef .tc main_v92) (ix2 (0 : Fin 1) k) = _
  simp only [hostOps4]
  after_results_simp
  exact shapeCast_a_1a_apply _ _ 0 k

/-! ## Stretch 5: the same bias as a row again -/

theorem v94_apply (k : Fin 128) :
    W9 m ρ c (Proc.devRef .tc main_v94) (ix2 (0 : Fin 1) k) = W8 m ρ c (Proc.devRef .tc main_arg11) (ix1 k) := by
  show StableHlo.after hostOps5 (W8 m ρ c) (Proc.devRef .tc main_v94) (ix2 (0 : Fin 1) k) = _
  simp only [hostOps5]
  after_results
  exact shapeCast_a_1a_apply _ _ 0 k

/-! ## Stretch 6: the four 128-row slices of the dense layer's weights, and three biases as rows -/

set_option maxHeartbeats 40000000 in
theorem v180_apply (l k : Fin 128) :
    W11 m ρ c (Proc.devRef .tc main_v180) (ix2 l k)
      = W10 m ρ c (Proc.devRef .tc main_arg14) (ix2 (⟨l.val, by omega⟩ : Fin 512) k) := by
  show StableHlo.after hostOps6 (W10 m ρ c) (Proc.devRef .tc main_v180) (ix2 l k) = _
  simp only [hostOps6]
  after_results_simp
  refine extractStridedSlice_apply _ _ _ (ix2 l k) _ (fun a => ?_)
  match a with
  | ⟨0, _⟩ => exact (Nat.zero_add _).symm
  | ⟨1, _⟩ => exact (Nat.zero_add _).symm

set_option maxHeartbeats 40000000 in
theorem v181_apply (l k : Fin 128) :
    W11 m ρ c (Proc.devRef .tc main_v181) (ix2 l k)
      = W10 m ρ c (Proc.devRef .tc main_arg14) (ix2 (⟨128 + l.val, by omega⟩ : Fin 512) k) := by
  show StableHlo.after hostOps6 (W10 m ρ c) (Proc.devRef .tc main_v181) (ix2 l k) = _
  simp only [hostOps6]
  after_results_simp
  refine extractStridedSlice_apply _ _ _ (ix2 l k) _ (fun a => ?_)
  match a with
  | ⟨0, _⟩ => exact rfl
  | ⟨1, _⟩ => exact (Nat.zero_add _).symm

set_option maxHeartbeats 40000000 in
theorem v182_apply (l k : Fin 128) :
    W11 m ρ c (Proc.devRef .tc main_v182) (ix2 l k)
      = W10 m ρ c (Proc.devRef .tc main_arg14) (ix2 (⟨256 + l.val, by omega⟩ : Fin 512) k) := by
  show StableHlo.after hostOps6 (W10 m ρ c) (Proc.devRef .tc main_v182) (ix2 l k) = _
  simp only [hostOps6]
  after_results_simp
  refine extractStridedSlice_apply _ _ _ (ix2 l k) _ (fun a => ?_)
  match a with
  | ⟨0, _⟩ => exact rfl
  | ⟨1, _⟩ => exact (Nat.zero_add _).symm

set_option maxHeartbeats 40000000 in
theorem v183_apply (l k : Fin 128) :
    W11 m ρ c (Proc.devRef .tc main_v183) (ix2 l k)
      = W10 m ρ c (Proc.devRef .tc main_arg14) (ix2 (⟨384 + l.val, by omega⟩ : Fin 512) k) := by
  show StableHlo.after hostOps6 (W10 m ρ c) (Proc.devRef .tc main_v183) (ix2 l k) = _
  simp only [hostOps6]
  after_results_simp
  refine extractStridedSlice_apply _ _ _ (ix2 l k) _ (fun a => ?_)
  match a with
  | ⟨0, _⟩ => exact rfl
  | ⟨1, _⟩ => exact (Nat.zero_add _).symm

set_option maxHeartbeats 40000000 in
theorem v184_apply (k : Fin 128) :
    W11 m ρ c (Proc.devRef .tc main_v184) (ix2 (0 : Fin 1) k) = W10 m ρ c (Proc.devRef .tc main_arg13) (ix1 k) := by
  show StableHlo.after hostOps6 (W10 m ρ c) (Proc.devRef .tc main_v184) (ix2 (0 : Fin 1) k) = _
  simp only [hostOps6]
  after_results_simp
  exact shapeCast_a_1a_apply _ _ 0 k

set_option maxHeartbeats 40000000 in
theorem v185_apply (k : Fin 128) :
    W11 m ρ c (Proc.devRef .tc main_v185) (ix2 (0 : Fin 1) k) = W10 m ρ c (Proc.devRef .tc main_arg15) (ix1 k) := by
  show StableHlo.after hostOps6 (W10 m ρ c) (Proc.devRef .tc main_v185) (ix2 (0 : Fin 1) k) = _
  simp only [hostOps6]
  after_results_simp
  exact shapeCast_a_1a_apply _ _ 0 k

set_option maxHeartbeats 40000000 in
theorem v186_apply :
    W11 m ρ c (Proc.devRef .tc main_v186) (ix2 (0 : Fin 1) (0 : Fin 1)) = W10 m ρ c (Proc.devRef .tc main_arg17) (ix1 (0 : Fin 1)) := by
  show StableHlo.after hostOps6 (W10 m ρ c) (Proc.devRef .tc main_v186) (ix2 (0 : Fin 1) (0 : Fin 1)) = _
  simp only [hostOps6]
  after_results_simp
  exact shapeCast_a_1a_apply _ _ 0 0

end Cert.KernelIdeal.HostSmall

end
-- ==== Proof.Rows.lean ====
/-
  The network's layers as formulas for ONE row, over plain functions of coordinates on the extended reals.
  Both programs are read into these: a kernel body's stored block at (p, q) from its loaded blocks, and the
  whole-array functions of the specification at (r, q) from the arrays. `relu z = max z 0`.

    dense x w q        = Σ_l x l · w l q
    mlpRow x w₁ b₁ w₂ b₂ q = relu (Σ_k relu (Σ_l x l · w₁ l k + b₁ k) · w₂ k q + b₂ q)
    midRow a b w q     = Σ_k relu (a k + b k) · w k q
    headRow ma mb ga gb wa wb wga wgb bc wo bo
                       = logistic (Σ_k relu ((((ma·wa) k + (mb·wb) k) + (ga·wga) k) + (gb·wgb) k + bc k) · wo k + bo)

  In `headRow` the dense layer over the four feature blocks side by side is written as the four blocks' products
  added in that order — the order in which the kernel adds them; that a product with the 512-row weight matrix over
  the concatenated row is this sum is `sum_four_blocks`: a sum over 512 = 4 · 128 indices is the sum of the four
  stretches' sums, with addition only commuted and re-associated (no finiteness is needed on the extended reals).
-/
import Mathlib
import Idealize.ShloMosaic.PureOps.Ideal

noncomputable section

namespace Cert.Rows

open Idealize.ShloMosaic

/-- `max z 0`. -/
def relu (z : EReal) : EReal := max z 0

/-- One entry of a row times a matrix. -/
def dense {K : Nat} (x : Fin K → EReal) (w : Fin K → EReal) : EReal := ∑ l : Fin K, x l * w l

/-- One entry of the two-layer perceptron's output row. -/
def mlpRow (x : Fin 512 → EReal) (w1 : Fin 512 → Fin 128 → EReal) (b1 : Fin 128 → EReal) (w2 : Fin 128 → Fin 128 → EReal)
    (b2 : Fin 128 → EReal) (q : Fin 128) : EReal :=
  relu ((∑ k : Fin 128, relu ((∑ l : Fin 512, x l * w1 l k) + b1 k) * w2 k q) + b2 q)

/-- One entry of `relu (a + b) · w`. -/
def midRow (a : Fin 128 → EReal) (b : Fin 128 → EReal) (w : Fin 128 → Fin 128 → EReal) (q : Fin 128) : EReal :=
  ∑ k : Fin 128, relu (a k + b k) * w k q

/-- The output unit of one row: the four feature blocks through their four weight blocks, added in order, a bias,
    relu, the output weights, a bias, the logistic. -/
def headRow (ma mb ga gb : Fin 128 → EReal) (wa wb wga wgb : Fin 128 → Fin 128 → EReal) (bc : Fin 128 → EReal)
    (wo : Fin 128 → EReal) (bo : EReal) : EReal :=
  Ideal.logistic ((∑ k : Fin 128,
    relu ((((∑ l : Fin 128, ma l * wa l k) + (∑ l : Fin 128, mb l * wb l k)) + (∑ l : Fin 128, ga l * wga l k))
      + (∑ l : Fin 128, gb l * wgb l k) + bc k) * wo k) + bo)

/-- A sum over `512 = 4 · 128` indices is the sum of its four stretches of 128. -/
theorem sum_four_blocks (f : Fin 512 → EReal) :
    ∑ l : Fin 512, f l
      = (((∑ l : Fin 128, f ⟨l.val, by omega⟩) + (∑ l : Fin 128, f ⟨128 + l.val, by omega⟩))
          + (∑ l : Fin 128, f ⟨256 + l.val, by omega⟩)) + (∑ l : Fin 128, f ⟨384 + l.val, by omega⟩) := by
  have e : ∀ (n m : Nat) (g : Fin (n + m) → EReal),
      ∑ l : Fin (n + m), g l = (∑ l : Fin n, g (Fin.castAdd m l)) + ∑ l : Fin m, g (Fin.natAdd n l) := fun n m g => Fin.sum_univ_add g
  have h1 := e 384 128 f
  have h2 := e 256 128 (fun l => f (Fin.castAdd 128 l))
  have h3 := e 128 128 (fun l => f (Fin.castAdd 128 (Fin.castAdd 128 l)))
  rw [h1, h2, h3]
  rfl

end Cert.Rows
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.PayMlp.lean ====
/-
  The two-layer perceptron read at one entry.

  The specification's whole-array function `mlp` at (r, q), and the kernel bodies of the two perceptron regions at
  (p, q), are both the row formula

      relu (Σ_k relu (Σ_l x l · w₁ l k + b₁ k) · w₂ k q + b₂ q),      relu z = max z 0.

  The pieces: the zero array reads 0 everywhere; a bias laid along the rows reads the vector's entry at the column
  (in the specification through two broadcasts [128] → [1,128] → [50000,128], in the kernel a [1,128] block broadcast
  to [2000,128] after an identity reshape); a change of float format is the identity on the extended reals; a matrix
  product with one contracted axis reads the sum over that axis.
-/
import proofs.«106528_j111669149893_1_alg».proof.Proof.Gen.KernelIdeal.Skeleton
import proofs.«106528_j111669149893_1_alg».proof.Proof.Gen.ReferenceIdeal
import proofs.«106528_j111669149893_1_alg».proof.Proof.Spec
import proofs.«106528_j111669149893_1_alg».proof.Proof.Rows
import proofs.«106528_j111669149893_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.Pay

open Idealize.ShloMosaic Idealize.ShloMosaic.ValueIdx

/-! ## The specification's pieces at an entry -/

section SpecSide

open Cert.ReferenceIdeal

/-- The zero array reads 0 everywhere. -/
theorem zeros_apply (j : S50000x128.Idx) : Cert.Spec.zeros (F := Ideal) j = 0 := by
  unfold Cert.Spec.zeros
  refine (broadcastInDim_apply _ _ _ j ix0 (fun a => a.elim0)).trans ?_
  exact (constant_apply _ _).trans Ideal.ofBits_zero_f32

/-- `relu` at an entry is `max · 0` of the entry. -/
theorem relu_apply (x : Cert.Spec.Arr Ideal S50000x128 .f32) (j : S50000x128.Idx) :
    Cert.Spec.relu (F := Ideal) x j = Cert.Rows.relu (x j) := by
  show max (x j) (Cert.Spec.zeros (F := Ideal) j) = max (x j) 0
  rw [zeros_apply]

/-- A bias vector laid along every row reads, at (r, q), the vector at q. -/
theorem bias_apply (b : Cert.Spec.Arr Ideal S128 .f32) (r : Fin 50000) (q : Fin 128) :
    Cert.Spec.bias (F := Ideal) b (ix2 r q) = b (ix1 q) := by
  unfold Cert.Spec.bias
  refine (broadcastInDim_apply _ _ _ (ix2 r q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- `relu (a + bias b)` at (r, q). -/
theorem relu_bias_apply (a : Cert.Spec.Arr Ideal S50000x128 .f32) (b : Cert.Spec.Arr Ideal S128 .f32) (r : Fin 50000) (q : Fin 128) :
    Cert.Spec.relu (F := Ideal) (addf (F := Ideal) (s := S50000x128) (φ := .f32) a (Cert.Spec.bias (F := Ideal) b)) (ix2 r q)
      = Cert.Rows.relu (a (ix2 r q) + b (ix1 q)) := by
  rw [relu_apply]
  show Cert.Rows.relu (a (ix2 r q) + Cert.Spec.bias (F := Ideal) b (ix2 r q)) = _
  rw [bias_apply]

/-- The coordinate facts of the first product's dimension numbers ([50000,512] × [512,128]). -/
theorem plain_spec1 : Cert.LibDot.Plain dot_S50000x512_S512x128_S50000x128_1_0_0_1_n_n where
  hrank := rfl
  hs := rfl
  hl0 := fun _ _ => rfl
  hl1 := fun j k => dot_S50000x512_S512x128_S50000x128_1_0_0_1_n_n.lhsIdx_val_of_single rfl j k
  hr0 := fun j k => dot_S50000x512_S512x128_S50000x128_1_0_0_1_n_n.rhsIdx_val_of_single rfl j k
  hr1 := fun _ _ => rfl

/-- The coordinate facts of the second product's dimension numbers ([50000,128] × [128,128]). -/
theorem plain_spec2 : Cert.LibDot.Plain dot_S50000x128_S128x128_S50000x128_1_0_0_1_n_n where
  hrank := rfl
  hs := rfl
  hl0 := fun _ _ => rfl
  hl1 := fun j k => dot_S50000x128_S128x128_S50000x128_1_0_0_1_n_n.lhsIdx_val_of_single rfl j k
  hr0 := fun j k => dot_S50000x128_S128x128_S50000x128_1_0_0_1_n_n.rhsIdx_val_of_single rfl j k
  hr1 := fun _ _ => rfl

/-- The specification's perceptron at (r, q) is the row formula of row r. -/
theorem mlp_apply (X : Cert.Spec.Arr Ideal S50000x512 .f32) (W1 : Cert.Spec.Arr Ideal S512x128 .f32) (B1 : Cert.Spec.Arr Ideal S128 .f32)
    (W2 : Cert.Spec.Arr Ideal S128x128 .f32) (B2 : Cert.Spec.Arr Ideal S128 .f32) (r : Fin 50000) (q : Fin 128) :
    Cert.Spec.mlp (F := Ideal) X W1 B1 W2 B2 (ix2 r q)
      = Cert.Rows.mlpRow (fun l => X (ix2 r l)) (fun l k => W1 (ix2 l k)) (fun k => B1 (ix1 k)) (fun k q' => W2 (ix2 k q'))
          (fun q' => B2 (ix1 q')) q := by
  unfold Cert.Spec.mlp Cert.Rows.mlpRow
  refine (relu_bias_apply _ B2 r q).trans ?_
  refine congrArg (fun z => Cert.Rows.relu (z + B2 (ix1 q))) ?_
  refine (Cert.LibDot.dotGeneral_ix2 plain_spec2 none _ W2 r q).trans ?_
  refine Finset.sum_congr rfl fun k _ => ?_
  refine congrArg (fun z => z * W2 (ix2 k q)) ?_
  refine (relu_bias_apply _ B1 r k).trans ?_
  refine congrArg (fun z => Cert.Rows.relu (z + B1 (ix1 k))) ?_
  exact Cert.LibDot.dotGeneral_ix2 plain_spec1 none X W1 r k

end SpecSide

/-! ## The kernel bodies of the two perceptron regions at an entry -/

section KernelSide

open Cert.KernelIdeal Cert.KernelIdeal.Gen

/-- The coordinate facts of the block product [2000,512] × [512,128]. -/
theorem plain_k1 : Cert.LibDot.Plain dot_S2000x512_S512x128_S2000x128_1_0_0_1_n_n where
  hrank := rfl
  hs := rfl
  hl0 := fun _ _ => rfl
  hl1 := fun j k => dot_S2000x512_S512x128_S2000x128_1_0_0_1_n_n.lhsIdx_val_of_single rfl j k
  hr0 := fun j k => dot_S2000x512_S512x128_S2000x128_1_0_0_1_n_n.rhsIdx_val_of_single rfl j k
  hr1 := fun _ _ => rfl

/-- The coordinate facts of the block product [2000,128] × [128,128]. -/
theorem plain_k2 : Cert.LibDot.Plain dot_S2000x128_S128x128_S2000x128_1_0_0_1_n_n where
  hrank := rfl
  hs := rfl
  hl0 := fun _ _ => rfl
  hl1 := fun j k => dot_S2000x128_S128x128_S2000x128_1_0_0_1_n_n.lhsIdx_val_of_single rfl j k
  hr0 := fun j k => dot_S2000x128_S128x128_S2000x128_1_0_0_1_n_n.rhsIdx_val_of_single rfl j k
  hr1 := fun _ _ => rfl

/-- In a kernel body, `max (a + bias block along the rows) 0` at (p, q): the [1,128] block, reshaped to itself and
    broadcast to [2000,128], reads its one row at q, and the broadcast zero word reads 0. -/
theorem krelu_bias_apply (a : FVec Ideal S2000x128 .f32) (v : Vec Ideal S1x128 .f32) (p : Fin 2000) (q : Fin 128) :
    maximumf (addf a (broadcastTo S2000x128 (shapeCast S1x128 v shapeCasts_S1x128_S1x128) broadcasts_S1x128_S2000x128))
        (broadcast S2000x128 (Scalar.ofBits (F := Ideal) .f32 0x00000000#32)) (ix2 p q)
      = Cert.Rows.relu (a (ix2 p q) + v (ix2 (0 : Fin 1) q)) := by
  show max (a (ix2 p q) + broadcastTo S2000x128 (shapeCast S1x128 v shapeCasts_S1x128_S1x128) broadcasts_S1x128_S2000x128 (ix2 p q))
      (Ideal.ofBits .f32 0x00000000#32) = max (a (ix2 p q) + v (ix2 (0 : Fin 1) q)) 0
  rw [Ideal.ofBits_zero_f32, shapeCast_self, broadcastTo_1b_ab_apply]

/-- The body of region 0 at (p, q) is the row formula of the block's row p. -/
theorem k0_pay1_apply (x0 : Vec Ideal S2000x512 .f32) (x1 : Vec Ideal S512x128 .f32) (x2 : Vec Ideal S1x128 .f32)
    (x3 : Vec Ideal S128x128 .f32) (x4 : Vec Ideal S1x128 .f32) (p : Fin 2000) (q : Fin 128) :
    k0_pay1 (F := Ideal) x0 x1 x2 x3 x4 (ix2 p q)
      = Cert.Rows.mlpRow (fun l => x0 (ix2 p l)) (fun l k => x1 (ix2 l k)) (fun k => x2 (ix2 (0 : Fin 1) k))
          (fun k q' => x3 (ix2 k q')) (fun q' => x4 (ix2 (0 : Fin 1) q')) q := by
  unfold k0_pay1 Cert.Rows.mlpRow
  refine (krelu_bias_apply _ x4 p q).trans ?_
  refine congrArg (fun z => Cert.Rows.relu (z + x4 (ix2 (0 : Fin 1) q))) ?_
  refine (Cert.LibDot.matmul_ix2 plain_k2 none _ _ p q).trans ?_
  refine Finset.sum_congr rfl fun k _ => ?_
  refine congrArg (fun z => z * x3 (ix2 k q)) ?_
  refine (krelu_bias_apply _ x2 p k).trans ?_
  refine congrArg (fun z => Cert.Rows.relu (z + x2 (ix2 (0 : Fin 1) k))) ?_
  exact Cert.LibDot.matmul_ix2 plain_k1 none _ _ p k

/-- The body of region 1 (the same text) at (p, q). -/
theorem k1_pay1_apply (x0 : Vec Ideal S2000x512 .f32) (x1 : Vec Ideal S512x128 .f32) (x2 : Vec Ideal S1x128 .f32)
    (x3 : Vec Ideal S128x128 .f32) (x4 : Vec Ideal S1x128 .f32) (p : Fin 2000) (q : Fin 128) :
    k1_pay1 (F := Ideal) x0 x1 x2 x3 x4 (ix2 p q)
      = Cert.Rows.mlpRow (fun l => x0 (ix2 p l)) (fun l k => x1 (ix2 l k)) (fun k => x2 (ix2 (0 : Fin 1) k))
          (fun k q' => x3 (ix2 k q')) (fun q' => x4 (ix2 (0 : Fin 1) q')) q := by
  unfold k1_pay1 Cert.Rows.mlpRow
  refine (krelu_bias_apply _ x4 p q).trans ?_
  refine congrArg (fun z => Cert.Rows.relu (z + x4 (ix2 (0 : Fin 1) q))) ?_
  refine (Cert.LibDot.matmul_ix2 plain_k2 none _ _ p q).trans ?_
  refine Finset.sum_congr rfl fun k _ => ?_
  refine congrArg (fun z => z * x3 (ix2 k q)) ?_
  refine (krelu_bias_apply _ x2 p k).trans ?_
  refine congrArg (fun z => Cert.Rows.relu (z + x2 (ix2 (0 : Fin 1) k))) ?_
  exact Cert.LibDot.matmul_ix2 plain_k1 none _ _ p k

end KernelSide

end Cert.Pay
-- ==== Proof.Region0.lean ====
/-
  What perceptron region 0 leaves in its result array, whatever the buffers hold when it is entered — provided its
  two bias blocks, of shape [1, 128], hold two bias vectors B₁, B₂ of shape [128] laid along their one row.

  The region has 25 grid points; point t reads rows 2000·t … 2000·t + 1999 of the metadata (all 512 columns), the two
  weight matrices and the two bias rows whole, and writes back rows 2000·t … 2000·t + 1999 of the result. Entry (p, q)
  of what it writes is relu (Σ_k relu (Σ_l metadata (2000·t + p, l) · W₁ (l, k) + B₁ k) · W₂ (k, q) + B₂ q), which is
  entry (2000·t + p, q) of the specification's `mlp`. The 25 row blocks cover the result array.
-/
import proofs.«106528_j111669149893_1_alg».proof.Proof.Gen.KernelIdeal.Frame
import proofs.«106528_j111669149893_1_alg».proof.Proof.PayMlp
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_rows0 : ∀ t : Fin cfg0.N, win0_0.index t (0 : Fin 2) = t.val ∧ win0_0.index t (1 : Fin 2) = 0 :=
  (by decide +kernel : ∀ t : Fin grid0.N, _)
theorem idx_whole1 : ∀ t : Fin cfg0.N, win0_1.index t (0 : Fin 2) = 0 ∧ win0_1.index t (1 : Fin 2) = 0 :=
  (by decide +kernel : ∀ t : Fin grid0.N, _)
theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_rows5 : ∀ t : Fin cfg0.N, win0_5.index t (0 : Fin 2) = t.val ∧ win0_5.index t (1 : Fin 2) = 0 :=
  (by decide +kernel : ∀ t : Fin grid0.N, _)

/-- Window 0's block at point `t` is the rows 2000·t … of its array. -/
theorem read0 (c : Dev nD) (t : Fin cfg0.N) (p : Fin 2000) (l : Fin 512) (hrow : t.val * 2000 + p.val < 50000) :
    iblk0 V c 0 t (ix2 p l) = V c (Pipeline.arrRef spec0 0) (ix2 (⟨t.val * 2000 + p.val, hrow⟩ : Fin 50000) l) := by
  obtain ⟨e0, e1⟩ := idx_rows0 t
  show V c (Pipeline.arrRef spec0 0) (((cfg0.win 0).blk t).view.emb (ix2 p l)) = _
  refine congrArg _ ?_
  funext a; apply Fin.ext
  match a with
  | ⟨0, _⟩ => show win0_0.index t (0 : Fin 2) * 2000 + 1 * p.val = t.val * 2000 + p.val; omega
  | ⟨1, _⟩ => show win0_0.index t (1 : Fin 2) * 512 + 1 * l.val = l.val; omega

/-- Window 1's block at every point is its whole array. -/
theorem read1 (c : Dev nD) (t : Fin cfg0.N) (a : Fin 512) (b : Fin 128) :
    iblk0 V c 1 t (ix2 a b) = V c (Pipeline.arrRef spec0 1) (ix2 a b) := by
  obtain ⟨e0, e1⟩ := idx_whole1 t
  show V c (Pipeline.arrRef spec0 1) (((cfg0.win 1).blk t).view.emb (ix2 a b)) = _
  refine congrArg _ ?_
  funext d; apply Fin.ext
  match d with
  | ⟨0, _⟩ => show win0_1.index t (0 : Fin 2) * 512 + 1 * a.val = a.val; omega
  | ⟨1, _⟩ => show win0_1.index t (1 : Fin 2) * 128 + 1 * b.val = b.val; omega

/-- Window 2's block at every point is its whole array. -/
theorem read2 (c : Dev nD) (t : Fin cfg0.N) (a : Fin 1) (b : Fin 128) :
    iblk0 V c 2 t (ix2 a b) = V c (Pipeline.arrRef spec0 2) (ix2 a b) := by
  obtain ⟨e0, e1⟩ := idx_whole2 t
  show V c (Pipeline.arrRef spec0 2) (((cfg0.win 2).blk t).view.emb (ix2 a b)) = _
  refine congrArg _ ?_
  funext d; apply Fin.ext
  match d with
  | ⟨0, _⟩ => show win0_2.index t (0 : Fin 2) * 1 + 1 * a.val = a.val; omega
  | ⟨1, _⟩ => show win0_2.index t (1 : Fin 2) * 128 + 1 * b.val = b.val; omega

/-- Window 3's block at every point is its whole array. -/
theorem read3 (c : Dev nD) (t : Fin cfg0.N) (a : Fin 128) (b : Fin 128) :
    iblk0 V c 3 t (ix2 a b) = V c (Pipeline.arrRef spec0 3) (ix2 a b) := by
  obtain ⟨e0, e1⟩ := idx_whole3 t
  show V c (Pipeline.arrRef spec0 3) (((cfg0.win 3).blk t).view.emb (ix2 a b)) = _
  refine congrArg _ ?_
  funext d; apply Fin.ext
  match d with
  | ⟨0, _⟩ => show win0_3.index t (0 : Fin 2) * 128 + 1 * a.val = a.val; omega
  | ⟨1, _⟩ => show win0_3.index t (1 : Fin 2) * 128 + 1 * b.val = b.val; omega

/-- Window 4's block at every point is its whole array. -/
theorem read4 (c : Dev nD) (t : Fin cfg0.N) (a : Fin 1) (b : Fin 128) :
    iblk0 V c 4 t (ix2 a b) = V c (Pipeline.arrRef spec0 4) (ix2 a b) := by
  obtain ⟨e0, e1⟩ := idx_whole4 t
  show V c (Pipeline.arrRef spec0 4) (((cfg0.win 4).blk t).view.emb (ix2 a b)) = _
  refine congrArg _ ?_
  funext d; apply Fin.ext
  match d with
  | ⟨0, _⟩ => show win0_4.index t (0 : Fin 2) * 1 + 1 * a.val = a.val; omega
  | ⟨1, _⟩ => show win0_4.index t (1 : Fin 2) * 128 + 1 * b.val = b.val; omega

/-- Entry (p, q) of point `t`'s result block is entry (2000·t + p, q) of the array. -/
theorem emb_out (t : Fin cfg0.N) (p : Fin 2000) (q : Fin 128) (hrow : t.val * 2000 + p.val < 50000) :
    ((cfg0.win 5).blk t).view.emb (ix2 p q) = ix2 (⟨t.val * 2000 + p.val, hrow⟩ : Fin 50000) q := by
  obtain ⟨e0, e1⟩ := idx_rows5 t
  funext a; apply Fin.ext
  match a with
  | ⟨0, _⟩ => show win0_5.index t (0 : Fin 2) * 2000 + 1 * p.val = t.val * 2000 + p.val; omega
  | ⟨1, _⟩ => show win0_5.index t (1 : Fin 2) * 128 + 1 * q.val = q.val; omega

variable (B1 B2 : Cert.Spec.Arr Ideal S128 .f32)

/-- The result array the region writes into: the specification's perceptron of the arrays it reads and the two bias
    vectors. -/
abbrev G (c : Dev nD) : S50000x128.Idx → EReal :=
  Cert.Spec.mlp (F := Ideal) (V c (Pipeline.arrRef spec0 0)) (V c (Pipeline.arrRef spec0 1)) B1 (V c (Pipeline.arrRef spec0 3)) B2

/-- What point `t` writes back is block `t` of the perceptron's output. -/
theorem flushed_eq (c : Dev nD)
    (hB1 : ∀ k : Fin 128, V c (Pipeline.arrRef spec0 2) (ix2 (0 : Fin 1) k) = B1 (ix1 k))
    (hB2 : ∀ k : Fin 128, V c (Pipeline.arrRef spec0 4) (ix2 (0 : Fin 1) k) = B2 (ix1 k)) (t : Fin cfg0.N) :
    (dat0 V c).flushed 5 t = ((cfg0.win 5).blk t).view.read (Elt Ideal) (G V B1 B2 c) := by
  show (cfg0.win 5).cut (grid0.coords t) ((dat0 V c).after 5 t) = _
  rw [after0_5]
  unfold out0_5
  rw [View.canon_unit_zero hz]
  simp only [View.ld_unit_zero (S := S2000x512) hz, View.ld_unit_zero (S := S512x128) hz, View.ld_unit_zero (S := S1x128) hz,
    View.ld_unit_zero (S := S128x128) hz]
  have ht : t.val < 25 := lt_of_lt_of_eq t.isLt N_0
  funext j
  obtain ⟨p, q, rfl⟩ : ∃ (p : Fin 2000) (q : Fin 128), j = ix2 p q := ⟨j 0, j 1, eq_ix2 j⟩
  have hrow : t.val * 2000 + p.val < 50000 := by have := p.isLt; omega
  refine (Cert.Pay.k0_pay1_apply (iblk0 V c 0 t) (iblk0 V c 1 t) (iblk0 V c 2 t) (iblk0 V c 3 t) (iblk0 V c 4 t) p q).trans ?_
  show _ = G V B1 B2 c (((cfg0.win 5).blk t).view.emb (ix2 p q))
  rw [emb_out t p q hrow]
  refine Eq.trans ?_ (Cert.Pay.mlp_apply _ _ _ _ _ ⟨t.val * 2000 + p.val, hrow⟩ q).symm
  have h0 : (fun l : Fin 512 => iblk0 V c 0 t (ix2 p l))
      = fun l => V c (Pipeline.arrRef spec0 0) (ix2 (⟨t.val * 2000 + p.val, hrow⟩ : Fin 50000) l) := funext fun l => read0 V c t p l hrow
  have h1 : (fun (l : Fin 512) (k : Fin 128) => iblk0 V c 1 t (ix2 l k)) = fun l k => V c (Pipeline.arrRef spec0 1) (ix2 l k) :=
    funext fun l => funext fun k => read1 V c t l k
  have h2 : (fun k : Fin 128 => iblk0 V c 2 t (ix2 (0 : Fin 1) k)) = fun k => B1 (ix1 k) :=
    funext fun k => (read2 V c t 0 k).trans (hB1 k)
  have h3 : (fun (k : Fin 128) (q' : Fin 128) => iblk0 V c 3 t (ix2 k q')) = fun k q' => V c (Pipeline.arrRef spec0 3) (ix2 k q') :=
    funext fun k => funext fun q' => read3 V c t k q'
  have h4 : (fun q' : Fin 128 => iblk0 V c 4 t (ix2 (0 : Fin 1) q')) = fun q' => B2 (ix1 q') :=
    funext fun q' => (read4 V c t 0 q').trans (hB2 q')
  rw [h0, h1, h2, h3, h4]

/-- The 25 row blocks cover the result array: row `i` is in block `i / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1⟩ := idx_rows5 t
  refine ⟨t, flush0_5 t, ?_⟩
  show i ∈ ((View.whole main_v2).slice (win0_5.rect t)).set
  rw [View.set_slice_whole, Rect.mem_set_unit]
  intro a
  have ht : t.val = (i 0).val / 2000 := rfl
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The region's result array ends holding the perceptron's output. -/
theorem final (c : Dev nD)
    (hB1 : ∀ k : Fin 128, V c (Pipeline.arrRef spec0 2) (ix2 (0 : Fin 1) k) = B1 (ix1 k))
    (hB2 : ∀ k : Fin 128, V c (Pipeline.arrRef spec0 4) (ix2 (0 : Fin 1) k) = B2 (ix1 k)) :
    (dat0 V c).arrAt 5 cfg0.N = G V B1 B2 c :=
  (dat0 V c).arrAt_eq_of_cover 5 (G V B1 B2 c) (fun t _ => flushed_eq V B1 B2 c hB1 hB2 t) cover

end Cert.KernelIdeal.Region0
-- ==== Proof.Region1.lean ====
/-
  What perceptron region 1 leaves in its result array, whatever the buffers hold when it is entered — provided its
  two bias blocks, of shape [1, 128], hold two bias vectors B₁, B₂ of shape [128] laid along their one row.

  The region has 25 grid points; point t reads rows 2000·t … 2000·t + 1999 of the metadata (all 512 columns), the two
  weight matrices and the two bias rows whole, and writes back rows 2000·t … 2000·t + 1999 of the result. Entry (p, q)
  of what it writes is relu (Σ_k relu (Σ_l metadata (2000·t + p, l) · W₁ (l, k) + B₁ k) · W₂ (k, q) + B₂ q), which is
  entry (2000·t + p, q) of the specification's `mlp`. The 25 row blocks cover the result array.
-/
import proofs.«106528_j111669149893_1_alg».proof.Proof.Gen.KernelIdeal.Frame
import proofs.«106528_j111669149893_1_alg».proof.Proof.PayMlp
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_rows0 : ∀ t : Fin cfg1.N, win1_0.index t (0 : Fin 2) = t.val ∧ win1_0.index t (1 : Fin 2) = 0 :=
  (by decide +kernel : ∀ t : Fin grid1.N, _)
theorem idx_whole1 : ∀ t : Fin cfg1.N, win1_1.index t (0 : Fin 2) = 0 ∧ win1_1.index t (1 : Fin 2) = 0 :=
  (by decide +kernel : ∀ t : Fin grid1.N, _)
theorem idx_whole2 : ∀ t : Fin cfg1.N, win1_2.index t (0 : Fin 2) = 0 ∧ win1_2.index t (1 : Fin 2) = 0 :=
  (by decide +kernel : ∀ t : Fin grid1.N, _)
theorem idx_whole3 : ∀ t : Fin cfg1.N, win1_3.index t (0 : Fin 2) = 0 ∧ win1_3.index t (1 : Fin 2) = 0 :=
  (by decide +kernel : ∀ t : Fin grid1.N, _)
theorem idx_whole4 : ∀ t : Fin cfg1.N, win1_4.index t (0 : Fin 2) = 0 ∧ win1_4.index t (1 : Fin 2) = 0 :=
  (by decide +kernel : ∀ t : Fin grid1.N, _)
theorem idx_rows5 : ∀ t : Fin cfg1.N, win1_5.index t (0 : Fin 2) = t.val ∧ win1_5.index t (1 : Fin 2) = 0 :=
  (by decide +kernel : ∀ t : Fin grid1.N, _)

/-- Window 0's block at point `t` is the rows 2000·t … of its array. -/
theorem read0 (c : Dev nD) (t : Fin cfg1.N) (p : Fin 2000) (l : Fin 512) (hrow : t.val * 2000 + p.val < 50000) :
    iblk1 V c 0 t (ix2 p l) = V c (Pipeline.arrRef spec1 0) (ix2 (⟨t.val * 2000 + p.val, hrow⟩ : Fin 50000) l) := by
  obtain ⟨e0, e1⟩ := idx_rows0 t
  show V c (Pipeline.arrRef spec1 0) (((cfg1.win 0).blk t).view.emb (ix2 p l)) = _
  refine congrArg _ ?_
  funext a; apply Fin.ext
  match a with
  | ⟨0, _⟩ => show win1_0.index t (0 : Fin 2) * 2000 + 1 * p.val = t.val * 2000 + p.val; omega
  | ⟨1, _⟩ => show win1_0.index t (1 : Fin 2) * 512 + 1 * l.val = l.val; omega

/-- Window 1's block at every point is its whole array. -/
theorem read1 (c : Dev nD) (t : Fin cfg1.N) (a : Fin 512) (b : Fin 128) :
    iblk1 V c 1 t (ix2 a b) = V c (Pipeline.arrRef spec1 1) (ix2 a b) := by
  obtain ⟨e0, e1⟩ := idx_whole1 t
  show V c (Pipeline.arrRef spec1 1) (((cfg1.win 1).blk t).view.emb (ix2 a b)) = _
  refine congrArg _ ?_
  funext d; apply Fin.ext
  match d with
  | ⟨0, _⟩ => show win1_1.index t (0 : Fin 2) * 512 + 1 * a.val = a.val; omega
  | ⟨1, _⟩ => show win1_1.index t (1 : Fin 2) * 128 + 1 * b.val = b.val; omega

/-- Window 2's block at every point is its whole array. -/
theorem read2 (c : Dev nD) (t : Fin cfg1.N) (a : Fin 1) (b : Fin 128) :
    iblk1 V c 2 t (ix2 a b) = V c (Pipeline.arrRef spec1 2) (ix2 a b) := by
  obtain ⟨e0, e1⟩ := idx_whole2 t
  show V c (Pipeline.arrRef spec1 2) (((cfg1.win 2).blk t).view.emb (ix2 a b)) = _
  refine congrArg _ ?_
  funext d; apply Fin.ext
  match d with
  | ⟨0, _⟩ => show win1_2.index t (0 : Fin 2) * 1 + 1 * a.val = a.val; omega
  | ⟨1, _⟩ => show win1_2.index t (1 : Fin 2) * 128 + 1 * b.val = b.val; omega

/-- Window 3's block at every point is its whole array. -/
theorem read3 (c : Dev nD) (t : Fin cfg1.N) (a : Fin 128) (b : Fin 128) :
    iblk1 V c 3 t (ix2 a b) = V c (Pipeline.arrRef spec1 3) (ix2 a b) := by
  obtain ⟨e0, e1⟩ := idx_whole3 t
  show V c (Pipeline.arrRef spec1 3) (((cfg1.win 3).blk t).view.emb (ix2 a b)) = _
  refine congrArg _ ?_
  funext d; apply Fin.ext
  match d with
  | ⟨0, _⟩ => show win1_3.index t (0 : Fin 2) * 128 + 1 * a.val = a.val; omega
  | ⟨1, _⟩ => show win1_3.index t (1 : Fin 2) * 128 + 1 * b.val = b.val; omega

/-- Window 4's block at every point is its whole array. -/
theorem read4 (c : Dev nD) (t : Fin cfg1.N) (a : Fin 1) (b : Fin 128) :
    iblk1 V c 4 t (ix2 a b) = V c (Pipeline.arrRef spec1 4) (ix2 a b) := by
  obtain ⟨e0, e1⟩ := idx_whole4 t
  show V c (Pipeline.arrRef spec1 4) (((cfg1.win 4).blk t).view.emb (ix2 a b)) = _
  refine congrArg _ ?_
  funext d; apply Fin.ext
  match d with
  | ⟨0, _⟩ => show win1_4.index t (0 : Fin 2) * 1 + 1 * a.val = a.val; omega
  | ⟨1, _⟩ => show win1_4.index t (1 : Fin 2) * 128 + 1 * b.val = b.val; omega

/-- Entry (p, q) of point `t`'s result block is entry (2000·t + p, q) of the array. -/
theorem emb_out (t : Fin cfg1.N) (p : Fin 2000) (q : Fin 128) (hrow : t.val * 2000 + p.val < 50000) :
    ((cfg1.win 5).blk t).view.emb (ix2 p q) = ix2 (⟨t.val * 2000 + p.val, hrow⟩ : Fin 50000) q := by
  obtain ⟨e0, e1⟩ := idx_rows5 t
  funext a; apply Fin.ext
  match a with
  | ⟨0, _⟩ => show win1_5.index t (0 : Fin 2) * 2000 + 1 * p.val = t.val * 2000 + p.val; omega
  | ⟨1, _⟩ => show win1_5.index t (1 : Fin 2) * 128 + 1 * q.val = q.val; omega

variable (B1 B2 : Cert.Spec.Arr Ideal S128 .f32)

/-- The result array the region writes into: the specification's perceptron of the arrays it reads and the two bias
    vectors. -/
abbrev G (c : Dev nD) : S50000x128.Idx → EReal :=
  Cert.Spec.mlp (F := Ideal) (V c (Pipeline.arrRef spec1 0)) (V c (Pipeline.arrRef spec1 1)) B1 (V c (Pipeline.arrRef spec1 3)) B2

/-- What point `t` writes back is block `t` of the perceptron's output. -/
theorem flushed_eq (c : Dev nD)
    (hB1 : ∀ k : Fin 128, V c (Pipeline.arrRef spec1 2) (ix2 (0 : Fin 1) k) = B1 (ix1 k))
    (hB2 : ∀ k : Fin 128, V c (Pipeline.arrRef spec1 4) (ix2 (0 : Fin 1) k) = B2 (ix1 k)) (t : Fin cfg1.N) :
    (dat1 V c).flushed 5 t = ((cfg1.win 5).blk t).view.read (Elt Ideal) (G V B1 B2 c) := by
  show (cfg1.win 5).cut (grid1.coords t) ((dat1 V c).after 5 t) = _
  rw [after1_5]
  unfold out1_5
  rw [View.canon_unit_zero hz]
  simp only [View.ld_unit_zero (S := S2000x512) hz, View.ld_unit_zero (S := S512x128) hz, View.ld_unit_zero (S := S1x128) hz,
    View.ld_unit_zero (S := S128x128) hz]
  have ht : t.val < 25 := lt_of_lt_of_eq t.isLt N_1
  funext j
  obtain ⟨p, q, rfl⟩ : ∃ (p : Fin 2000) (q : Fin 128), j = ix2 p q := ⟨j 0, j 1, eq_ix2 j⟩
  have hrow : t.val * 2000 + p.val < 50000 := by have := p.isLt; omega
  refine (Cert.Pay.k1_pay1_apply (iblk1 V c 0 t) (iblk1 V c 1 t) (iblk1 V c 2 t) (iblk1 V c 3 t) (iblk1 V c 4 t) p q).trans ?_
  show _ = G V B1 B2 c (((cfg1.win 5).blk t).view.emb (ix2 p q))
  rw [emb_out t p q hrow]
  refine Eq.trans ?_ (Cert.Pay.mlp_apply _ _ _ _ _ ⟨t.val * 2000 + p.val, hrow⟩ q).symm
  have h0 : (fun l : Fin 512 => iblk1 V c 0 t (ix2 p l))
      = fun l => V c (Pipeline.arrRef spec1 0) (ix2 (⟨t.val * 2000 + p.val, hrow⟩ : Fin 50000) l) := funext fun l => read0 V c t p l hrow
  have h1 : (fun (l : Fin 512) (k : Fin 128) => iblk1 V c 1 t (ix2 l k)) = fun l k => V c (Pipeline.arrRef spec1 1) (ix2 l k) :=
    funext fun l => funext fun k => read1 V c t l k
  have h2 : (fun k : Fin 128 => iblk1 V c 2 t (ix2 (0 : Fin 1) k)) = fun k => B1 (ix1 k) :=
    funext fun k => (read2 V c t 0 k).trans (hB1 k)
  have h3 : (fun (k : Fin 128) (q' : Fin 128) => iblk1 V c 3 t (ix2 k q')) = fun k q' => V c (Pipeline.arrRef spec1 3) (ix2 k q') :=
    funext fun k => funext fun q' => read3 V c t k q'
  have h4 : (fun q' : Fin 128 => iblk1 V c 4 t (ix2 (0 : Fin 1) q')) = fun q' => B2 (ix1 q') :=
    funext fun q' => (read4 V c t 0 q').trans (hB2 q')
  rw [h0, h1, h2, h3, h4]

/-- The 25 row blocks cover the result array: row `i` is in block `i / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1⟩ := idx_rows5 t
  refine ⟨t, flush1_5 t, ?_⟩
  show i ∈ ((View.whole main_v5).slice (win1_5.rect t)).set
  rw [View.set_slice_whole, Rect.mem_set_unit]
  intro a
  have ht : t.val = (i 0).val / 2000 := rfl
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The region's result array ends holding the perceptron's output. -/
theorem final (c : Dev nD)
    (hB1 : ∀ k : Fin 128, V c (Pipeline.arrRef spec1 2) (ix2 (0 : Fin 1) k) = B1 (ix1 k))
    (hB2 : ∀ k : Fin 128, V c (Pipeline.arrRef spec1 4) (ix2 (0 : Fin 1) k) = B2 (ix1 k)) :
    (dat1 V c).arrAt 5 cfg1.N = G V B1 B2 c :=
  (dat1 V c).arrAt_eq_of_cover 5 (G V B1 B2 c) (fun t _ => flushed_eq V B1 B2 c hB1 hB2 t) cover

end Cert.KernelIdeal.Region1
-- ==== Proof.PayProj.lean ====
/-
  The graph layers' first projection, one entry at a time: the kernel body of the two projection regions stores, at
  (p, q) of its block, the sum over l of the loaded row block at (p, l) times the loaded weights at (l, q), and the
  specification's `proj X W` at (r, q) is the same sum over the whole arrays — both are `Rows.dense`. The two
  dimension-number records contract axis 1 of the left operand with axis 0 of the right one (`Plain`).
-/
import proofs.«106528_j111669149893_1_alg».proof.Proof.Gen.KernelIdeal.Skeleton
import proofs.«106528_j111669149893_1_alg».proof.Proof.Gen.ReferenceIdeal
import proofs.«106528_j111669149893_1_alg».proof.Proof.Spec
import proofs.«106528_j111669149893_1_alg».proof.Proof.Rows
import proofs.«106528_j111669149893_1_alg».proof.Proof.LibDot
import Idealize.ShloMosaic.Lib.ValueIdx
import Idealize.ShloMosaic.PureOps.Ideal.Laws

noncomputable section

namespace Cert.Pay

open Idealize.ShloMosaic Idealize.ShloMosaic.ValueIdx

section kernel
open Cert.KernelIdeal Cert.KernelIdeal.Gen

theorem plain_k256 : Cert.LibDot.Plain (M := 2000) (K := 256) (N := 128) dot_S2000x256_S256x128_S2000x128_1_0_0_1_n_n where
  hrank := rfl
  hs := rfl
  hl0 := fun _ _ => rfl
  hl1 := fun j k => DotDims.lhsIdx_val_of_single _ (cl := 1) rfl j k
  hr0 := fun j k => DotDims.rhsIdx_val_of_single _ (cr := 0) rfl j k
  hr1 := fun _ _ => rfl

/-- The projection body's stored block at (p, q). -/
theorem k2_pay1_apply (x0 : Vec Ideal S2000x256 .f32) (x1 : Vec Ideal S256x128 .f32) (p : Fin 2000) (q : Fin 128) :
    k2_pay1 (F := Ideal) x0 x1 (ix2 p q) = Cert.Rows.dense (fun l => x0 (ix2 p l)) (fun l => x1 (ix2 l q)) := by
  unfold k2_pay1
  exact Cert.LibDot.matmul_ix2 plain_k256 none _ _ p q

theorem k3_pay1_apply (x0 : Vec Ideal S2000x256 .f32) (x1 : Vec Ideal S256x128 .f32) (p : Fin 2000) (q : Fin 128) :
    k3_pay1 (F := Ideal) x0 x1 (ix2 p q) = Cert.Rows.dense (fun l => x0 (ix2 p l)) (fun l => x1 (ix2 l q)) := by
  unfold k3_pay1
  exact Cert.LibDot.matmul_ix2 plain_k256 none _ _ p q

end kernel

section spec
open Cert.ReferenceIdeal

theorem plain_r256 : Cert.LibDot.Plain (M := 50000) (K := 256) (N := 128) dot_S50000x256_S256x128_S50000x128_1_0_0_1_n_n where
  hrank := rfl
  hs := rfl
  hl0 := fun _ _ => rfl
  hl1 := fun j k => DotDims.lhsIdx_val_of_single _ (cl := 1) rfl j k
  hr0 := fun j k => DotDims.rhsIdx_val_of_single _ (cr := 0) rfl j k
  hr1 := fun _ _ => rfl

/-- The specification's projection at (r, q). -/
theorem proj_apply (X : Cert.Spec.Arr Ideal S50000x256 .f32) (W : Cert.Spec.Arr Ideal S256x128 .f32) (r : Fin 50000) (q : Fin 128) :
    Cert.Spec.proj (F := Ideal) X W (ix2 r q) = Cert.Rows.dense (fun l => X (ix2 r l)) (fun l => W (ix2 l q)) := by
  unfold Cert.Spec.proj
  exact Cert.LibDot.dotGeneral_ix2 plain_r256 none _ _ r q

end spec

end Cert.Pay
-- ==== Proof.Region2.lean ====
/-
  What projection region 2 leaves in its result array, whatever the buffers hold when it is entered.

  The region has 25 grid points; point t reads rows 2000·t … 2000·t + 1999 of the node features (all 256 columns) and
  the whole weight matrix, and writes back rows 2000·t … 2000·t + 1999 of the result (all 128 columns). What it
  writes is the body's product of the two loaded blocks; entry (p, q) of that block is the sum over l of
  features (2000·t + p, l) · weights (l, q), which is entry (2000·t + p, q) of the specification's `proj` of the two
  arrays. The 25 row blocks cover the result array (row i is in block i / 2000), so the array ends holding `proj`.
-/
import proofs.«106528_j111669149893_1_alg».proof.Proof.Gen.KernelIdeal.Frame
import proofs.«106528_j111669149893_1_alg».proof.Proof.PayProj
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_rows0 : ∀ t : Fin cfg2.N, win2_0.index t (0 : Fin 2) = t.val ∧ win2_0.index t (1 : Fin 2) = 0 :=
  (by decide +kernel : ∀ t : Fin grid2.N, _)
theorem idx_whole1 : ∀ t : Fin cfg2.N, win2_1.index t (0 : Fin 2) = 0 ∧ win2_1.index t (1 : Fin 2) = 0 :=
  (by decide +kernel : ∀ t : Fin grid2.N, _)
theorem idx_rows2 : ∀ t : Fin cfg2.N, win2_2.index t (0 : Fin 2) = t.val ∧ win2_2.index t (1 : Fin 2) = 0 :=
  (by decide +kernel : ∀ t : Fin grid2.N, _)

/-- Window 0's block at point `t` is the rows 2000·t … of its array. -/
theorem read0 (c : Dev nD) (t : Fin cfg2.N) (p : Fin 2000) (l : Fin 256) (hrow : t.val * 2000 + p.val < 50000) :
    iblk2 V c 0 t (ix2 p l) = V c (Pipeline.arrRef spec2 0) (ix2 (⟨t.val * 2000 + p.val, hrow⟩ : Fin 50000) l) := by
  obtain ⟨e0, e1⟩ := idx_rows0 t
  show V c (Pipeline.arrRef spec2 0) (((cfg2.win 0).blk t).view.emb (ix2 p l)) = _
  refine congrArg _ ?_
  funext a; apply Fin.ext
  match a with
  | ⟨0, _⟩ => show win2_0.index t (0 : Fin 2) * 2000 + 1 * p.val = t.val * 2000 + p.val; omega
  | ⟨1, _⟩ => show win2_0.index t (1 : Fin 2) * 256 + 1 * l.val = l.val; omega

/-- Window 1's block at every point is its whole array. -/
theorem read1 (c : Dev nD) (t : Fin cfg2.N) (a : Fin 256) (b : Fin 128) :
    iblk2 V c 1 t (ix2 a b) = V c (Pipeline.arrRef spec2 1) (ix2 a b) := by
  obtain ⟨e0, e1⟩ := idx_whole1 t
  show V c (Pipeline.arrRef spec2 1) (((cfg2.win 1).blk t).view.emb (ix2 a b)) = _
  refine congrArg _ ?_
  funext d; apply Fin.ext
  match d with
  | ⟨0, _⟩ => show win2_1.index t (0 : Fin 2) * 256 + 1 * a.val = a.val; omega
  | ⟨1, _⟩ => show win2_1.index t (1 : Fin 2) * 128 + 1 * b.val = b.val; omega

/-- Entry (p, q) of point `t`'s result block is entry (2000·t + p, q) of the array. -/
theorem emb_out (t : Fin cfg2.N) (p : Fin 2000) (q : Fin 128) (hrow : t.val * 2000 + p.val < 50000) :
    ((cfg2.win 2).blk t).view.emb (ix2 p q) = ix2 (⟨t.val * 2000 + p.val, hrow⟩ : Fin 50000) q := by
  obtain ⟨e0, e1⟩ := idx_rows2 t
  funext a; apply Fin.ext
  match a with
  | ⟨0, _⟩ => show win2_2.index t (0 : Fin 2) * 2000 + 1 * p.val = t.val * 2000 + p.val; omega
  | ⟨1, _⟩ => show win2_2.index t (1 : Fin 2) * 128 + 1 * q.val = q.val; omega

/-- The result array the region writes into, as the specification's projection of the two arrays it reads. -/
abbrev G (c : Dev nD) : S50000x128.Idx → EReal :=
  Cert.Spec.proj (F := Ideal) (V c (Pipeline.arrRef spec2 0)) (V c (Pipeline.arrRef spec2 1))

/-- What point `t` writes back is block `t` of the projection. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  have ht : t.val < 25 := lt_of_lt_of_eq t.isLt N_2
  funext j
  obtain ⟨p, q, rfl⟩ : ∃ (p : Fin 2000) (q : Fin 128), j = ix2 p q := ⟨j 0, j 1, eq_ix2 j⟩
  have hrow : t.val * 2000 + p.val < 50000 := by have := p.isLt; omega
  refine (Cert.Pay.k2_pay1_apply (iblk2 V c 0 t) (iblk2 V c 1 t) p q).trans ?_
  show _ = G V c (((cfg2.win 2).blk t).view.emb (ix2 p q))
  rw [emb_out t p q hrow]
  refine Eq.trans ?_ (Cert.Pay.proj_apply _ _ ⟨t.val * 2000 + p.val, hrow⟩ q).symm
  unfold Cert.Rows.dense
  refine Finset.sum_congr rfl fun l _ => ?_
  beta_reduce
  rw [read0 V c t p l hrow, read1 V c t l q]

/-- The 25 row blocks cover the result array: row `i` is in block `i / 2000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1⟩ := idx_rows2 t
  refine ⟨t, flush2_2 t, ?_⟩
  show i ∈ ((View.whole main_v6).slice (win2_2.rect t)).set
  rw [View.set_slice_whole, Rect.mem_set_unit]
  intro a
  have ht : t.val = (i 0).val / 2000 := rfl
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The region's result array ends holding the projection of the arrays it was entered with. -/
theorem final (c : Dev nD) : (dat2 V c).arrAt 2 cfg2.N = G V c :=
  (dat2 V c).arrAt_eq_of_cover 2 (G V c) (fun t _ => flushed_eq V c t) cover

end Cert.KernelIdeal.Region2
-- ==== Proof.Region3.lean ====
/-
  What projection region 3 leaves in its result array, whatever the buffers hold when it is entered.

  The region has 25 grid points; point t reads rows 2000·t … 2000·t + 1999 of the node features (all 256 columns) and
  the whole weight matrix, and writes back rows 2000·t … 2000·t + 1999 of the result (all 128 columns). What it
  writes is the body's product of the two loaded blocks; entry (p, q) of that block is the sum over l of
  features (2000·t + p, l) · weights (l, q), which is entry (2000·t + p, q) of the specification's `proj` of the two
  arrays. The 25 row blocks cover the result array (row i is in block i / 2000), so the array ends holding `proj`.
-/
import proofs.«106528_j111669149893_1_alg».proof.Proof.Gen.KernelIdeal.Frame
import proofs.«106528_j111669149893_1_alg».proof.Proof.PayProj
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_rows0 : ∀ t : Fin cfg3.N, win3_0.index t (0 : Fin 2) = t.val ∧ win3_0.index t (1 : Fin 2) = 0 :=
  (by decide +kernel : ∀ t : Fin grid3.N, _)
theorem idx_whole1 : ∀ t : Fin cfg3.N, win3_1.index t (0 : Fin 2) = 0 ∧ win3_1.index t (1 : Fin 2) = 0 :=
  (by decide +kernel : ∀ t : Fin grid3.N, _)
theorem idx_rows2 : ∀ t : Fin cfg3.N, win3_2.index t (0 : Fin 2) = t.val ∧ win3_2.index t (1 : Fin 2) = 0 :=
  (by decide +kernel : ∀ t : Fin grid3.N, _)

/-- Window 0's block at point `t` is the rows 2000·t … of its array. -/
theorem read0 (c : Dev nD) (t : Fin cfg3.N) (p : Fin 2000) (l : Fin 256) (hrow : t.val * 2000 + p.val < 50000) :
    iblk3 V c 0 t (ix2 p l) = V c (Pipeline.arrRef spec3 0) (ix2 (⟨t.val * 2000 + p.val, hrow⟩ : Fin 50000) l) := by
  obtain ⟨e0, e1⟩ := idx_rows0 t
  show V c (Pipeline.arrRef spec3 0) (((cfg3.win 0).blk t).view.emb (ix2 p l)) = _
  refine congrArg _ ?_
  funext a; apply Fin.ext
  match a with
  | ⟨0, _⟩ => show win3_0.index t (0 : Fin 2) * 2000 + 1 * p.val = t.val * 2000 + p.val; omega
  | ⟨1, _⟩ => show win3_0.index t (1 : Fin 2) * 256 + 1 * l.val = l.val; omega

/-- Window 1's block at every point is its whole array. -/
theorem read1 (c : Dev nD) (t : Fin cfg3.N) (a : Fin 256) (b : Fin 128) :
    iblk3 V c 1 t (ix2 a b) = V c (Pipeline.arrRef spec3 1) (ix2 a b) := by
  obtain ⟨e0, e1⟩ := idx_whole1 t
  show V c (Pipeline.arrRef spec3 1) (((cfg3.win 1).blk t).view.emb (ix2 a b)) = _
  refine congrArg _ ?_
  funext d; apply Fin.ext
  match d with
  | ⟨0, _⟩ => show win3_1.index t (0 : Fin 2) * 256 + 1 * a.val = a.val; omega
  | ⟨1, _⟩ => show win3_1.index t (1 : Fin 2) * 128 + 1 * b.val = b.val; omega

/-- Entry (p, q) of point `t`'s result block is entry (2000·t + p, q) of the array. -/
theorem emb_out (t : Fin cfg3.N) (p : Fin 2000) (q : Fin 128) (hrow : t.val * 2000 + p.val < 50000) :
    ((cfg3.win 2).blk t).view.emb (ix2 p q) = ix2 (⟨t.val * 2000 + p.val, hrow⟩ : Fin 50000) q := by
  obtain ⟨e0, e1⟩ := idx_rows2 t
  funext a; apply Fin.ext
  match a with
  | ⟨0, _⟩ => show win3_2.index t (0 : Fin 2) * 2000 + 1 * p.val = t.val * 2000 + p.val; omega
  | ⟨1, _⟩ => show win3_2.index t (1 : Fin 2) * 128 + 1 * q.val = q.val; omega

/-- The result array the region writes into, as the specification's projection of the two arrays it reads. -/
abbrev G (c : Dev nD) : S50000x128.Idx → EReal :=
  Cert.Spec.proj (F := Ideal) (V c (Pipeline.arrRef spec3 0)) (V c (Pipeline.arrRef spec3 1))

/-- What point `t` writes back is block `t` of the projection. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S2000x256) hz, View.ld_unit_zero (S := S256x128) hz]
  have ht : t.val < 25 := lt_of_lt_of_eq t.isLt N_3
  funext j
  obtain ⟨p, q, rfl⟩ : ∃ (p : Fin 2000) (q : Fin 128), j = ix2 p q := ⟨j 0, j 1, eq_ix2 j⟩
  have hrow : t.val * 2000 + p.val < 50000 := by have := p.isLt; omega
  refine (Cert.Pay.k3_pay1_apply (iblk3 V c 0 t) (iblk3 V c 1 t) p q).trans ?_
  show _ = G V c (((cfg3.win 2).blk t).view.emb (ix2 p q))
  rw [emb_out t p q hrow]
  refine Eq.trans ?_ (Cert.Pay.proj_apply _ _ ⟨t.val * 2000 + p.val, hrow⟩ q).symm
  unfold Cert.Rows.dense
  refine Finset.sum_congr rfl fun l _ => ?_
  beta_reduce
  rw [read0 V c t p l hrow, read1 V c t l q]

/-- The 25 row blocks cover the result array: row `i` is in block `i / 2000`. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e0, e1⟩ := idx_rows2 t
  refine ⟨t, flush3_2 t, ?_⟩
  show i ∈ ((View.whole main_v7).slice (win3_2.rect t)).set
  rw [View.set_slice_whole, Rect.mem_set_unit]
  intro a
  have ht : t.val = (i 0).val / 2000 := rfl
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The region's result array ends holding the projection of the arrays it was entered with. -/
theorem final (c : Dev nD) : (dat3 V c).arrAt 2 cfg3.N = G V c :=
  (dat3 V c).arrAt_eq_of_cover 2 (G V c) (fun t _ => flushed_eq V c t) cover

end Cert.KernelIdeal.Region3
-- ==== Proof.PayMid.lean ====
/-
  The layer between the two graph convolutions, `relu (a + c₁) · G₂`, read at one entry.

  The specification's whole-array function `mid` at (r, q), and the kernel bodies of the two middle regions at
  (p, q), are both the row formula

      Σ_k relu (a k + b k) · w k q,      relu z = max z 0.

  The kernel reshapes its [2000,128] block to itself first (the identity), lays the [1,128] bias block along the rows,
  takes the maximum with the zero word, changes the float format (the identity on the extended reals) and multiplies
  into a zero accumulator.
-/
import proofs.«106528_j111669149893_1_alg».proof.Proof.PayMlp

noncomputable section

namespace Cert.Pay

open Idealize.ShloMosaic Idealize.ShloMosaic.ValueIdx

section SpecSide

open Cert.ReferenceIdeal

/-- The specification's middle layer at (r, q) is the row formula of row r. -/
theorem mid_apply (A : Cert.Spec.Arr Ideal S50000x128 .f32) (B : Cert.Spec.Arr Ideal S128 .f32) (W : Cert.Spec.Arr Ideal S128x128 .f32)
    (r : Fin 50000) (q : Fin 128) :
    Cert.Spec.mid (F := Ideal) A B W (ix2 r q)
      = Cert.Rows.midRow (fun k => A (ix2 r k)) (fun k => B (ix1 k)) (fun k q' => W (ix2 k q')) q := by
  unfold Cert.Spec.mid Cert.Rows.midRow
  refine (Cert.LibDot.dotGeneral_ix2 plain_spec2 none _ W r q).trans ?_
  refine Finset.sum_congr rfl fun k _ => ?_
  exact congrArg (fun z => z * W (ix2 k q)) (relu_bias_apply A B r k)

end SpecSide

section KernelSide

open Cert.KernelIdeal Cert.KernelIdeal.Gen

/-- The body of region 4 at (p, q) is the row formula of the block's row p. -/
theorem k4_pay1_apply (x0 : Vec Ideal S2000x128 .f32) (x1 : Vec Ideal S1x128 .f32) (x2 : Vec Ideal S128x128 .f32)
    (p : Fin 2000) (q : Fin 128) :
    k4_pay1 (F := Ideal) x0 x1 x2 (ix2 p q)
      = Cert.Rows.midRow (fun k => x0 (ix2 p k)) (fun k => x1 (ix2 (0 : Fin 1) k)) (fun k q' => x2 (ix2 k q')) q := by
  unfold k4_pay1 Cert.Rows.midRow
  refine (Cert.LibDot.matmul_ix2 plain_k2 none _ _ p q).trans ?_
  refine Finset.sum_congr rfl fun k _ => ?_
  refine congrArg (fun z => z * x2 (ix2 k q)) ?_
  refine (krelu_bias_apply _ x1 p k).trans ?_
  rw [shapeCast_self]

/-- The body of region 5 (the same text) at (p, q). -/
theorem k5_pay1_apply (x0 : Vec Ideal S2000x128 .f32) (x1 : Vec Ideal S1x128 .f32) (x2 : Vec Ideal S128x128 .f32)
    (p : Fin 2000) (q : Fin 128) :
    k5_pay1 (F := Ideal) x0 x1 x2 (ix2 p q)
      = Cert.Rows.midRow (fun k => x0 (ix2 p k)) (fun k => x1 (ix2 (0 : Fin 1) k)) (fun k q' => x2 (ix2 k q')) q := by
  unfold k5_pay1 Cert.Rows.midRow
  refine (Cert.LibDot.matmul_ix2 plain_k2 none _ _ p q).trans ?_
  refine Finset.sum_congr rfl fun k _ => ?_
  refine congrArg (fun z => z * x2 (ix2 k q)) ?_
  refine (krelu_bias_apply _ x1 p k).trans ?_
  rw [shapeCast_self]

end KernelSide

end Cert.Pay
-- ==== Proof.Region4.lean ====
/-
  What middle-layer region 4 leaves in its result array, whatever the buffers hold when it is entered — provided its
  bias block, of shape [1, 128], holds a bias vector B of shape [128] laid along its one row.

  The region has 25 grid points; point t reads rows 2000·t … 2000·t + 1999 of the aggregated features, the bias row and
  the weight matrix whole, and writes back rows 2000·t … 2000·t + 1999 of the result. Entry (p, q) of what it writes is
  Σ_k relu (a (2000·t + p, k) + B k) · W (k, q): entry (2000·t + p, q) of the specification's `mid`. The 25 row blocks
  cover the result array.
-/
import proofs.«106528_j111669149893_1_alg».proof.Proof.Gen.KernelIdeal.Frame
import proofs.«106528_j111669149893_1_alg».proof.Proof.PayMid
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_rows0 : ∀ t : Fin cfg4.N, win4_0.index t (0 : Fin 2) = t.val ∧ win4_0.index t (1 : Fin 2) = 0 :=
  (by decide +kernel : ∀ t : Fin grid4.N, _)
theorem idx_whole1 : ∀ t : Fin cfg4.N, win4_1.index t (0 : Fin 2) = 0 ∧ win4_1.index t (1 : Fin 2) = 0 :=
  (by decide +kernel : ∀ t : Fin grid4.N, _)
theorem idx_whole2 : ∀ t : Fin cfg4.N, win4_2.index t (0 : Fin 2) = 0 ∧ win4_2.index t (1 : Fin 2) = 0 :=
  (by decide +kernel : ∀ t : Fin grid4.N, _)
theorem idx_rows3 : ∀ t : Fin cfg4.N, win4_3.index t (0 : Fin 2) = t.val ∧ win4_3.index t (1 : Fin 2) = 0 :=
  (by decide +kernel : ∀ t : Fin grid4.N, _)

/-- Window 0's block at point `t` is the rows 2000·t … of its array. -/
theorem read0 (c : Dev nD) (t : Fin cfg4.N) (p : Fin 2000) (l : Fin 128) (hrow : t.val * 2000 + p.val < 50000) :
    iblk4 V c 0 t (ix2 p l) = V c (Pipeline.arrRef spec4 0) (ix2 (⟨t.val * 2000 + p.val, hrow⟩ : Fin 50000) l) := by
  obtain ⟨e0, e1⟩ := idx_rows0 t
  show V c (Pipeline.arrRef spec4 0) (((cfg4.win 0).blk t).view.emb (ix2 p l)) = _
  refine congrArg _ ?_
  funext a; apply Fin.ext
  match a with
  | ⟨0, _⟩ => show win4_0.index t (0 : Fin 2) * 2000 + 1 * p.val = t.val * 2000 + p.val; omega
  | ⟨1, _⟩ => show win4_0.index t (1 : Fin 2) * 128 + 1 * l.val = l.val; omega

/-- Window 1's block at every point is its whole array. -/
theorem read1 (c : Dev nD) (t : Fin cfg4.N) (a : Fin 1) (b : Fin 128) :
    iblk4 V c 1 t (ix2 a b) = V c (Pipeline.arrRef spec4 1) (ix2 a b) := by
  obtain ⟨e0, e1⟩ := idx_whole1 t
  show V c (Pipeline.arrRef spec4 1) (((cfg4.win 1).blk t).view.emb (ix2 a b)) = _
  refine congrArg _ ?_
  funext d; apply Fin.ext
  match d with
  | ⟨0, _⟩ => show win4_1.index t (0 : Fin 2) * 1 + 1 * a.val = a.val; omega
  | ⟨1, _⟩ => show win4_1.index t (1 : Fin 2) * 128 + 1 * b.val = b.val; omega

/-- Window 2's block at every point is its whole array. -/
theorem read2 (c : Dev nD) (t : Fin cfg4.N) (a : Fin 128) (b : Fin 128) :
    iblk4 V c 2 t (ix2 a b) = V c (Pipeline.arrRef spec4 2) (ix2 a b) := by
  obtain ⟨e0, e1⟩ := idx_whole2 t
  show V c (Pipeline.arrRef spec4 2) (((cfg4.win 2).blk t).view.emb (ix2 a b)) = _
  refine congrArg _ ?_
  funext d; apply Fin.ext
  match d with
  | ⟨0, _⟩ => show win4_2.index t (0 : Fin 2) * 128 + 1 * a.val = a.val; omega
  | ⟨1, _⟩ => show win4_2.index t (1 : Fin 2) * 128 + 1 * b.val = b.val; omega

/-- Entry (p, q) of point `t`'s result block is entry (2000·t + p, q) of the array. -/
theorem emb_out (t : Fin cfg4.N) (p : Fin 2000) (q : Fin 128) (hrow : t.val * 2000 + p.val < 50000) :
    ((cfg4.win 3).blk t).view.emb (ix2 p q) = ix2 (⟨t.val * 2000 + p.val, hrow⟩ : Fin 50000) q := by
  obtain ⟨e0, e1⟩ := idx_rows3 t
  funext a; apply Fin.ext
  match a with
  | ⟨0, _⟩ => show win4_3.index t (0 : Fin 2) * 2000 + 1 * p.val = t.val * 2000 + p.val; omega
  | ⟨1, _⟩ => show win4_3.index t (1 : Fin 2) * 128 + 1 * q.val = q.val; omega

variable (B : Cert.Spec.Arr Ideal S128 .f32)

/-- The result array the region writes into: the specification's middle layer of the arrays it reads and the bias. -/
abbrev G (c : Dev nD) : S50000x128.Idx → EReal :=
  Cert.Spec.mid (F := Ideal) (V c (Pipeline.arrRef spec4 0)) B (V c (Pipeline.arrRef spec4 2))

/-- What point `t` writes back is block `t` of the middle layer's output. -/
theorem flushed_eq (c : Dev nD)
    (hB : ∀ k : Fin 128, V c (Pipeline.arrRef spec4 1) (ix2 (0 : Fin 1) k) = B (ix1 k)) (t : Fin cfg4.N) :
    (dat4 V c).flushed 3 t = ((cfg4.win 3).blk t).view.read (Elt Ideal) (G V B c) := by
  show (cfg4.win 3).cut (grid4.coords t) ((dat4 V c).after 3 t) = _
  rw [after4_3]
  unfold out4_3
  rw [View.canon_unit_zero hz]
  simp only [View.ld_unit_zero (S := S2000x128) hz, View.ld_unit_zero (S := S1x128) hz, View.ld_unit_zero (S := S128x128) hz]
  have ht : t.val < 25 := lt_of_lt_of_eq t.isLt N_4
  funext j
  obtain ⟨p, q, rfl⟩ : ∃ (p : Fin 2000) (q : Fin 128), j = ix2 p q := ⟨j 0, j 1, eq_ix2 j⟩
  have hrow : t.val * 2000 + p.val < 50000 := by have := p.isLt; omega
  refine (Cert.Pay.k4_pay1_apply (iblk4 V c 0 t) (iblk4 V c 1 t) (iblk4 V c 2 t) p q).trans ?_
  show _ = G V B c (((cfg4.win 3).blk t).view.emb (ix2 p q))
  rw [emb_out t p q hrow]
  refine Eq.trans ?_ (Cert.Pay.mid_apply _ _ _ ⟨t.val * 2000 + p.val, hrow⟩ q).symm
  have h0 : (fun k : Fin 128 => iblk4 V c 0 t (ix2 p k))
      = fun k => V c (Pipeline.arrRef spec4 0) (ix2 (⟨t.val * 2000 + p.val, hrow⟩ : Fin 50000) k) := funext fun k => read0 V c t p k hrow
  have h1 : (fun k : Fin 128 => iblk4 V c 1 t (ix2 (0 : Fin 1) k)) = fun k => B (ix1 k) :=
    funext fun k => (read1 V c t 0 k).trans (hB k)
  have h2 : (fun (k : Fin 128) (q' : Fin 128) => iblk4 V c 2 t (ix2 k q')) = fun k q' => V c (Pipeline.arrRef spec4 2) (ix2 k q') :=
    funext fun k => funext fun q' => read2 V c t k q'
  rw [h0, h1, h2]

/-- The 25 row blocks cover the result array: row `i` is in block `i / 2000`. -/
theorem cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  obtain ⟨e0, e1⟩ := idx_rows3 t
  refine ⟨t, flush4_3 t, ?_⟩
  show i ∈ ((View.whole main_v93).slice (win4_3.rect t)).set
  rw [View.set_slice_whole, Rect.mem_set_unit]
  intro a
  have ht : t.val = (i 0).val / 2000 := rfl
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The region's result array ends holding the middle layer's output. -/
theorem final (c : Dev nD)
    (hB : ∀ k : Fin 128, V c (Pipeline.arrRef spec4 1) (ix2 (0 : Fin 1) k) = B (ix1 k)) :
    (dat4 V c).arrAt 3 cfg4.N = G V B c :=
  (dat4 V c).arrAt_eq_of_cover 3 (G V B c) (fun t _ => flushed_eq V B c hB t) cover

end Cert.KernelIdeal.Region4
-- ==== Proof.Region5.lean ====
/-
  What middle-layer region 5 leaves in its result array, whatever the buffers hold when it is entered — provided its
  bias block, of shape [1, 128], holds a bias vector B of shape [128] laid along its one row.

  The region has 25 grid points; point t reads rows 2000·t … 2000·t + 1999 of the aggregated features, the bias row and
  the weight matrix whole, and writes back rows 2000·t … 2000·t + 1999 of the result. Entry (p, q) of what it writes is
  Σ_k relu (a (2000·t + p, k) + B k) · W (k, q): entry (2000·t + p, q) of the specification's `mid`. The 25 row blocks
  cover the result array.
-/
import proofs.«106528_j111669149893_1_alg».proof.Proof.Gen.KernelIdeal.Frame
import proofs.«106528_j111669149893_1_alg».proof.Proof.PayMid
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_rows0 : ∀ t : Fin cfg5.N, win5_0.index t (0 : Fin 2) = t.val ∧ win5_0.index t (1 : Fin 2) = 0 :=
  (by decide +kernel : ∀ t : Fin grid5.N, _)
theorem idx_whole1 : ∀ t : Fin cfg5.N, win5_1.index t (0 : Fin 2) = 0 ∧ win5_1.index t (1 : Fin 2) = 0 :=
  (by decide +kernel : ∀ t : Fin grid5.N, _)
theorem idx_whole2 : ∀ t : Fin cfg5.N, win5_2.index t (0 : Fin 2) = 0 ∧ win5_2.index t (1 : Fin 2) = 0 :=
  (by decide +kernel : ∀ t : Fin grid5.N, _)
theorem idx_rows3 : ∀ t : Fin cfg5.N, win5_3.index t (0 : Fin 2) = t.val ∧ win5_3.index t (1 : Fin 2) = 0 :=
  (by decide +kernel : ∀ t : Fin grid5.N, _)

/-- Window 0's block at point `t` is the rows 2000·t … of its array. -/
theorem read0 (c : Dev nD) (t : Fin cfg5.N) (p : Fin 2000) (l : Fin 128) (hrow : t.val * 2000 + p.val < 50000) :
    iblk5 V c 0 t (ix2 p l) = V c (Pipeline.arrRef spec5 0) (ix2 (⟨t.val * 2000 + p.val, hrow⟩ : Fin 50000) l) := by
  obtain ⟨e0, e1⟩ := idx_rows0 t
  show V c (Pipeline.arrRef spec5 0) (((cfg5.win 0).blk t).view.emb (ix2 p l)) = _
  refine congrArg _ ?_
  funext a; apply Fin.ext
  match a with
  | ⟨0, _⟩ => show win5_0.index t (0 : Fin 2) * 2000 + 1 * p.val = t.val * 2000 + p.val; omega
  | ⟨1, _⟩ => show win5_0.index t (1 : Fin 2) * 128 + 1 * l.val = l.val; omega

/-- Window 1's block at every point is its whole array. -/
theorem read1 (c : Dev nD) (t : Fin cfg5.N) (a : Fin 1) (b : Fin 128) :
    iblk5 V c 1 t (ix2 a b) = V c (Pipeline.arrRef spec5 1) (ix2 a b) := by
  obtain ⟨e0, e1⟩ := idx_whole1 t
  show V c (Pipeline.arrRef spec5 1) (((cfg5.win 1).blk t).view.emb (ix2 a b)) = _
  refine congrArg _ ?_
  funext d; apply Fin.ext
  match d with
  | ⟨0, _⟩ => show win5_1.index t (0 : Fin 2) * 1 + 1 * a.val = a.val; omega
  | ⟨1, _⟩ => show win5_1.index t (1 : Fin 2) * 128 + 1 * b.val = b.val; omega

/-- Window 2's block at every point is its whole array. -/
theorem read2 (c : Dev nD) (t : Fin cfg5.N) (a : Fin 128) (b : Fin 128) :
    iblk5 V c 2 t (ix2 a b) = V c (Pipeline.arrRef spec5 2) (ix2 a b) := by
  obtain ⟨e0, e1⟩ := idx_whole2 t
  show V c (Pipeline.arrRef spec5 2) (((cfg5.win 2).blk t).view.emb (ix2 a b)) = _
  refine congrArg _ ?_
  funext d; apply Fin.ext
  match d with
  | ⟨0, _⟩ => show win5_2.index t (0 : Fin 2) * 128 + 1 * a.val = a.val; omega
  | ⟨1, _⟩ => show win5_2.index t (1 : Fin 2) * 128 + 1 * b.val = b.val; omega

/-- Entry (p, q) of point `t`'s result block is entry (2000·t + p, q) of the array. -/
theorem emb_out (t : Fin cfg5.N) (p : Fin 2000) (q : Fin 128) (hrow : t.val * 2000 + p.val < 50000) :
    ((cfg5.win 3).blk t).view.emb (ix2 p q) = ix2 (⟨t.val * 2000 + p.val, hrow⟩ : Fin 50000) q := by
  obtain ⟨e0, e1⟩ := idx_rows3 t
  funext a; apply Fin.ext
  match a with
  | ⟨0, _⟩ => show win5_3.index t (0 : Fin 2) * 2000 + 1 * p.val = t.val * 2000 + p.val; omega
  | ⟨1, _⟩ => show win5_3.index t (1 : Fin 2) * 128 + 1 * q.val = q.val; omega

variable (B : Cert.Spec.Arr Ideal S128 .f32)

/-- The result array the region writes into: the specification's middle layer of the arrays it reads and the bias. -/
abbrev G (c : Dev nD) : S50000x128.Idx → EReal :=
  Cert.Spec.mid (F := Ideal) (V c (Pipeline.arrRef spec5 0)) B (V c (Pipeline.arrRef spec5 2))

/-- What point `t` writes back is block `t` of the middle layer's output. -/
theorem flushed_eq (c : Dev nD)
    (hB : ∀ k : Fin 128, V c (Pipeline.arrRef spec5 1) (ix2 (0 : Fin 1) k) = B (ix1 k)) (t : Fin cfg5.N) :
    (dat5 V c).flushed 3 t = ((cfg5.win 3).blk t).view.read (Elt Ideal) (G V B c) := by
  show (cfg5.win 3).cut (grid5.coords t) ((dat5 V c).after 3 t) = _
  rw [after5_3]
  unfold out5_3
  rw [View.canon_unit_zero hz]
  simp only [View.ld_unit_zero (S := S2000x128) hz, View.ld_unit_zero (S := S1x128) hz, View.ld_unit_zero (S := S128x128) hz]
  have ht : t.val < 25 := lt_of_lt_of_eq t.isLt N_5
  funext j
  obtain ⟨p, q, rfl⟩ : ∃ (p : Fin 2000) (q : Fin 128), j = ix2 p q := ⟨j 0, j 1, eq_ix2 j⟩
  have hrow : t.val * 2000 + p.val < 50000 := by have := p.isLt; omega
  refine (Cert.Pay.k5_pay1_apply (iblk5 V c 0 t) (iblk5 V c 1 t) (iblk5 V c 2 t) p q).trans ?_
  show _ = G V B c (((cfg5.win 3).blk t).view.emb (ix2 p q))
  rw [emb_out t p q hrow]
  refine Eq.trans ?_ (Cert.Pay.mid_apply _ _ _ ⟨t.val * 2000 + p.val, hrow⟩ q).symm
  have h0 : (fun k : Fin 128 => iblk5 V c 0 t (ix2 p k))
      = fun k => V c (Pipeline.arrRef spec5 0) (ix2 (⟨t.val * 2000 + p.val, hrow⟩ : Fin 50000) k) := funext fun k => read0 V c t p k hrow
  have h1 : (fun k : Fin 128 => iblk5 V c 1 t (ix2 (0 : Fin 1) k)) = fun k => B (ix1 k) :=
    funext fun k => (read1 V c t 0 k).trans (hB k)
  have h2 : (fun (k : Fin 128) (q' : Fin 128) => iblk5 V c 2 t (ix2 k q')) = fun k q' => V c (Pipeline.arrRef spec5 2) (ix2 k q') :=
    funext fun k => funext fun q' => read2 V c t k q'
  rw [h0, h1, h2]

/-- The 25 row blocks cover the result array: row `i` is in block `i / 2000`. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  let t : Fin cfg5.N := ⟨(i 0).val / 2000, by rw [hN]; omega⟩
  obtain ⟨e0, e1⟩ := idx_rows3 t
  refine ⟨t, flush5_3 t, ?_⟩
  show i ∈ ((View.whole main_v95).slice (win5_3.rect t)).set
  rw [View.set_slice_whole, Rect.mem_set_unit]
  intro a
  have ht : t.val = (i 0).val / 2000 := rfl
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- The region's result array ends holding the middle layer's output. -/
theorem final (c : Dev nD)
    (hB : ∀ k : Fin 128, V c (Pipeline.arrRef spec5 1) (ix2 (0 : Fin 1) k) = B (ix1 k)) :
    (dat5 V c).arrAt 3 cfg5.N = G V B c :=
  (dat5 V c).arrAt_eq_of_cover 3 (G V B c) (fun t _ => flushed_eq V B c hB t) cover

end Cert.KernelIdeal.Region5
-- ==== Proof.PayHead.lean ====
/-
  The last region's stored value at one entry.

  The region multiplies four row blocks by the four 128-row blocks of the dense layer's weight matrix, adds the four
  products in the order ((x₀·W₀ + x₁·W₁) + relu(x₂ + c)·W₂) + relu(x₃ + c)·W₃, adds the dense layer's bias, applies
  relu, multiplies by the output weights, adds the output bias and applies the logistic. Over the extended reals a
  change of float format is the identity, so every elementwise operation reads through at an entry, each product into
  a zero accumulator is the sum over the contracted coordinate, and the stored value at (p, 0) is the one-row formula
  `Cert.Rows.headRow` of row p of the four blocks.
-/
import proofs.«106528_j111669149893_1_alg».proof.Proof.Gen.KernelIdeal.Skeleton
import proofs.«106528_j111669149893_1_alg».proof.Proof.Rows
import proofs.«106528_j111669149893_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.Pay

open Idealize.ShloMosaic Idealize.ShloMosaic.ValueIdx

section Kernel

open Cert.KernelIdeal Cert.KernelIdeal.Gen

namespace KHead

/-- The [2000,128] × [128,128] product's dimension numbers are those of a plain rows-by-columns product. -/
theorem plain_hidden : Cert.LibDot.Plain dot_S2000x128_S128x128_S2000x128_1_0_0_1_n_n where
  hrank := rfl
  hs := rfl
  hl0 := fun _ _ => rfl
  hl1 := fun j k => DotDims.lhsIdx_val_of_single (d := dot_S2000x128_S128x128_S2000x128_1_0_0_1_n_n) (cl := 1) rfl j k
  hr0 := fun j k => DotDims.rhsIdx_val_of_single (d := dot_S2000x128_S128x128_S2000x128_1_0_0_1_n_n) (cr := 0) rfl j k
  hr1 := fun _ _ => rfl

/-- The [2000,128] × [128,1] product's dimension numbers are those of a plain rows-by-columns product. -/
theorem plain_out : Cert.LibDot.Plain dot_S2000x128_S128x1_S2000x1_1_0_0_1_n_n where
  hrank := rfl
  hs := rfl
  hl0 := fun _ _ => rfl
  hl1 := fun j k => DotDims.lhsIdx_val_of_single (d := dot_S2000x128_S128x1_S2000x1_1_0_0_1_n_n) (cl := 1) rfl j k
  hr0 := fun j k => DotDims.rhsIdx_val_of_single (d := dot_S2000x128_S128x1_S2000x1_1_0_0_1_n_n) (cr := 0) rfl j k
  hr1 := fun _ _ => rfl

/-- An aggregated block with the bias row added and relu applied, at an entry. -/
theorem reluBias_apply (x : Vec Ideal S2000x128 .f32) (b : Vec Ideal S1x128 .f32) (p : Fin 2000) (l : Fin 128) :
    k6_pay2 (F := Ideal) x b (ix2 p l) = Cert.Rows.relu (x (ix2 p l) + b (ix2 (0 : Fin 1) l)) := by
  unfold k6_pay2
  show max (shapeCast S2000x128 x shapeCasts_S2000x128_S2000x128 (ix2 p l)
      + broadcastTo S2000x128 (shapeCast S1x128 b shapeCasts_S1x128_S1x128) broadcasts_S1x128_S2000x128 (ix2 p l))
    (Ideal.ofBits .f32 0x00000000#32) = _
  rw [shapeCast_self, shapeCast_self, broadcastTo_1b_ab_apply, Ideal.ofBits_zero_f32]
  rfl

/-- The other aggregated block likewise. -/
theorem reluBias_apply' (x : Vec Ideal S2000x128 .f32) (b : Vec Ideal S1x128 .f32) (p : Fin 2000) (l : Fin 128) :
    k6_pay3 (F := Ideal) x b (ix2 p l) = Cert.Rows.relu (x (ix2 p l) + b (ix2 (0 : Fin 1) l)) := by
  unfold k6_pay3
  show max (shapeCast S2000x128 x shapeCasts_S2000x128_S2000x128 (ix2 p l)
      + broadcastTo S2000x128 (shapeCast S1x128 b shapeCasts_S1x128_S1x128) broadcasts_S1x128_S2000x128 (ix2 p l))
    (Ideal.ofBits .f32 0x00000000#32) = _
  rw [shapeCast_self, shapeCast_self, broadcastTo_1b_ab_apply, Ideal.ofBits_zero_f32]
  rfl

/-- A perceptron block passed on with only a change of float format is itself. -/
theorem row4_apply (x : Vec Ideal S2000x128 .f32) (i : S2000x128.Idx) : k6_pay4 (F := Ideal) x i = x i := by
  unfold k6_pay4
  show shapeCast S2000x128 x shapeCasts_S2000x128_S2000x128 i = _
  rw [shapeCast_self]
theorem row5_apply (x : Vec Ideal S2000x128 .f32) (i : S2000x128.Idx) : k6_pay5 (F := Ideal) x i = x i := by
  unfold k6_pay5
  show shapeCast S2000x128 x shapeCasts_S2000x128_S2000x128 i = _
  rw [shapeCast_self]
/-- A weight block passed on with only a change of float format is itself. -/
theorem w6_apply (x : Vec Ideal S128x128 .f32) (i : S128x128.Idx) : k6_pay6 (F := Ideal) x i = x i := by
  unfold k6_pay6
  show shapeCast S128x128 x shapeCasts_S128x128_S128x128 i = _
  rw [shapeCast_self]
theorem w7_apply (x : Vec Ideal S128x128 .f32) (i : S128x128.Idx) : k6_pay7 (F := Ideal) x i = x i := by
  unfold k6_pay7
  show shapeCast S128x128 x shapeCasts_S128x128_S128x128 i = _
  rw [shapeCast_self]
theorem w8_apply (x : Vec Ideal S128x128 .f32) (i : S128x128.Idx) : k6_pay8 (F := Ideal) x i = x i := by
  unfold k6_pay8
  show shapeCast S128x128 x shapeCasts_S128x128_S128x128 i = _
  rw [shapeCast_self]
theorem w9_apply (x : Vec Ideal S128x128 .f32) (i : S128x128.Idx) : k6_pay9 (F := Ideal) x i = x i := by
  unfold k6_pay9
  show shapeCast S128x128 x shapeCasts_S128x128_S128x128 i = _
  rw [shapeCast_self]

/-- The region's body over any four row blocks and four weight blocks, at an entry: the four products added in order,
    the bias row, relu, the output weights, the output bias, the logistic. -/
theorem body_apply (a2 a3 a0 a1 : FVec Ideal S2000x128 .bf16) (w0 w1 w2 w3 : FVec Ideal S128x128 .bf16)
    (b : Vec Ideal S1x128 .f32) (wo : Vec Ideal S128x1 .f32) (bo : Vec Ideal S1x1 .f32) (p : Fin 2000) (z : Fin 1) :
    k6_pay1 (F := Ideal) a2 a3 a0 a1 w0 w1 w2 w3 (constant S2000x128 .f32 0x00000000#32) b wo bo (ix2 p z)
      = Cert.Rows.headRow (fun l => a0 (ix2 p l)) (fun l => a1 (ix2 p l)) (fun l => a2 (ix2 p l)) (fun l => a3 (ix2 p l))
          (fun l k => w0 (ix2 l k)) (fun l k => w1 (ix2 l k)) (fun l k => w2 (ix2 l k)) (fun l k => w3 (ix2 l k))
          (fun k => b (ix2 (0 : Fin 1) k)) (fun k => wo (ix2 k (0 : Fin 1))) (bo (ix2 (0 : Fin 1) (0 : Fin 1))) := by
  obtain rfl : z = 0 := Subsingleton.elim _ _
  unfold k6_pay1 Cert.Rows.headRow
  show Ideal.logistic (matmul (F := Ideal) dot_S2000x128_S128x1_S2000x1_1_0_0_1_n_n none _ _ (constant S2000x1 .f32 0x00000000#32) (ix2 p (0 : Fin 1))
      + broadcastTo S2000x1 (shapeCast S1x1 bo shapeCasts_S1x1_S1x1) broadcasts_S1x1_S2000x1 (ix2 p (0 : Fin 1))) = _
  refine congrArg Ideal.logistic (congr (congrArg HAdd.hAdd ?_) ?_)
  · refine (Cert.LibDot.matmul_ix2 plain_out none _ _ p 0).trans (Finset.sum_congr rfl fun k _ => ?_)
    refine congrArg (· * wo (ix2 k (0 : Fin 1))) ?_
    show max (((((matmul dot_S2000x128_S128x128_S2000x128_1_0_0_1_n_n none a0 w0 (constant S2000x128 .f32 0x00000000#32) (ix2 p k)
        + matmul dot_S2000x128_S128x128_S2000x128_1_0_0_1_n_n none a1 w1 (constant S2000x128 .f32 0x00000000#32) (ix2 p k))
        + matmul dot_S2000x128_S128x128_S2000x128_1_0_0_1_n_n none a2 w2 (constant S2000x128 .f32 0x00000000#32) (ix2 p k))
        + matmul dot_S2000x128_S128x128_S2000x128_1_0_0_1_n_n none a3 w3 (constant S2000x128 .f32 0x00000000#32) (ix2 p k))
        + broadcastTo S2000x128 (shapeCast S1x128 b shapeCasts_S1x128_S1x128) broadcasts_S1x128_S2000x128 (ix2 p k)))
      (Ideal.ofBits .f32 0x00000000#32) = _
    rw [Cert.LibDot.matmul_ix2 plain_hidden none a0 w0 p k, Cert.LibDot.matmul_ix2 plain_hidden none a1 w1 p k,
      Cert.LibDot.matmul_ix2 plain_hidden none a2 w2 p k, Cert.LibDot.matmul_ix2 plain_hidden none a3 w3 p k,
      shapeCast_self, broadcastTo_1b_ab_apply, Ideal.ofBits_zero_f32]
    rfl
  · rw [shapeCast_self, broadcastTo_1b_ab_apply]

end KHead

/-- **The region's stored value at (p, 0)**: the one-row head formula of row p of the two perceptron blocks and the two
    aggregated blocks (bias added, relu applied), through the four weight blocks. -/
theorem head_kernel (x0 x1 x2 x3 : Vec Ideal S2000x128 .f32) (x4 : Vec Ideal S1x128 .f32) (x5 x6 x7 x8 : Vec Ideal S128x128 .f32)
    (x9 : Vec Ideal S1x128 .f32) (x10 : Vec Ideal S128x1 .f32) (x11 : Vec Ideal S1x1 .f32) (p : Fin 2000) (z : Fin 1) :
    k6_pay1 (F := Ideal) (k6_pay2 x2 x4) (k6_pay3 x3 x4) (k6_pay4 x0) (k6_pay5 x1) (k6_pay6 x5) (k6_pay7 x6) (k6_pay8 x7) (k6_pay9 x8)
        (constant S2000x128 .f32 0x00000000#32) x9 x10 x11 (ix2 p z)
      = Cert.Rows.headRow (fun l => x0 (ix2 p l)) (fun l => x1 (ix2 p l))
          (fun l => Cert.Rows.relu (x2 (ix2 p l) + x4 (ix2 (0 : Fin 1) l))) (fun l => Cert.Rows.relu (x3 (ix2 p l) + x4 (ix2 (0 : Fin 1) l)))
          (fun l k => x5 (ix2 l k)) (fun l k => x6 (ix2 l k)) (fun l k => x7 (ix2 l k)) (fun l k => x8 (ix2 l k))
          (fun k => x9 (ix2 (0 : Fin 1) k)) (fun k => x10 (ix2 k (0 : Fin 1))) (x11 (ix2 (0 : Fin 1) (0 : Fin 1))) := by
  refine (KHead.body_apply (k6_pay2 x2 x4) (k6_pay3 x3 x4) (k6_pay4 x0) (k6_pay5 x1) (k6_pay6 x5) (k6_pay7 x6) (k6_pay8 x7) (k6_pay9 x8)
    x9 x10 x11 p z).trans ?_
  simp only [KHead.reluBias_apply, KHead.reluBias_apply', KHead.row4_apply, KHead.row5_apply, KHead.w6_apply, KHead.w7_apply,
    KHead.w8_apply, KHead.w9_apply]

end Kernel

end Cert.Pay
-- ==== Proof.SpecHead.lean ====
/-
  The specification's head at one entry.

  The head lays the four feature blocks side by side, multiplies by the 512-row weight matrix, adds a bias, applies
  relu, multiplies by the output weights, adds the output bias and takes 1 / (1 + exp (−z)). At entry (r, 0) the sum
  over the 512 concatenated features is the sum of its four stretches of 128 (`Cert.Rows.sum_four_blocks`), and in
  stretch t the concatenation reads block t; the two constants are the extended real 1, and 1 / (1 + exp (−z)) is the
  logistic by definition. So the head at (r, 0) is the one-row formula `Cert.Rows.headRow` of row r of the four blocks,
  with the weight matrix read in its four stretches of 128 rows.
-/
import proofs.«106528_j111669149893_1_alg».proof.Proof.Gen.ReferenceIdeal
import proofs.«106528_j111669149893_1_alg».proof.Proof.Spec
import proofs.«106528_j111669149893_1_alg».proof.Proof.Rows
import proofs.«106528_j111669149893_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.Pay

open Idealize.ShloMosaic Idealize.ShloMosaic.ValueIdx

section Spec

open Cert.ReferenceIdeal Cert.ReferenceIdeal.Gen

namespace SpecHead

/-- The word of the float 1.0 is the extended real 1. -/
theorem one_f32 : Ideal.ofBits .f32 0x3F800000#32 = 1 := by
  simp [Ideal.ofBits, Ideal.ieee, -EReal.coe_mul]; norm_num

/-- The [50000,512] × [512,128] product's dimension numbers are those of a plain rows-by-columns product. -/
theorem plain_dense : Cert.LibDot.Plain dot_S50000x512_S512x128_S50000x128_1_0_0_1_n_n where
  hrank := rfl
  hs := rfl
  hl0 := fun _ _ => rfl
  hl1 := fun j k => DotDims.lhsIdx_val_of_single (d := dot_S50000x512_S512x128_S50000x128_1_0_0_1_n_n) (cl := 1) rfl j k
  hr0 := fun j k => DotDims.rhsIdx_val_of_single (d := dot_S50000x512_S512x128_S50000x128_1_0_0_1_n_n) (cr := 0) rfl j k
  hr1 := fun _ _ => rfl

/-- The [50000,128] × [128,1] product's dimension numbers are those of a plain rows-by-columns product. -/
theorem plain_unit : Cert.LibDot.Plain dot_S50000x128_S128x1_S50000x1_1_0_0_1_n_n where
  hrank := rfl
  hs := rfl
  hl0 := fun _ _ => rfl
  hl1 := fun j k => DotDims.lhsIdx_val_of_single (d := dot_S50000x128_S128x1_S50000x1_1_0_0_1_n_n) (cl := 1) rfl j k
  hr0 := fun j k => DotDims.rhsIdx_val_of_single (d := dot_S50000x128_S128x1_S50000x1_1_0_0_1_n_n) (cr := 0) rfl j k
  hr1 := fun _ _ => rfl

/-- A bias vector laid along every row, at an entry. -/
theorem bias_apply (b : Cert.Spec.Arr Ideal S128 .f32) (r : Fin 50000) (k : Fin 128) :
    Cert.Spec.bias (F := Ideal) b (ix2 r k) = b (ix1 k) := by
  unfold Cert.Spec.bias
  refine (broadcastInDim_apply _ _ _ (ix2 r k) (ix2 (0 : Fin 1) k) fun a => ?_).trans ?_
  · match a with
    | ⟨0, _⟩ => rfl
    | ⟨1, _⟩ => rfl
  · refine broadcastInDim_apply _ _ _ (ix2 (0 : Fin 1) k) (ix1 k) fun a => ?_
    match a with
    | ⟨0, _⟩ => rfl

/-- The specification's relu at an entry. -/
theorem relu_apply (x : Cert.Spec.Arr Ideal S50000x128 .f32) (i : S50000x128.Idx) :
    Cert.Spec.relu (F := Ideal) x i = Cert.Rows.relu (x i) := by
  unfold Cert.Spec.relu Cert.Spec.zeros
  show max (x i) (broadcastInDim S50000x128 ![] _ (constant (F := Ideal) S_ .f32 0x00000000#32) i) = _
  rw [broadcastInDim_apply _ _ _ i ix0 (fun a => a.elim0)]
  show max (x i) (Ideal.ofBits .f32 0x00000000#32) = _
  rw [Ideal.ofBits_zero_f32]
  rfl

/-- The constant 1 laid over the result's shape, at an entry. -/
theorem ones_apply (i : S50000x1.Idx) :
    broadcastInDim S50000x1 ![] bcast_S_S50000x1 (constant (F := Ideal) S_ .f32 0x3F800000#32) i = 1 := by
  rw [broadcastInDim_apply _ _ _ i ix0 (fun a => a.elim0)]
  exact one_f32

/-- The output bias laid along every row, at an entry. -/
theorem obias_apply (b : Cert.Spec.Arr Ideal S1 .f32) (r : Fin 50000) :
    broadcastInDim S50000x1 ![0, 1] bcast_S1x1_S50000x1_0_1 (broadcastInDim S1x1 ![1] bcast_S1_S1x1_1 b) (ix2 r (0 : Fin 1))
      = b (ix1 (0 : Fin 1)) := by
  refine (broadcastInDim_apply _ _ _ (ix2 r (0 : Fin 1)) (ix2 (0 : Fin 1) (0 : Fin 1)) fun a => ?_).trans ?_
  · match a with
    | ⟨0, _⟩ => rfl
    | ⟨1, _⟩ => rfl
  · refine broadcastInDim_apply _ _ _ (ix2 (0 : Fin 1) (0 : Fin 1)) (ix1 (0 : Fin 1)) fun a => ?_
    match a with
    | ⟨0, _⟩ => rfl

section Concat
variable (ma mb ga gb : Cert.Spec.Arr Ideal S50000x128 .f32) (r : Fin 50000) (l : Fin 128)

/-- The four feature blocks side by side, read in the first stretch of 128 columns: the first block. -/
theorem concat0 :
    concatenate S50000x512 1 [⟨S50000x128, ma⟩, ⟨S50000x128, mb⟩, ⟨S50000x128, ga⟩, ⟨S50000x128, gb⟩]
        concatenates_S50000x128_S50000x128_S50000x128_S50000x128_S50000x512_d1 (ix2 r (⟨l.val, by omega⟩ : Fin 512)) = ma (ix2 r l) :=
  concatenate_apply_piece (t := S50000x512) 1 _ _ _ 0 (by show 0 < 4; omega) S50000x128 ma rfl rfl 0 rfl (ix2 r l)
    (fun b hb => by match b with | ⟨0, _⟩ => rfl | ⟨1, _⟩ => exact absurd rfl hb) (Nat.zero_add _)
/-- In the second stretch: the second block. -/
theorem concat1 :
    concatenate S50000x512 1 [⟨S50000x128, ma⟩, ⟨S50000x128, mb⟩, ⟨S50000x128, ga⟩, ⟨S50000x128, gb⟩]
        concatenates_S50000x128_S50000x128_S50000x128_S50000x128_S50000x512_d1 (ix2 r (⟨128 + l.val, by omega⟩ : Fin 512)) = mb (ix2 r l) :=
  concatenate_apply_piece (t := S50000x512) 1 _ _ _ 1 (by show 1 < 4; omega) S50000x128 mb rfl rfl 128 rfl (ix2 r l)
    (fun b hb => by match b with | ⟨0, _⟩ => rfl | ⟨1, _⟩ => exact absurd rfl hb) rfl
/-- In the third stretch: the third block. -/
theorem concat2 :
    concatenate S50000x512 1 [⟨S50000x128, ma⟩, ⟨S50000x128, mb⟩, ⟨S50000x128, ga⟩, ⟨S50000x128, gb⟩]
        concatenates_S50000x128_S50000x128_S50000x128_S50000x128_S50000x512_d1 (ix2 r (⟨256 + l.val, by omega⟩ : Fin 512)) = ga (ix2 r l) :=
  concatenate_apply_piece (t := S50000x512) 1 _ _ _ 2 (by show 2 < 4; omega) S50000x128 ga rfl rfl 256 rfl (ix2 r l)
    (fun b hb => by match b with | ⟨0, _⟩ => rfl | ⟨1, _⟩ => exact absurd rfl hb) rfl
/-- In the fourth stretch: the fourth block. -/
theorem concat3 :
    concatenate S50000x512 1 [⟨S50000x128, ma⟩, ⟨S50000x128, mb⟩, ⟨S50000x128, ga⟩, ⟨S50000x128, gb⟩]
        concatenates_S50000x128_S50000x128_S50000x128_S50000x128_S50000x512_d1 (ix2 r (⟨384 + l.val, by omega⟩ : Fin 512)) = gb (ix2 r l) :=
  concatenate_apply_piece (t := S50000x512) 1 _ _ _ 3 (by show 3 < 4; omega) S50000x128 gb rfl rfl 384 rfl (ix2 r l)
    (fun b hb => by match b with | ⟨0, _⟩ => rfl | ⟨1, _⟩ => exact absurd rfl hb) rfl

end Concat

/-- The dense layer over the four blocks side by side, with its bias and relu, at an entry: the sum over the 512
    concatenated features split into the four stretches of 128. -/
theorem hidden_apply (ma mb ga gb : Cert.Spec.Arr Ideal S50000x128 .f32) (wc : Cert.Spec.Arr Ideal S512x128 .f32)
    (bc : Cert.Spec.Arr Ideal S128 .f32) (r : Fin 50000) (k : Fin 128) :
    Cert.Spec.relu (F := Ideal) (addf (Host.dotGeneral (φ₁ := .f32) (φ₂ := .f32) dot_S50000x512_S512x128_S50000x128_1_0_0_1_n_n none
        (concatenate S50000x512 1 [⟨S50000x128, ma⟩, ⟨S50000x128, mb⟩, ⟨S50000x128, ga⟩, ⟨S50000x128, gb⟩]
          concatenates_S50000x128_S50000x128_S50000x128_S50000x128_S50000x512_d1) wc) (Cert.Spec.bias bc)) (ix2 r k)
      = Cert.Rows.relu (((((∑ l : Fin 128, ma (ix2 r l) * wc (ix2 (⟨l.val, by omega⟩ : Fin 512) k))
          + (∑ l : Fin 128, mb (ix2 r l) * wc (ix2 (⟨128 + l.val, by omega⟩ : Fin 512) k)))
          + (∑ l : Fin 128, ga (ix2 r l) * wc (ix2 (⟨256 + l.val, by omega⟩ : Fin 512) k)))
          + (∑ l : Fin 128, gb (ix2 r l) * wc (ix2 (⟨384 + l.val, by omega⟩ : Fin 512) k))) + bc (ix1 k)) := by
  rw [relu_apply]
  refine congrArg Cert.Rows.relu ?_
  show Host.dotGeneral (F := Ideal) (φ₁ := .f32) (φ₂ := .f32) dot_S50000x512_S512x128_S50000x128_1_0_0_1_n_n none _ wc (ix2 r k)
    + Cert.Spec.bias (F := Ideal) bc (ix2 r k) = _
  rw [Cert.LibDot.dotGeneral_ix2 (φ₁ := .f32) (φ₂ := .f32) plain_dense none _ wc r k, bias_apply, Cert.Rows.sum_four_blocks]
  refine congrArg (· + bc (ix1 k)) (congr (congrArg HAdd.hAdd (congr (congrArg HAdd.hAdd (congr (congrArg HAdd.hAdd ?_) ?_)) ?_)) ?_)
  · exact Finset.sum_congr rfl fun l _ => congrArg (· * wc (ix2 (⟨l.val, by omega⟩ : Fin 512) k)) (concat0 ma mb ga gb r l)
  · exact Finset.sum_congr rfl fun l _ => congrArg (· * wc (ix2 (⟨128 + l.val, by omega⟩ : Fin 512) k)) (concat1 ma mb ga gb r l)
  · exact Finset.sum_congr rfl fun l _ => congrArg (· * wc (ix2 (⟨256 + l.val, by omega⟩ : Fin 512) k)) (concat2 ma mb ga gb r l)
  · exact Finset.sum_congr rfl fun l _ => congrArg (· * wc (ix2 (⟨384 + l.val, by omega⟩ : Fin 512) k)) (concat3 ma mb ga gb r l)

end SpecHead

/-- **The specification's head at (r, 0)**: the one-row head formula of row r of the four feature blocks, the dense
    layer's weight matrix read in its four stretches of 128 rows. -/
theorem head_apply (ma mb ga gb : Cert.Spec.Arr Ideal S50000x128 .f32) (wc : Cert.Spec.Arr Ideal S512x128 .f32)
    (bc : Cert.Spec.Arr Ideal S128 .f32) (wo : Cert.Spec.Arr Ideal S128x1 .f32) (bo : Cert.Spec.Arr Ideal S1 .f32)
    (r : Fin 50000) (z : Fin 1) :
    Cert.Spec.head (F := Ideal) ma mb ga gb wc bc wo bo (ix2 r z)
      = Cert.Rows.headRow (fun l => ma (ix2 r l)) (fun l => mb (ix2 r l)) (fun l => ga (ix2 r l)) (fun l => gb (ix2 r l))
          (fun l k => wc (ix2 (⟨l.val, by omega⟩ : Fin 512) k)) (fun l k => wc (ix2 (⟨128 + l.val, by omega⟩ : Fin 512) k))
          (fun l k => wc (ix2 (⟨256 + l.val, by omega⟩ : Fin 512) k)) (fun l k => wc (ix2 (⟨384 + l.val, by omega⟩ : Fin 512) k))
          (fun k => bc (ix1 k)) (fun k => wo (ix2 k (0 : Fin 1))) (bo (ix1 (0 : Fin 1))) := by
  obtain rfl : z = 0 := Subsingleton.elim _ _
  unfold Cert.Spec.head Cert.Rows.headRow Ideal.logistic
  show Ideal.div (broadcastInDim S50000x1 ![] bcast_S_S50000x1 (constant (F := Ideal) S_ .f32 0x3F800000#32) (ix2 r (0 : Fin 1)))
      (broadcastInDim S50000x1 ![] bcast_S_S50000x1 (constant (F := Ideal) S_ .f32 0x3F800000#32) (ix2 r (0 : Fin 1))
        + Ideal.exp (-(Host.dotGeneral (F := Ideal) (φ₁ := .f32) (φ₂ := .f32) dot_S50000x128_S128x1_S50000x1_1_0_0_1_n_n none _ wo (ix2 r (0 : Fin 1))
          + broadcastInDim S50000x1 ![0, 1] bcast_S1x1_S50000x1_0_1 (broadcastInDim S1x1 ![1] bcast_S1_S1x1_1 bo) (ix2 r (0 : Fin 1))))) = _
  rw [SpecHead.ones_apply, SpecHead.obias_apply, Cert.LibDot.dotGeneral_ix2 (φ₁ := .f32) (φ₂ := .f32) SpecHead.plain_unit none _ wo r 0]
  simp only [SpecHead.hidden_apply]

end Spec

end Cert.Pay
-- ==== Proof.Region6.lean ====
/-
  What the last region leaves in its result array, whatever the buffers hold when it is entered — provided its small
  blocks hold the parameters they are cut from: the two [1, 128] bias rows a bias vector each (C₂ of the second graph
  layer, Bc of the dense layer), the four [128, 128] weight blocks the four stretches of 128 rows of the dense layer's
  [512, 128] weight matrix Wc, the [1, 1] block the output bias Bo.

  The region has 25 grid points; point t reads rows 2000·t … 2000·t + 1999 of the two perceptron outputs and of the two
  aggregated feature arrays, and every small block whole, and writes back rows 2000·t … 2000·t + 1999 of the one-column
  result. Entry (p, 0) of what it writes is the head of row 2000·t + p: the four feature rows (the two aggregated ones
  through relu (· + C₂) first) through their four weight blocks, added, plus Bc, relu, the output weights, plus Bo, the
  logistic — entry (2000·t + p, 0) of the specification's `head`, whose dense layer over the four blocks side by side
  is the same four products. The 25 row blocks cover the result array.
-/
import proofs.«106528_j111669149893_1_alg».proof.Proof.Gen.KernelIdeal.Frame
import proofs.«106528_j111669149893_1_alg».proof.Proof.PayHead
import proofs.«106528_j111669149893_1_alg».proof.Proof.SpecHead
import proofs.«106528_j111669149893_1_alg».proof.Proof.PayMlp
import Idealize.ShloMosaic.Lib.Pipeline.Value

set_option maxRecDepth 16384

noncomputable section

namespace Cert.KernelIdeal.Region6

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_rows0 : ∀ t : Fin cfg6.N, win6_0.index t (0 : Fin 2) = t.val ∧ win6_0.index t (1 : Fin 2) = 0 :=
  (by decide +kernel : ∀ t : Fin grid6.N, _)
theorem idx_rows1 : ∀ t : Fin cfg6.N, win6_1.index t (0 : Fin 2) = t.val ∧ win6_1.index t (1 : Fin 2) = 0 :=
  (by decide +kernel : ∀ t : Fin grid6.N, _)
theorem idx_rows2 : ∀ t : Fin cfg6.N, win6_2.index t (0 : Fin 2) = t.val ∧ win6_2.index t (1 : Fin 2) = 0 :=
  (by decide +kernel : ∀ t : Fin grid6.N, _)
theorem idx_rows3 : ∀ t : Fin cfg6.N, win6_3.index t (0 : Fin 2) = t.val ∧ win6_3.index t (1 : Fin 2) = 0 :=
  (by decide +kernel : ∀ t : Fin grid6.N, _)
theorem idx_whole4 : ∀ t : Fin cfg6.N, win6_4.index t (0 : Fin 2) = 0 ∧ win6_4.index t (1 : Fin 2) = 0 :=
  (by decide +kernel : ∀ t : Fin grid6.N, _)
theorem idx_whole5 : ∀ t : Fin cfg6.N, win6_5.index t (0 : Fin 2) = 0 ∧ win6_5.index t (1 : Fin 2) = 0 :=
  (by decide +kernel : ∀ t : Fin grid6.N, _)
theorem idx_whole6 : ∀ t : Fin cfg6.N, win6_6.index t (0 : Fin 2) = 0 ∧ win6_6.index t (1 : Fin 2) = 0 :=
  (by decide +kernel : ∀ t : Fin grid6.N, _)
theorem idx_whole7 : ∀ t : Fin cfg6.N, win6_7.index t (0 : Fin 2) = 0 ∧ win6_7.index t (1 : Fin 2) = 0 :=
  (by decide +kernel : ∀ t : Fin grid6.N, _)
theorem idx_whole8 : ∀ t : Fin cfg6.N, win6_8.index t (0 : Fin 2) = 0 ∧ win6_8.index t (1 : Fin 2) = 0 :=
  (by decide +kernel : ∀ t : Fin grid6.N, _)
theorem idx_whole9 : ∀ t : Fin cfg6.N, win6_9.index t (0 : Fin 2) = 0 ∧ win6_9.index t (1 : Fin 2) = 0 :=
  (by decide +kernel : ∀ t : Fin grid6.N, _)
theorem idx_whole10 : ∀ t : Fin cfg6.N, win6_10.index t (0 : Fin 2) = 0 ∧ win6_10.index t (1 : Fin 2) = 0 :=
  (by decide +kernel : ∀ t : Fin grid6.N, _)
theorem idx_whole11 : ∀ t : Fin cfg6.N, win6_11.index t (0 : Fin 2) = 0 ∧ win6_11.index t (1 : Fin 2) = 0 :=
  (by decide +kernel : ∀ t : Fin grid6.N, _)
theorem idx_rows12 : ∀ t : Fin cfg6.N, win6_12.index t (0 : Fin 2) = t.val ∧ win6_12.index t (1 : Fin 2) = 0 :=
  (by decide +kernel : ∀ t : Fin grid6.N, _)

/-- Window 0's block at point `t` is the rows 2000·t … of its array. -/
theorem read0 (c : Dev nD) (t : Fin cfg6.N) (p : Fin 2000) (l : Fin 128) (hrow : t.val * 2000 + p.val < 50000) :
    iblk6 V c 0 t (ix2 p l) = V c (Pipeline.arrRef spec6 0) (ix2 (⟨t.val * 2000 + p.val, hrow⟩ : Fin 50000) l) := by
  obtain ⟨e0, e1⟩ := idx_rows0 t
  show V c (Pipeline.arrRef spec6 0) (((cfg6.win 0).blk t).view.emb (ix2 p l)) = _
  refine congrArg _ ?_
  funext a; apply Fin.ext
  match a with
  | ⟨0, _⟩ => show win6_0.index t (0 : Fin 2) * 2000 + 1 * p.val = t.val * 2000 + p.val; omega
  | ⟨1, _⟩ => show win6_0.index t (1 : Fin 2) * 128 + 1 * l.val = l.val; omega

/-- Window 1's block at point `t` is the rows 2000·t … of its array. -/
theorem read1 (c : Dev nD) (t : Fin cfg6.N) (p : Fin 2000) (l : Fin 128) (hrow : t.val * 2000 + p.val < 50000) :
    iblk6 V c 1 t (ix2 p l) = V c (Pipeline.arrRef spec6 1) (ix2 (⟨t.val * 2000 + p.val, hrow⟩ : Fin 50000) l) := by
  obtain ⟨e0, e1⟩ := idx_rows1 t
  show V c (Pipeline.arrRef spec6 1) (((cfg6.win 1).blk t).view.emb (ix2 p l)) = _
  refine congrArg _ ?_
  funext a; apply Fin.ext
  match a with
  | ⟨0, _⟩ => show win6_1.index t (0 : Fin 2) * 2000 + 1 * p.val = t.val * 2000 + p.val; omega
  | ⟨1, _⟩ => show win6_1.index t (1 : Fin 2) * 128 + 1 * l.val = l.val; omega

/-- Window 2's block at point `t` is the rows 2000·t … of its array. -/
theorem read2 (c : Dev nD) (t : Fin cfg6.N) (p : Fin 2000) (l : Fin 128) (hrow : t.val * 2000 + p.val < 50000) :
    iblk6 V c 2 t (ix2 p l) = V c (Pipeline.arrRef spec6 2) (ix2 (⟨t.val * 2000 + p.val, hrow⟩ : Fin 50000) l) := by
  obtain ⟨e0, e1⟩ := idx_rows2 t
  show V c (Pipeline.arrRef spec6 2) (((cfg6.win 2).blk t).view.emb (ix2 p l)) = _
  refine congrArg _ ?_
  funext a; apply Fin.ext
  match a with
  | ⟨0, _⟩ => show win6_2.index t (0 : Fin 2) * 2000 + 1 * p.val = t.val * 2000 + p.val; omega
  | ⟨1, _⟩ => show win6_2.index t (1 : Fin 2) * 128 + 1 * l.val = l.val; omega

/-- Window 3's block at point `t` is the rows 2000·t … of its array. -/
theorem read3 (c : Dev nD) (t : Fin cfg6.N) (p : Fin 2000) (l : Fin 128) (hrow : t.val * 2000 + p.val < 50000) :
    iblk6 V c 3 t (ix2 p l) = V c (Pipeline.arrRef spec6 3) (ix2 (⟨t.val * 2000 + p.val, hrow⟩ : Fin 50000) l) := by
  obtain ⟨e0, e1⟩ := idx_rows3 t
  show V c (Pipeline.arrRef spec6 3) (((cfg6.win 3).blk t).view.emb (ix2 p l)) = _
  refine congrArg _ ?_
  funext a; apply Fin.ext
  match a with
  | ⟨0, _⟩ => show win6_3.index t (0 : Fin 2) * 2000 + 1 * p.val = t.val * 2000 + p.val; omega
  | ⟨1, _⟩ => show win6_3.index t (1 : Fin 2) * 128 + 1 * l.val = l.val; omega

/-- Window 4's block at every point is its whole array. -/
theorem read4 (c : Dev nD) (t : Fin cfg6.N) (a : Fin 1) (b : Fin 128) :
    iblk6 V c 4 t (ix2 a b) = V c (Pipeline.arrRef spec6 4) (ix2 a b) := by
  obtain ⟨e0, e1⟩ := idx_whole4 t
  show V c (Pipeline.arrRef spec6 4) (((cfg6.win 4).blk t).view.emb (ix2 a b)) = _
  refine congrArg _ ?_
  funext d; apply Fin.ext
  match d with
  | ⟨0, _⟩ => show win6_4.index t (0 : Fin 2) * 1 + 1 * a.val = a.val; omega
  | ⟨1, _⟩ => show win6_4.index t (1 : Fin 2) * 128 + 1 * b.val = b.val; omega

/-- Window 5's block at every point is its whole array. -/
theorem read5 (c : Dev nD) (t : Fin cfg6.N) (a : Fin 128) (b : Fin 128) :
    iblk6 V c 5 t (ix2 a b) = V c (Pipeline.arrRef spec6 5) (ix2 a b) := by
  obtain ⟨e0, e1⟩ := idx_whole5 t
  show V c (Pipeline.arrRef spec6 5) (((cfg6.win 5).blk t).view.emb (ix2 a b)) = _
  refine congrArg _ ?_
  funext d; apply Fin.ext
  match d with
  | ⟨0, _⟩ => show win6_5.index t (0 : Fin 2) * 128 + 1 * a.val = a.val; omega
  | ⟨1, _⟩ => show win6_5.index t (1 : Fin 2) * 128 + 1 * b.val = b.val; omega

/-- Window 6's block at every point is its whole array. -/
theorem read6 (c : Dev nD) (t : Fin cfg6.N) (a : Fin 128) (b : Fin 128) :
    iblk6 V c 6 t (ix2 a b) = V c (Pipeline.arrRef spec6 6) (ix2 a b) := by
  obtain ⟨e0, e1⟩ := idx_whole6 t
  show V c (Pipeline.arrRef spec6 6) (((cfg6.win 6).blk t).view.emb (ix2 a b)) = _
  refine congrArg _ ?_
  funext d; apply Fin.ext
  match d with
  | ⟨0, _⟩ => show win6_6.index t (0 : Fin 2) * 128 + 1 * a.val = a.val; omega
  | ⟨1, _⟩ => show win6_6.index t (1 : Fin 2) * 128 + 1 * b.val = b.val; omega

/-- Window 7's block at every point is its whole array. -/
theorem read7 (c : Dev nD) (t : Fin cfg6.N) (a : Fin 128) (b : Fin 128) :
    iblk6 V c 7 t (ix2 a b) = V c (Pipeline.arrRef spec6 7) (ix2 a b) := by
  obtain ⟨e0, e1⟩ := idx_whole7 t
  show V c (Pipeline.arrRef spec6 7) (((cfg6.win 7).blk t).view.emb (ix2 a b)) = _
  refine congrArg _ ?_
  funext d; apply Fin.ext
  match d with
  | ⟨0, _⟩ => show win6_7.index t (0 : Fin 2) * 128 + 1 * a.val = a.val; omega
  | ⟨1, _⟩ => show win6_7.index t (1 : Fin 2) * 128 + 1 * b.val = b.val; omega

/-- Window 8's block at every point is its whole array. -/
theorem read8 (c : Dev nD) (t : Fin cfg6.N) (a : Fin 128) (b : Fin 128) :
    iblk6 V c 8 t (ix2 a b) = V c (Pipeline.arrRef spec6 8) (ix2 a b) := by
  obtain ⟨e0, e1⟩ := idx_whole8 t
  show V c (Pipeline.arrRef spec6 8) (((cfg6.win 8).blk t).view.emb (ix2 a b)) = _
  refine congrArg _ ?_
  funext d; apply Fin.ext
  match d with
  | ⟨0, _⟩ => show win6_8.index t (0 : Fin 2) * 128 + 1 * a.val = a.val; omega
  | ⟨1, _⟩ => show win6_8.index t (1 : Fin 2) * 128 + 1 * b.val = b.val; omega

/-- Window 9's block at every point is its whole array. -/
theorem read9 (c : Dev nD) (t : Fin cfg6.N) (a : Fin 1) (b : Fin 128) :
    iblk6 V c 9 t (ix2 a b) = V c (Pipeline.arrRef spec6 9) (ix2 a b) := by
  obtain ⟨e0, e1⟩ := idx_whole9 t
  show V c (Pipeline.arrRef spec6 9) (((cfg6.win 9).blk t).view.emb (ix2 a b)) = _
  refine congrArg _ ?_
  funext d; apply Fin.ext
  match d with
  | ⟨0, _⟩ => show win6_9.index t (0 : Fin 2) * 1 + 1 * a.val = a.val; omega
  | ⟨1, _⟩ => show win6_9.index t (1 : Fin 2) * 128 + 1 * b.val = b.val; omega

/-- Window 10's block at every point is its whole array. -/
theorem read10 (c : Dev nD) (t : Fin cfg6.N) (a : Fin 128) (b : Fin 1) :
    iblk6 V c 10 t (ix2 a b) = V c (Pipeline.arrRef spec6 10) (ix2 a b) := by
  obtain ⟨e0, e1⟩ := idx_whole10 t
  show V c (Pipeline.arrRef spec6 10) (((cfg6.win 10).blk t).view.emb (ix2 a b)) = _
  refine congrArg _ ?_
  funext d; apply Fin.ext
  match d with
  | ⟨0, _⟩ => show win6_10.index t (0 : Fin 2) * 128 + 1 * a.val = a.val; omega
  | ⟨1, _⟩ => show win6_10.index t (1 : Fin 2) * 1 + 1 * b.val = b.val; omega

/-- Window 11's block at every point is its whole array. -/
theorem read11 (c : Dev nD) (t : Fin cfg6.N) (a : Fin 1) (b : Fin 1) :
    iblk6 V c 11 t (ix2 a b) = V c (Pipeline.arrRef spec6 11) (ix2 a b) := by
  obtain ⟨e0, e1⟩ := idx_whole11 t
  show V c (Pipeline.arrRef spec6 11) (((cfg6.win 11).blk t).view.emb (ix2 a b)) = _
  refine congrArg _ ?_
  funext d; apply Fin.ext
  match d with
  | ⟨0, _⟩ => show win6_11.index t (0 : Fin 2) * 1 + 1 * a.val = a.val; omega
  | ⟨1, _⟩ => show win6_11.index t (1 : Fin 2) * 1 + 1 * b.val = b.val; omega

/-- Entry (p, q) of point `t`'s result block is entry (2000·t + p, q) of the array. -/
theorem emb_out (t : Fin cfg6.N) (p : Fin 2000) (q : Fin 1) (hrow : t.val * 2000 + p.val < 50000) :
    ((cfg6.win 12).blk t).view.emb (ix2 p q) = ix2 (⟨t.val * 2000 + p.val, hrow⟩ : Fin 50000) q := by
  obtain ⟨e0, e1⟩ := idx_rows12 t
  funext a; apply Fin.ext
  match a with
  | ⟨0, _⟩ => show win6_12.index t (0 : Fin 2) * 2000 + 1 * p.val = t.val * 2000 + p.val; omega
  | ⟨1, _⟩ => show win6_12.index t (1 : Fin 2) * 1 + 1 * q.val = q.val; omega

/-- The head of a row depends on its eleven arguments only through their values. -/
theorem headRow_congr {ma ma' mb mb' ga ga' gb gb' : Fin 128 → EReal} {wa wa' wb wb' wga wga' wgb wgb' : Fin 128 → Fin 128 → EReal}
    {bc bc' wo wo' : Fin 128 → EReal} {bo bo' : EReal}
    (h0 : ∀ l, ma l = ma' l) (h1 : ∀ l, mb l = mb' l) (h2 : ∀ l, ga l = ga' l) (h3 : ∀ l, gb l = gb' l)
    (h5 : ∀ l k, wa l k = wa' l k) (h6 : ∀ l k, wb l k = wb' l k) (h7 : ∀ l k, wga l k = wga' l k) (h8 : ∀ l k, wgb l k = wgb' l k)
    (h9 : ∀ k, bc k = bc' k) (h10 : ∀ k, wo k = wo' k) (h11 : bo = bo') :
    Cert.Rows.headRow ma mb ga gb wa wb wga wgb bc wo bo = Cert.Rows.headRow ma' mb' ga' gb' wa' wb' wga' wgb' bc' wo' bo' := by
  obtain rfl : ma = ma' := funext h0
  obtain rfl : mb = mb' := funext h1
  obtain rfl : ga = ga' := funext h2
  obtain rfl : gb = gb' := funext h3
  obtain rfl : wa = wa' := funext fun l => funext (h5 l)
  obtain rfl : wb = wb' := funext fun l => funext (h6 l)
  obtain rfl : wga = wga' := funext fun l => funext (h7 l)
  obtain rfl : wgb = wgb' := funext fun l => funext (h8 l)
  obtain rfl : bc = bc' := funext h9
  obtain rfl : wo = wo' := funext h10
  obtain rfl := h11
  rfl

variable (C2 BC : Cert.Spec.Arr Ideal S128 .f32) (WC : Cert.Spec.Arr Ideal S512x128 .f32) (BO : Cert.Spec.Arr Ideal S1 .f32)

/-- The result array the region writes into: the specification's head of the arrays it reads and the parameters. -/
abbrev G (c : Dev nD) : S50000x1.Idx → EReal :=
  Cert.Spec.head (F := Ideal) (V c (Pipeline.arrRef spec6 0)) (V c (Pipeline.arrRef spec6 1))
    (Cert.Spec.relu (F := Ideal) (addf (F := Ideal) (s := S50000x128) (φ := .f32) (V c (Pipeline.arrRef spec6 2)) (Cert.Spec.bias (F := Ideal) C2)))
    (Cert.Spec.relu (F := Ideal) (addf (F := Ideal) (s := S50000x128) (φ := .f32) (V c (Pipeline.arrRef spec6 3)) (Cert.Spec.bias (F := Ideal) C2)))
    WC BC (V c (Pipeline.arrRef spec6 10)) BO

/-- What the small blocks hold. -/
structure Params (c : Dev nD) : Prop where
  hC2 : ∀ k : Fin 128, V c (Pipeline.arrRef spec6 4) (ix2 (0 : Fin 1) k) = C2 (ix1 k)
  hWa : ∀ (l k : Fin 128), V c (Pipeline.arrRef spec6 5) (ix2 l k) = WC (ix2 (⟨l.val, by omega⟩ : Fin 512) k)
  hWb : ∀ (l k : Fin 128), V c (Pipeline.arrRef spec6 6) (ix2 l k) = WC (ix2 (⟨128 + l.val, by omega⟩ : Fin 512) k)
  hWga : ∀ (l k : Fin 128), V c (Pipeline.arrRef spec6 7) (ix2 l k) = WC (ix2 (⟨256 + l.val, by omega⟩ : Fin 512) k)
  hWgb : ∀ (l k : Fin 128), V c (Pipeline.arrRef spec6 8) (ix2 l k) = WC (ix2 (⟨384 + l.val, by omega⟩ : Fin 512) k)
  hBC : ∀ k : Fin 128, V c (Pipeline.arrRef spec6 9) (ix2 (0 : Fin 1) k) = BC (ix1 k)
  hBO : V c (Pipeline.arrRef spec6 11) (ix2 (0 : Fin 1) (0 : Fin 1)) = BO (ix1 (0 : Fin 1))

/-- What point `t` writes back is block `t` of the head's output. -/
theorem flushed_eq (c : Dev nD) (hP : Params V C2 BC WC BO c) (t : Fin cfg6.N) :
    (dat6 V c).flushed 12 t = ((cfg6.win 12).blk t).view.read (Elt Ideal) (G V C2 BC WC BO c) := by
  show (cfg6.win 12).cut (grid6.coords t) ((dat6 V c).after 12 t) = _
  rw [after6_12]
  unfold out6_12
  rw [View.canon_unit_zero hz]
  simp only [View.ld_unit_zero (S := S2000x128) hz, View.ld_unit_zero (S := S1x128) hz, View.ld_unit_zero (S := S128x128) hz,
    View.ld_unit_zero (S := S128x1) hz, View.ld_unit_zero (S := S1x1) hz]
  have ht : t.val < 25 := lt_of_lt_of_eq t.isLt N_6
  funext j
  obtain ⟨p, z, rfl⟩ : ∃ (p : Fin 2000) (z : Fin 1), j = ix2 p z := ⟨j 0, j 1, eq_ix2 j⟩
  have hrow : t.val * 2000 + p.val < 50000 := by have := p.isLt; omega
  refine (Cert.Pay.head_kernel (iblk6 V c 0 t) (iblk6 V c 1 t) (iblk6 V c 2 t) (iblk6 V c 3 t) (iblk6 V c 4 t) (iblk6 V c 5 t)
    (iblk6 V c 6 t) (iblk6 V c 7 t) (iblk6 V c 8 t) (iblk6 V c 9 t) (iblk6 V c 10 t) (iblk6 V c 11 t) p z).trans ?_
  show _ = G V C2 BC WC BO c (((cfg6.win 12).blk t).view.emb (ix2 p z))
  rw [emb_out t p z hrow]
  refine Eq.trans ?_ (Cert.Pay.head_apply _ _ _ _ _ _ _ _ ⟨t.val * 2000 + p.val, hrow⟩ z).symm
  refine headRow_congr (fun l => read0 V c t p l hrow) (fun l => read1 V c t p l hrow) (fun l => ?_) (fun l => ?_)
    (fun l k => (read5 V c t l k).trans (hP.hWa l k)) (fun l k => (read6 V c t l k).trans (hP.hWb l k))
    (fun l k => (read7 V c t l k).trans (hP.hWga l k)) (fun l k => (read8 V c t l k).trans (hP.hWgb l k))
    (fun k => (read9 V c t 0 k).trans (hP.hBC k)) (fun k => read10 V c t k 0) ((read11 V c t 0 0).trans hP.hBO)
  · rw [Cert.Pay.relu_bias_apply, read2 V c t p l hrow, read4 V c t 0 l, hP.hC2 l]
  · rw [Cert.Pay.relu_bias_apply, read3 V c t p l hrow, read4 V c t 0 l, hP.hC2 l]

/-- The 25 row blocks cover the result array: row `i` is in block `i / 2000`. -/
theorem cover (i : S50000x1.Idx) : ∃ t : Fin cfg6.N, (cfg6.win 12).flush t = true ∧ i ∈ ((cfg6.win 12).blk t).view.set := by
  have hi0 : (i 0).val < 50000 := (i 0).isLt
  have hi1 : (i 1).val < 1 := (i 1).isLt
  have hN : cfg6.N = 25 := N_6
  let t : Fin cfg6.N := ⟨(i 0).val / 2000, by rw [hN]; omega⟩
  obtain ⟨e0, e1⟩ := idx_rows12 t
  refine ⟨t, flush6_12 t, ?_⟩
  show i ∈ ((View.whole main_v187).slice (win6_12.rect t)).set
  rw [View.set_slice_whole, Rect.mem_set_unit]
  intro a
  have ht : t.val = (i 0).val / 2000 := rfl
  match a with
  | ⟨0, _⟩ => show win6_12.index t (0 : Fin 2) * 2000 ≤ (i 0).val ∧ (i 0).val < win6_12.index t (0 : Fin 2) * 2000 + 2000; omega
  | ⟨1, _⟩ => show win6_12.index t (1 : Fin 2) * 1 ≤ (i 1).val ∧ (i 1).val < win6_12.index t (1 : Fin 2) * 1 + 1; omega

/-- The region's result array ends holding the head's output. -/
theorem final (c : Dev nD) (hP : Params V C2 BC WC BO c) : (dat6 V c).arrAt 12 cfg6.N = G V C2 BC WC BO c :=
  (dat6 V c).arrAt_eq_of_cover 12 (G V C2 BC WC BO c) (fun t _ => flushed_eq V C2 BC WC BO c hP t) cover

end Cert.KernelIdeal.Region6
-- ==== Proof.Chain.lean ====
/-
  The kernel program's result buffer, read back through the twelve stages of its run, is the specification's
  `result` of the eighteen argument arrays.

  The run alternates stretches of host operations with the seven regions. A buffer that a stage does not write keeps
  its contents through it; so each argument array is, at every stage, what it was at launch, and each intermediate
  array is, from the stage that writes it on, what that stage left. Reading the stages in order:
    the two perceptron regions leave `mlp` of the metadata arrays;
    the two projection regions leave `proj` of the node features; a host stretch aggregates them (`conv`);
    the two middle regions leave `mid` of the aggregated arrays; a host stretch aggregates again and cuts the dense
      layer's weights into its four stretches of rows;
    the last region leaves `head` of all of these — which is `result`, by the specification's own definition.
  The aggregation is applied by both programs as one function and is never opened here.
-/
import proofs.«106528_j111669149893_1_alg».proof.Proof.Gen.KernelIdeal.Frame
import proofs.«106528_j111669149893_1_alg».proof.Proof.Keep
import proofs.«106528_j111669149893_1_alg».proof.Proof.HostVals
import proofs.«106528_j111669149893_1_alg».proof.Proof.HostSmall
import proofs.«106528_j111669149893_1_alg».proof.Proof.Region0
import proofs.«106528_j111669149893_1_alg».proof.Proof.Region1
import proofs.«106528_j111669149893_1_alg».proof.Proof.Region2
import proofs.«106528_j111669149893_1_alg».proof.Proof.Region3
import proofs.«106528_j111669149893_1_alg».proof.Proof.Region4
import proofs.«106528_j111669149893_1_alg».proof.Proof.Region5
import proofs.«106528_j111669149893_1_alg».proof.Proof.Region6
import proofs.«106528_j111669149893_1_alg».proof.Proof.Spec

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem

/-- A buffer that no stage of the run writes: not a result of any host operation, not a region's result array. -/
structure Never (r : Ref sig .tc) : Prop where
  h0 : r ∉ Keep.hostOps0_W
  h1 : r ∉ Keep.hostOps1_W
  h4 : r ∉ Keep.hostOps4_W
  h5 : r ∉ Keep.hostOps5_W
  h6 : r ∉ Keep.hostOps6_W
  o0 : r ≠ main_v2
  o1 : r ≠ main_v5
  o2 : r ≠ main_v6
  o3 : r ≠ main_v7
  o4 : r ≠ main_v93
  o5 : r ≠ main_v95
  o6 : r ≠ main_v187

theorem nv_arg0 : Never main_arg0 := ⟨by decide, by decide, by decide, by decide, by decide, by decide, by decide, by decide, by decide, by decide, by decide, by decide⟩
theorem nv_arg1 : Never main_arg1 := ⟨by decide, by decide, by decide, by decide, by decide, by decide, by decide, by decide, by decide, by decide, by decide, by decide⟩
theorem nv_arg2 : Never main_arg2 := ⟨by decide, by decide, by decide, by decide, by decide, by decide, by decide, by decide, by decide, by decide, by decide, by decide⟩
theorem nv_arg3 : Never main_arg3 := ⟨by decide, by decide, by decide, by decide, by decide, by decide, by decide, by decide, by decide, by decide, by decide, by decide⟩
theorem nv_arg4 : Never main_arg4 := ⟨by decide, by decide, by decide, by decide, by decide, by decide, by decide, by decide, by decide, by decide, by decide, by decide⟩
theorem nv_arg5 : Never main_arg5 := ⟨by decide, by decide, by decide, by decide, by decide, by decide, by decide, by decide, by decide, by decide, by decide, by decide⟩
theorem nv_arg6 : Never main_arg6 := ⟨by decide, by decide, by decide, by decide, by decide, by decide, by decide, by decide, by decide, by decide, by decide, by decide⟩
theorem nv_arg7 : Never main_arg7 := ⟨by decide, by decide, by decide, by decide, by decide, by decide, by decide, by decide, by decide, by decide, by decide, by decide⟩
theorem nv_arg8 : Never main_arg8 := ⟨by decide, by decide, by decide, by decide, by decide, by decide, by decide, by decide, by decide, by decide, by decide, by decide⟩
theorem nv_arg9 : Never main_arg9 := ⟨by decide, by decide, by decide, by decide, by decide, by decide, by decide, by decide, by decide, by decide, by decide, by decide⟩
theorem nv_arg10 : Never main_arg10 := ⟨by decide, by decide, by decide, by decide, by decide, by decide, by decide, by decide, by decide, by decide, by decide, by decide⟩
theorem nv_arg11 : Never main_arg11 := ⟨by decide, by decide, by decide, by decide, by decide, by decide, by decide, by decide, by decide, by decide, by decide, by decide⟩
theorem nv_arg12 : Never main_arg12 := ⟨by decide, by decide, by decide, by decide, by decide, by decide, by decide, by decide, by decide, by decide, by decide, by decide⟩
theorem nv_arg13 : Never main_arg13 := ⟨by decide, by decide, by decide, by decide, by decide, by decide, by decide, by decide, by decide, by decide, by decide, by decide⟩
theorem nv_arg14 : Never main_arg14 := ⟨by decide, by decide, by decide, by decide, by decide, by decide, by decide, by decide, by decide, by decide, by decide, by decide⟩
theorem nv_arg15 : Never main_arg15 := ⟨by decide, by decide, by decide, by decide, by decide, by decide, by decide, by decide, by decide, by decide, by decide, by decide⟩
theorem nv_arg16 : Never main_arg16 := ⟨by decide, by decide, by decide, by decide, by decide, by decide, by decide, by decide, by decide, by decide, by decide, by decide⟩
theorem nv_arg17 : Never main_arg17 := ⟨by decide, by decide, by decide, by decide, by decide, by decide, by decide, by decide, by decide, by decide, by decide, by decide⟩

variable (m : (ℓ : Loc nD τ sig) → Buf (Elt Ideal) ℓ) (ρ : Dev nD → PrngReg) (c : Dev nD)

section never
variable {r : Ref sig .tc} (h : Never r)
include h

/-! A never-written buffer holds its launch contents at every stage. -/
theorem w1 : W1 m ρ c (Proc.devRef .tc r) = W0 m ρ c (Proc.devRef .tc r) := Keep.host0 m ρ c r h.h0
theorem w2 : W2 m ρ c (Proc.devRef .tc r) = W0 m ρ c (Proc.devRef .tc r) := (Keep.reg0 m ρ c r h.o0).trans (w1 m ρ c h)
theorem w3 : W3 m ρ c (Proc.devRef .tc r) = W0 m ρ c (Proc.devRef .tc r) := (Keep.host1 m ρ c r h.h1).trans (w2 m ρ c h)
theorem w4 : W4 m ρ c (Proc.devRef .tc r) = W0 m ρ c (Proc.devRef .tc r) := (Keep.reg1 m ρ c r h.o1).trans (w3 m ρ c h)
theorem w5 : W5 m ρ c (Proc.devRef .tc r) = W0 m ρ c (Proc.devRef .tc r) := (Keep.reg2 m ρ c r h.o2).trans (w4 m ρ c h)
theorem w6 : W6 m ρ c (Proc.devRef .tc r) = W0 m ρ c (Proc.devRef .tc r) := (Keep.reg3 m ρ c r h.o3).trans (w5 m ρ c h)
theorem w7 : W7 m ρ c (Proc.devRef .tc r) = W0 m ρ c (Proc.devRef .tc r) := (Keep.host4 m ρ c r h.h4).trans (w6 m ρ c h)
theorem w8 : W8 m ρ c (Proc.devRef .tc r) = W0 m ρ c (Proc.devRef .tc r) := (Keep.reg4 m ρ c r h.o4).trans (w7 m ρ c h)
theorem w9 : W9 m ρ c (Proc.devRef .tc r) = W0 m ρ c (Proc.devRef .tc r) := (Keep.host5 m ρ c r h.h5).trans (w8 m ρ c h)
theorem w10 : W10 m ρ c (Proc.devRef .tc r) = W0 m ρ c (Proc.devRef .tc r) := (Keep.reg5 m ρ c r h.o5).trans (w9 m ρ c h)
theorem w11 : W11 m ρ c (Proc.devRef .tc r) = W0 m ρ c (Proc.devRef .tc r) := (Keep.host6 m ρ c r h.h6).trans (w10 m ρ c h)

end never

/-! ## The perceptron regions -/

/-- Region 0 leaves the perceptron of the first metadata array. -/
theorem ma_eq : W2 m ρ c (Proc.devRef .tc main_v2) = Cert.Spec.mlp (F := Ideal) (m ((c : Thread nD τ).loc main_arg0)) (m ((c : Thread nD τ).loc main_arg6)) (m ((c : Thread nD τ).loc main_arg7)) (m ((c : Thread nD τ).loc main_arg8)) (m ((c : Thread nD τ).loc main_arg9)) := by
  refine (W2_arr m ρ c 5).trans ((Region0.final (V1 m ρ) (m ((c : Thread nD τ).loc main_arg7)) (m ((c : Thread nD τ).loc main_arg9)) c
    (fun k => HostSmall.v0_apply m ρ c k) (fun k => HostSmall.v1_apply m ρ c k)).trans ?_)
  have e0 : V1 m ρ c (Pipeline.arrRef spec0 0) = (m ((c : Thread nD τ).loc main_arg0)) := w1 m ρ c nv_arg0
  have e1 : V1 m ρ c (Pipeline.arrRef spec0 1) = (m ((c : Thread nD τ).loc main_arg6)) := w1 m ρ c nv_arg6
  have e3 : V1 m ρ c (Pipeline.arrRef spec0 3) = (m ((c : Thread nD τ).loc main_arg8)) := w1 m ρ c nv_arg8
  show Cert.Spec.mlp (F := Ideal) (V1 m ρ c (Pipeline.arrRef spec0 0)) (V1 m ρ c (Pipeline.arrRef spec0 1)) _ (V1 m ρ c (Pipeline.arrRef spec0 3)) _ = _
  rw [e0, e1, e3]

/-- Region 1 leaves the perceptron of the second metadata array. -/
theorem mb_eq : W4 m ρ c (Proc.devRef .tc main_v5) = Cert.Spec.mlp (F := Ideal) (m ((c : Thread nD τ).loc main_arg1)) (m ((c : Thread nD τ).loc main_arg6)) (m ((c : Thread nD τ).loc main_arg7)) (m ((c : Thread nD τ).loc main_arg8)) (m ((c : Thread nD τ).loc main_arg9)) := by
  refine (W4_arr m ρ c 5).trans ((Region1.final (V3 m ρ) (m ((c : Thread nD τ).loc main_arg7)) (m ((c : Thread nD τ).loc main_arg9)) c
    (fun k => (HostSmall.v3_apply m ρ c k).trans (congrFun (w2 m ρ c nv_arg7) _))
    (fun k => (HostSmall.v4_apply m ρ c k).trans (congrFun (w2 m ρ c nv_arg9) _))).trans ?_)
  have e0 : V3 m ρ c (Pipeline.arrRef spec1 0) = (m ((c : Thread nD τ).loc main_arg1)) := w3 m ρ c nv_arg1
  have e1 : V3 m ρ c (Pipeline.arrRef spec1 1) = (m ((c : Thread nD τ).loc main_arg6)) := w3 m ρ c nv_arg6
  have e3 : V3 m ρ c (Pipeline.arrRef spec1 3) = (m ((c : Thread nD τ).loc main_arg8)) := w3 m ρ c nv_arg8
  show Cert.Spec.mlp (F := Ideal) (V3 m ρ c (Pipeline.arrRef spec1 0)) (V3 m ρ c (Pipeline.arrRef spec1 1)) _ (V3 m ρ c (Pipeline.arrRef spec1 3)) _ = _
  rw [e0, e1, e3]

/-! ## The projection regions -/

theorem pa_eq : W5 m ρ c (Proc.devRef .tc main_v6) = Cert.Spec.proj (F := Ideal) (m ((c : Thread nD τ).loc main_arg2)) (m ((c : Thread nD τ).loc main_arg10)) := by
  refine (W5_arr m ρ c 2).trans ((Region2.final (V4 m ρ) c).trans ?_)
  have e0 : V4 m ρ c (Pipeline.arrRef spec2 0) = (m ((c : Thread nD τ).loc main_arg2)) := w4 m ρ c nv_arg2
  have e1 : V4 m ρ c (Pipeline.arrRef spec2 1) = (m ((c : Thread nD τ).loc main_arg10)) := w4 m ρ c nv_arg10
  show Cert.Spec.proj (F := Ideal) (V4 m ρ c (Pipeline.arrRef spec2 0)) (V4 m ρ c (Pipeline.arrRef spec2 1)) = _
  rw [e0, e1]

theorem pb_eq : W6 m ρ c (Proc.devRef .tc main_v7) = Cert.Spec.proj (F := Ideal) (m ((c : Thread nD τ).loc main_arg3)) (m ((c : Thread nD τ).loc main_arg10)) := by
  refine (W6_arr m ρ c 2).trans ((Region3.final (V5 m ρ) c).trans ?_)
  have e0 : V5 m ρ c (Pipeline.arrRef spec3 0) = (m ((c : Thread nD τ).loc main_arg3)) := w5 m ρ c nv_arg3
  have e1 : V5 m ρ c (Pipeline.arrRef spec3 1) = (m ((c : Thread nD τ).loc main_arg10)) := w5 m ρ c nv_arg10
  show Cert.Spec.proj (F := Ideal) (V5 m ρ c (Pipeline.arrRef spec3 0)) (V5 m ρ c (Pipeline.arrRef spec3 1)) = _
  rw [e0, e1]

/-! ## The first aggregation and the middle regions -/

/-- The first graph's projected features, aggregated. -/
theorem agg1a_eq : W7 m ρ c (Proc.devRef .tc main_v49) = Cert.Spec.conv (F := Ideal) (Cert.Spec.proj (F := Ideal) (m ((c : Thread nD τ).loc main_arg2)) (m ((c : Thread nD τ).loc main_arg10))) (m ((c : Thread nD τ).loc main_arg4)) := by
  rw [HostVals.v49_eq m ρ c, (Keep.reg3 m ρ c main_v6 (by decide)).trans (pa_eq m ρ c), w6 m ρ c nv_arg4]

/-- The second graph's projected features, aggregated. -/
theorem agg1b_eq : W7 m ρ c (Proc.devRef .tc main_v91) = Cert.Spec.conv (F := Ideal) (Cert.Spec.proj (F := Ideal) (m ((c : Thread nD τ).loc main_arg3)) (m ((c : Thread nD τ).loc main_arg10))) (m ((c : Thread nD τ).loc main_arg5)) := by
  rw [HostVals.v91_eq m ρ c, pb_eq m ρ c, w6 m ρ c nv_arg5]

theorem h2a_eq : W8 m ρ c (Proc.devRef .tc main_v93)
    = Cert.Spec.mid (F := Ideal) (Cert.Spec.conv (F := Ideal) (Cert.Spec.proj (F := Ideal) (m ((c : Thread nD τ).loc main_arg2)) (m ((c : Thread nD τ).loc main_arg10))) (m ((c : Thread nD τ).loc main_arg4))) (m ((c : Thread nD τ).loc main_arg11)) (m ((c : Thread nD τ).loc main_arg12)) := by
  refine (W8_arr m ρ c 3).trans ((Region4.final (V7 m ρ) (m ((c : Thread nD τ).loc main_arg11)) c
    (fun k => (HostSmall.v92_apply m ρ c k).trans (congrFun (w6 m ρ c nv_arg11) _))).trans ?_)
  have e0 : V7 m ρ c (Pipeline.arrRef spec4 0) = _ := agg1a_eq m ρ c
  have e2 : V7 m ρ c (Pipeline.arrRef spec4 2) = (m ((c : Thread nD τ).loc main_arg12)) := w7 m ρ c nv_arg12
  show Cert.Spec.mid (F := Ideal) (V7 m ρ c (Pipeline.arrRef spec4 0)) _ (V7 m ρ c (Pipeline.arrRef spec4 2)) = _
  rw [e0, e2]

theorem h2b_eq : W10 m ρ c (Proc.devRef .tc main_v95)
    = Cert.Spec.mid (F := Ideal) (Cert.Spec.conv (F := Ideal) (Cert.Spec.proj (F := Ideal) (m ((c : Thread nD τ).loc main_arg3)) (m ((c : Thread nD τ).loc main_arg10))) (m ((c : Thread nD τ).loc main_arg5))) (m ((c : Thread nD τ).loc main_arg11)) (m ((c : Thread nD τ).loc main_arg12)) := by
  refine (W10_arr m ρ c 3).trans ((Region5.final (V9 m ρ) (m ((c : Thread nD τ).loc main_arg11)) c
    (fun k => (HostSmall.v94_apply m ρ c k).trans (congrFun (w8 m ρ c nv_arg11) _))).trans ?_)
  have e0 : V9 m ρ c (Pipeline.arrRef spec5 0) = _ :=
    (Keep.host5 m ρ c main_v91 (by decide)).trans ((Keep.reg4 m ρ c main_v91 (by decide)).trans (agg1b_eq m ρ c))
  have e2 : V9 m ρ c (Pipeline.arrRef spec5 2) = (m ((c : Thread nD τ).loc main_arg12)) := w9 m ρ c nv_arg12
  show Cert.Spec.mid (F := Ideal) (V9 m ρ c (Pipeline.arrRef spec5 0)) _ (V9 m ρ c (Pipeline.arrRef spec5 2)) = _
  rw [e0, e2]

/-! ## The second aggregation -/

theorem agg2a_eq : W11 m ρ c (Proc.devRef .tc main_v137)
    = Cert.Spec.conv (F := Ideal) (Cert.Spec.mid (F := Ideal) (Cert.Spec.conv (F := Ideal) (Cert.Spec.proj (F := Ideal) (m ((c : Thread nD τ).loc main_arg2)) (m ((c : Thread nD τ).loc main_arg10))) (m ((c : Thread nD τ).loc main_arg4))) (m ((c : Thread nD τ).loc main_arg11)) (m ((c : Thread nD τ).loc main_arg12))) (m ((c : Thread nD τ).loc main_arg4)) := by
  rw [HostVals.v137_eq m ρ c,
    (Keep.reg5 m ρ c main_v93 (by decide)).trans ((Keep.host5 m ρ c main_v93 (by decide)).trans (h2a_eq m ρ c)),
    w10 m ρ c nv_arg4]

theorem agg2b_eq : W11 m ρ c (Proc.devRef .tc main_v179)
    = Cert.Spec.conv (F := Ideal) (Cert.Spec.mid (F := Ideal) (Cert.Spec.conv (F := Ideal) (Cert.Spec.proj (F := Ideal) (m ((c : Thread nD τ).loc main_arg3)) (m ((c : Thread nD τ).loc main_arg10))) (m ((c : Thread nD τ).loc main_arg5))) (m ((c : Thread nD τ).loc main_arg11)) (m ((c : Thread nD τ).loc main_arg12))) (m ((c : Thread nD τ).loc main_arg5)) := by
  rw [HostVals.v179_eq m ρ c, h2b_eq m ρ c, w10 m ρ c nv_arg5]

/-! ## The perceptron outputs at the last region's entry -/

theorem ma_at11 : W11 m ρ c (Proc.devRef .tc main_v2) = Cert.Spec.mlp (F := Ideal) (m ((c : Thread nD τ).loc main_arg0)) (m ((c : Thread nD τ).loc main_arg6)) (m ((c : Thread nD τ).loc main_arg7)) (m ((c : Thread nD τ).loc main_arg8)) (m ((c : Thread nD τ).loc main_arg9)) :=
  (Keep.host6 m ρ c main_v2 (by decide)).trans <| (Keep.reg5 m ρ c main_v2 (by decide)).trans <|
  (Keep.host5 m ρ c main_v2 (by decide)).trans <| (Keep.reg4 m ρ c main_v2 (by decide)).trans <|
  (Keep.host4 m ρ c main_v2 (by decide)).trans <| (Keep.reg3 m ρ c main_v2 (by decide)).trans <|
  (Keep.reg2 m ρ c main_v2 (by decide)).trans <| (Keep.reg1 m ρ c main_v2 (by decide)).trans <|
  (Keep.host1 m ρ c main_v2 (by decide)).trans (ma_eq m ρ c)

theorem mb_at11 : W11 m ρ c (Proc.devRef .tc main_v5) = Cert.Spec.mlp (F := Ideal) (m ((c : Thread nD τ).loc main_arg1)) (m ((c : Thread nD τ).loc main_arg6)) (m ((c : Thread nD τ).loc main_arg7)) (m ((c : Thread nD τ).loc main_arg8)) (m ((c : Thread nD τ).loc main_arg9)) :=
  (Keep.host6 m ρ c main_v5 (by decide)).trans <| (Keep.reg5 m ρ c main_v5 (by decide)).trans <|
  (Keep.host5 m ρ c main_v5 (by decide)).trans <| (Keep.reg4 m ρ c main_v5 (by decide)).trans <|
  (Keep.host4 m ρ c main_v5 (by decide)).trans <| (Keep.reg3 m ρ c main_v5 (by decide)).trans <|
  (Keep.reg2 m ρ c main_v5 (by decide)).trans (mb_eq m ρ c)

/-! ## The last region -/

/-- The small blocks of the last region hold the parameters they are cut from. -/
theorem params : Region6.Params (V11 m ρ) (m ((c : Thread nD τ).loc main_arg13)) (m ((c : Thread nD τ).loc main_arg15)) (m ((c : Thread nD τ).loc main_arg14)) (m ((c : Thread nD τ).loc main_arg17)) c where
  hC2 := fun k => (HostSmall.v184_apply m ρ c k).trans (congrFun (w10 m ρ c nv_arg13) _)
  hWa := fun l k => (HostSmall.v180_apply m ρ c l k).trans (congrFun (w10 m ρ c nv_arg14) _)
  hWb := fun l k => (HostSmall.v181_apply m ρ c l k).trans (congrFun (w10 m ρ c nv_arg14) _)
  hWga := fun l k => (HostSmall.v182_apply m ρ c l k).trans (congrFun (w10 m ρ c nv_arg14) _)
  hWgb := fun l k => (HostSmall.v183_apply m ρ c l k).trans (congrFun (w10 m ρ c nv_arg14) _)
  hBC := fun k => (HostSmall.v185_apply m ρ c k).trans (congrFun (w10 m ρ c nv_arg15) _)
  hBO := (HostSmall.v186_apply m ρ c).trans (congrFun (w10 m ρ c nv_arg17) _)

/-- THE VALUE: the result buffer at the last stage is the specification's result of the arguments as launched. -/
theorem value : W12 m ρ c (Proc.devRef .tc main_v187)
    = Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W12_arr m ρ c 12).trans ((Region6.final (V11 m ρ) (m ((c : Thread nD τ).loc main_arg13)) (m ((c : Thread nD τ).loc main_arg15)) (m ((c : Thread nD τ).loc main_arg14)) (m ((c : Thread nD τ).loc main_arg17)) c (params m ρ c)).trans ?_)
  have e0 : V11 m ρ c (Pipeline.arrRef spec6 0) = _ := ma_at11 m ρ c
  have e1 : V11 m ρ c (Pipeline.arrRef spec6 1) = _ := mb_at11 m ρ c
  have e2 : V11 m ρ c (Pipeline.arrRef spec6 2) = _ := agg2a_eq m ρ c
  have e3 : V11 m ρ c (Pipeline.arrRef spec6 3) = _ := agg2b_eq m ρ c
  have e10 : V11 m ρ c (Pipeline.arrRef spec6 10) = (m ((c : Thread nD τ).loc main_arg16)) := w11 m ρ c nv_arg16
  show Cert.Spec.head (F := Ideal) (V11 m ρ c (Pipeline.arrRef spec6 0)) (V11 m ρ c (Pipeline.arrRef spec6 1))
    (Cert.Spec.relu (F := Ideal) (addf (F := Ideal) (s := S50000x128) (φ := .f32) (V11 m ρ c (Pipeline.arrRef spec6 2)) (Cert.Spec.bias (F := Ideal) (m ((c : Thread nD τ).loc main_arg13)))))
    (Cert.Spec.relu (F := Ideal) (addf (F := Ideal) (s := S50000x128) (φ := .f32) (V11 m ρ c (Pipeline.arrRef spec6 3)) (Cert.Spec.bias (F := Ideal) (m ((c : Thread nD τ).loc main_arg13)))))
    _ _ (V11 m ρ c (Pipeline.arrRef spec6 10)) _ = _
  rw [e0, e1, e2, e3, e10]
  rfl

end Cert.KernelIdeal.Chain
-- ==== Proof.lean ====
/-
  The proof of `Cert.Claim`: the kernel program and the reference compute the same network.

  The network is written once, as functions of whole arrays (Proof/Spec.lean): two perceptrons, two two-layer graph
  convolutions, a dense layer over the four results side by side, an output unit, a logistic. The reference program's
  result is that function of its arguments by unfolding its stages (Proof/RefSide.lean). The kernel program runs seven
  regions among stretches of host operations; each region's result array is shown, index by index, to be the
  corresponding layer of the arrays the region reads (Proof/Region0 … Region6, over the per-row formulas of
  Proof/Rows.lean: a block row times the weights, the bias, relu; in the last region the dense layer over 512 features
  as the four 128-feature products added in order, which is the same sum re-associated), and the aggregation along the
  edges is the same host function in both programs, applied to arrays shown equal (Proof/HostVals.lean); reading the
  result buffer back through the run's stages gives the same function of the arguments (Proof/Chain.lean). At the
  ideal instance a change of float format is the identity and every operation is exact, so nothing is approximated;
  no finiteness of the inputs is used.

  The three frames: the two kernel programs by their generated frame certificates, the reference by its run. The
  idealization ledger is empty.
-/
import proofs.«106528_j111669149893_1_alg».proof.Defs
import proofs.«106528_j111669149893_1_alg».proof.Proof.Gen.Kernel
import proofs.«106528_j111669149893_1_alg».proof.Proof.Gen.Kernel.Skeleton
import proofs.«106528_j111669149893_1_alg».proof.Proof.Gen.Kernel.Launch
import proofs.«106528_j111669149893_1_alg».proof.Proof.Gen.Kernel.Points
import proofs.«106528_j111669149893_1_alg».proof.Proof.Gen.Kernel.Frame
import proofs.«106528_j111669149893_1_alg».proof.Proof.Gen.KernelIdeal
import proofs.«106528_j111669149893_1_alg».proof.Proof.Gen.KernelIdeal.Skeleton
import proofs.«106528_j111669149893_1_alg».proof.Proof.Gen.KernelIdeal.Launch
import proofs.«106528_j111669149893_1_alg».proof.Proof.Gen.KernelIdeal.Points
import proofs.«106528_j111669149893_1_alg».proof.Proof.Gen.KernelIdeal.Frame
import proofs.«106528_j111669149893_1_alg».proof.Proof.Gen.ReferenceIdeal
import proofs.«106528_j111669149893_1_alg».proof.Proof.Gen.Pre_finite_inputs
import proofs.«106528_j111669149893_1_alg».proof.Proof.Gen.ReferenceIdeal.Run
import proofs.«106528_j111669149893_1_alg».proof.Proof.Gen.ReferenceIdeal.Read
import proofs.«106528_j111669149893_1_alg».proof.Proof.RefSide
import proofs.«106528_j111669149893_1_alg».proof.Proof.KernelRun
import proofs.«106528_j111669149893_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result of the arguments: the kernel program by reading its result
    buffer back through its stages, the reference by unfolding its own; the two memories agree on the arguments. -/
theorem algebraic : Cert.algebraic_KernelIdeal_ReferenceIdeal := by
  intro m ρ m' ρ' _ hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Chain.value m ρ c), (h c).2⟩) (Cert.KernelIdeal.Run.run m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v223_eq m' c).trans ((Cert.RefSide.result_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))).trans ?_))
    obtain ⟨g0, g1, g2, g3, g4, g5, g6, g7, g8, g9, g10, g11, g12, g13, g14, g15, g16, g17⟩ := hagree c
    rw [g0, g1, g2, g3, g4, g5, g6, g7, g8, g9, g10, g11, g12, g13, g14, g15, g16, g17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
